-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S64x1 : Shape := ⟨2, ![64, 1]⟩
abbrev S64 : Shape := ⟨1, ![64]⟩
abbrev S64x64 : Shape := ⟨2, ![64, 64]⟩
abbrev S_ : Shape := ⟨0, ![]⟩

class Facts : Prop where
  bcast_S_S64x1 : S_.BroadcastsInDim S64x1 (![] : Fin 0 → Fin S64x1.rank)
  reducesTo_S64x1_S_d0_1 : S64x1.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : IVec S64x1024 32) (main_arg1 : IVec S64x1024 32) (main_arg2 : FVec F S64x1 .f32) (main_arg3 : FVec F S64 .f32) (main_arg4 : FVec F S64x64 .f32) (main_arg5 : FVec F S64 .f32) : IVec S_ 1 :=
  let main_v0 : FVec F S64x1 .f32 := Host.absf main_arg2
  let main_cst : FVec F S_ .f32 := constant S_ .f32 0x7F800000#32
  let main_v1 : FVec F S64x1 .f32 := broadcastInDim S64x1 ![] bcast_S_S64x1 main_cst
  let main_v2 : IVec S64x1 1 := cmpf .olt main_v0 main_v1
  let main_c : IVec S_ 1 := constantI S_ 1 1#1
  let main_v3 : IVec S_ 1 := (fun x v => Host.reduce IntOp.andi x v reducesTo_S64x1_S_d0_1 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S64x1024 : Shape := ⟨2, ![64, 1024]⟩
abbrev S64x1 : Shape := ⟨2, ![64, 1]⟩
abbrev S64 : Shape := ⟨1, ![64]⟩
abbrev S64x64 : Shape := ⟨2, ![64, 64]⟩
abbrev S1x64 : Shape := ⟨2, ![1, 64]⟩
abbrev S64x1024x64 : Shape := ⟨3, ![64, 1024, 64]⟩
abbrev S8x1024 : Shape := ⟨2, ![8, 1024]⟩
abbrev S8x128 : Shape := ⟨2, ![8, 128]⟩
abbrev S8x1024x64 : Shape := ⟨3, ![8, 1024, 64]⟩
abbrev S8x1024x1 : Shape := ⟨3, ![8, 1024, 1]⟩
abbrev S8x1x128 : Shape := ⟨3, ![8, 1, 128]⟩
abbrev S8x1024x128 : Shape := ⟨3, ![8, 1024, 128]⟩
abbrev S1x1x64 : Shape := ⟨3, ![1, 1, 64]⟩
abbrev S8192x64 : Shape := ⟨2, ![8192, 64]⟩

abbrev nBuf : Space → Nat
  | .hbm => 13
  | .vmem => 20
  | .smem => 0
  | _ => 0

abbrev bufTy : (tb : Table) → Fin (tcTables nBuf tb) → BufTy
  | .hbm, ⟨0, _⟩ => ⟨S64x1024, .i32⟩
  | .hbm, ⟨1, _⟩ => ⟨S64x1024, .i32⟩
  | .hbm, ⟨2, _⟩ => ⟨S64x1, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S1x64, .f32⟩
  | .hbm, ⟨8, _⟩ => ⟨S1x64, .f32⟩
  | .hbm, ⟨9, _⟩ => ⟨S64x64, .f32⟩
  | .hbm, ⟨10, _⟩ => ⟨S1x64, .f32⟩
  | .hbm, ⟨11, _⟩ => ⟨S64x1024x64, .f32⟩
  | .hbm, ⟨12, _⟩ => ⟨S64x1024x64, .f32⟩
  | .local _ .vmem, ⟨0, _⟩ => ⟨S8x1024, .i32⟩
  | .local _ .vmem, ⟨1, _⟩ => ⟨S8x1024, .i32⟩
  | .local _ .vmem, ⟨2, _⟩ => ⟨S8x1024, .i32⟩
  | .local _ .vmem, ⟨3, _⟩ => ⟨S8x1024, .i32⟩
  | .local _ .vmem, ⟨4, _⟩ => ⟨S8x128, .i32⟩
  | .local _ .vmem, ⟨5, _⟩ => ⟨S8x128, .i32⟩
  | .local _ .vmem, ⟨6, _⟩ => ⟨S8x128, .i32⟩
  | .local _ .vmem, ⟨7, _⟩ => ⟨S8x128, .i32⟩
  | .local _ .vmem, ⟨8, _⟩ => ⟨S1x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S8x1024x64, .f32⟩
  | .local _ .vmem, ⟨13, _⟩ => ⟨S8x1024x64, .f32⟩
  | .local _ .vmem, ⟨14, _⟩ => ⟨S8x1024x64, .f32⟩
  | .local _ .vmem, ⟨15, _⟩ => ⟨S8x1024x64, .f32⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | .local _ .vmem, ⟨19, _⟩ => ⟨S8x1024, .f32⟩
  | _, _ => ⟨S64x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c128_i32 : BitVec 32 := 128#32
  let v34 : BitVec 32 := Scalar.muli arg1 c128_i32
  v34
def k0_off1 (i : grid0.Coords) : Fin 2 → Nat :=
  let c0_18 : Index := 0#32
  let arg1 : BitVec 32 := BitVec.ofNat 32 (i 1).val
  let c128_i32 : BitVec 32 := 128#32
  let v34 : BitVec 32 := Scalar.muli arg1 c128_i32
  let v35 : BitVec 32 := v34
  let v36 : Index := Scalar.indexCast v35
  ![0, v36.toNat]
def k0_cond2 (i : grid0.Coords) : BitVec 1 :=
  let arg1 : BitVec 32 := BitVec.ofNat 32 (i 1).val
  let c7_i32 : BitVec 32 := 7#32
  let v53 : BitVec 1 := Scalar.cmpi .eq arg1 c7_i32
  let v54 : BitVec 32 := Scalar.extui v53
  let c0_i32_24 : BitVec 32 := 0#32
  let v55 : BitVec 1 := Scalar.cmpi .ne v54 c0_i32_24
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x1024x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S64x1_S64 : S64x1.ShapeCasts S64
  shapeCasts_S64_S1x64 : S64.ShapeCasts S1x64
  transposes_S64x64_S64x64_1_0 : S64x64.Transposes [1, 0] S64x64
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S8x128_S8x128_0_0 : ∀ a, (![0, 0] : Fin 2 → Nat) a + S8x128.size a ≤ S8x128.size a
  h_S8x128 : 0 < S8x128.numel
  shapeCasts_S8x1024_S8x1024x1 : S8x1024.ShapeCasts S8x1024x1
  shapeCasts_S8x128_S8x1x128 : S8x128.ShapeCasts S8x1x128
  broadcasts_S8x1024x1_S8x1024x128 : S8x1024x1.Broadcasts S8x1024x128
  broadcasts_S8x1x128_S8x1024x128 : S8x1x128.Broadcasts S8x1024x128
  natLt_1_32 : 1 < 32
  reduces_S8x1024x128_S8x1024 : S8x1024x128.Reduces [2] S8x1024
  reduces_S8x1024x128_S8x128 : S8x1024x128.Reduces [1] S8x128
  shapeCasts_S8x128_S8x128 : S8x128.ShapeCasts S8x128
  inb_S1x64_S1x64_0_0 : ∀ a, (![0, 0] : Fin 2 → Nat) a + S1x64.size a ≤ S1x64.size a
  h_S1x64 : 0 < S1x64.numel
  shapeCasts_S1x64_S64 : S1x64.ShapeCasts S64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64_S1x1x64 : S64.ShapeCasts S1x1x64
  broadcasts_S8x1024x1_S8x1024x64 : S8x1024x1.Broadcasts S8x1024x64
  broadcasts_S1x1x64_S8x1024x64 : S1x1x64.Broadcasts S8x1024x64
  bitsLt_bf16_f32 : FTy.bits .bf16 < FTy.bits .f32
  shapeCasts_S8x1024x64_S8192x64 : S8x1024x64.ShapeCasts S8192x64
  shapeCasts_S8192x64_S8x1024x64 : S8192x64.ShapeCasts S8x1024x64
  inb_S8x1024x64_S8x1024x64_0_0_0 : ∀ a, (![0, 0, 0] : Fin 3 → Nat) a + S8x1024x64.size a ≤ S8x1024x64.size a
  h_S8x1024x64 : 0 < S8x1024x64.numel
  dot_S8192x64_S64x64_S8192x64_1_0_0_1_n_n_wf : DotDims.WF S8192x64 S64x64 S8192x64 [1] [0] [0] [1] [] []
  hrank0 : 0 < grid0.rank
  k0_mult1_dvd : ∀ i : grid0.Coords, 128 ∣ (k0_mult1 i).toNat
  k0_off1_inb : ∀ i : grid0.Coords, ∀ a, (k0_off1 i) a + S8x128.size a ≤ S8x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S64x1024.size a
  hwx0_0 : ∀ i : grid0.Coords, EltTy.bits .i32 = 32 ∨ (Rect.block (s := S64x1024) S8x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S64x1024.size a
  hwx0_1 : ∀ i : grid0.Coords, EltTy.bits .i32 = 32 ∨ (Rect.block (s := S64x1024) S8x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x1024.size a
  hwx0_2 : ∀ i : grid0.Coords, EltTy.bits .i32 = 32 ∨ (Rect.block (s := S64x1024) S8x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S64x1024.size a
  hwx0_3 : ∀ i : grid0.Coords, EltTy.bits .i32 = 32 ∨ (Rect.block (s := S64x1024) S8x128.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x1024x64.size a ≤ S64x1024x64.size a
  hwx0_8 : ∀ i : grid0.Coords, EltTy.bits .f32 = 32 ∨ (Rect.block (s := S64x1024x64) S8x1024x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x1024x64.size a ≤ S64x1024x64.size a
  hwx0_9 : ∀ i : grid0.Coords, EltTy.bits .f32 = 32 ∨ (Rect.block (s := S64x1024x64) S8x1024x64.size (cc0_transform_9 i) (hinb0_9 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S8x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5_0) S8x1024x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_1) S8x1024x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S64x1024 : Shape := ⟨2, ![64, 1024]⟩
abbrev S64x1 : Shape := ⟨2, ![64, 1]⟩
abbrev S64 : Shape := ⟨1, ![64]⟩
abbrev S64x64 : Shape := ⟨2, ![64, 64]⟩
abbrev S64x1024x1 : Shape := ⟨3, ![64, 1024, 1]⟩
abbrev S64x1x1024 : Shape := ⟨3, ![64, 1, 1024]⟩
abbrev S64x1024x1024 : Shape := ⟨3, ![64, 1024, 1024]⟩
abbrev S_ : Shape := ⟨0, ![]⟩
abbrev S64x1024x2 : Shape := ⟨3, ![64, 1024, 2]⟩
abbrev S64x1024x2x1 : Shape := ⟨4, ![64, 1024, 2, 1]⟩
abbrev S1x1x1x64 : Shape := ⟨4, ![1, 1, 1, 64]⟩
abbrev S64x1024x2x64 : Shape := ⟨4, ![64, 1024, 2, 64]⟩
abbrev S64x1024x64 : Shape := ⟨3, ![64, 1024, 64]⟩

abbrev nBuf : Space → Nat
  | .hbm => 102
  | .vmem => 0
  | .smem => 0
  | _ => 0

abbrev bufTy : (tb : Table) → Fin (tcTables nBuf tb) → BufTy
  | .hbm, ⟨0, _⟩ => ⟨S64x1024, .i32⟩
  | .hbm, ⟨1, _⟩ => ⟨S64x1024, .i32⟩
  | .hbm, ⟨2, _⟩ => ⟨S64x1, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1024x1, .i32⟩
  | .hbm, ⟨7, _⟩ => ⟨S64x1x1024, .i32⟩
  | .hbm, ⟨8, _⟩ => ⟨S64x1024x1024, .i32⟩
  | .hbm, ⟨9, _⟩ => ⟨S64x1024x1024, .i32⟩
  | .hbm, ⟨10, _⟩ => ⟨S64x1024x1024, .i1⟩
  | .hbm, ⟨11, _⟩ => ⟨S64x1024x1024, .i32⟩
  | .hbm, ⟨12, _⟩ => ⟨S_, .i32⟩
  | .hbm, ⟨13, _⟩ => ⟨S64x1024, .i32⟩
  | .hbm, ⟨14, _⟩ => ⟨S64x1024, .f32⟩
  | .hbm, ⟨15, _⟩ => ⟨S64x1024x1, .i32⟩
  | .hbm, ⟨16, _⟩ => ⟨S64x1x1024, .i32⟩
  | .hbm, ⟨17, _⟩ => ⟨S64x1024x1024, .i32⟩
  | .hbm, ⟨18, _⟩ => ⟨S64x1024x1024, .i32⟩
  | .hbm, ⟨19, _⟩ => ⟨S64x1024x1024, .i1⟩
  | .hbm, ⟨20, _⟩ => ⟨S64x1024x1024, .i32⟩
  | .hbm, ⟨21, _⟩ => ⟨S_, .i32⟩
  | .hbm, ⟨22, _⟩ => ⟨S64x1024, .i32⟩
  | .hbm, ⟨23, _⟩ => ⟨S64x1024, .f32⟩
  | .hbm, ⟨24, _⟩ => ⟨S64x1024x1, .f32⟩
  | .hbm, ⟨25, _⟩ => ⟨S64x1024x1, .f32⟩
  | .hbm, ⟨26, _⟩ => ⟨S64x1024x2, .f32⟩
  | .hbm, ⟨27, _⟩ => ⟨S64x1024x1, .i32⟩
  | .hbm, ⟨28, _⟩ => ⟨S64x1x1024, .i32⟩
  | .hbm, ⟨29, _⟩ => ⟨S64x1024x1024, .i32⟩
  | .hbm, ⟨30, _⟩ => ⟨S64x1024x1024, .i32⟩
  | .hbm, ⟨31, _⟩ => ⟨S64x1024x1024, .i1⟩
  | .hbm, ⟨32, _⟩ => ⟨S64x1024x1024, .i32⟩
  | .hbm, ⟨33, _⟩ => ⟨S_, .i32⟩
  | .hbm, ⟨34, _⟩ => ⟨S64x1024, .i32⟩
  | .hbm, ⟨35, _⟩ => ⟨S64x1024, .f32⟩
  | .hbm, ⟨36, _⟩ => ⟨S64x1024x1, .i32⟩
  | .hbm, ⟨37, _⟩ => ⟨S64x1x1024, .i32⟩
  | .hbm, ⟨38, _⟩ => ⟨S64x1024x1024, .i32⟩
  | .hbm, ⟨39, _⟩ => ⟨S64x1024x1024, .i32⟩
  | .hbm, ⟨40, _⟩ => ⟨S64x1024x1024, .i1⟩
  | .hbm, ⟨41, _⟩ => ⟨S64x1024x1024, .i32⟩
  | .hbm, ⟨42, _⟩ => ⟨S_, .i32⟩
  | .hbm, ⟨43, _⟩ => ⟨S64x1024, .i32⟩
  | .hbm, ⟨44, _⟩ => ⟨S64x1024, .f32⟩
  | .hbm, ⟨45, _⟩ => ⟨S64x1024x1, .f32⟩
  | .hbm, ⟨46, _⟩ => ⟨S64x1024x1, .f32⟩
  | .hbm, ⟨47, _⟩ => ⟨S64x1024x2, .f32⟩
  | .hbm, ⟨48, _⟩ => ⟨S_, .i32⟩
  | .hbm, ⟨49, _⟩ => ⟨S64x1024, .i32⟩
  | .hbm, ⟨50, _⟩ => ⟨S64x1024, .i1⟩
  | .hbm, ⟨51, _⟩ => ⟨S64x1024x1, .i1⟩
  | .hbm, ⟨52, _⟩ => ⟨S_, .f32⟩
  | .hbm, ⟨53, _⟩ => ⟨S_, .f32⟩
  | .hbm, ⟨54, _⟩ => ⟨S64x1024x2, .i1⟩
  | .hbm, ⟨55, _⟩ => ⟨S64x1024x2, .f32⟩
  | .hbm, ⟨56, _⟩ => ⟨S64x1024x2, .f32⟩
  | .hbm, ⟨57, _⟩ => ⟨S_, .i32⟩
  | .hbm, ⟨58, _⟩ => ⟨S64x1024, .i32⟩
  | .hbm, ⟨59, _⟩ => ⟨S64x1024, .i1⟩
  | .hbm, ⟨60, _⟩ => ⟨S64x1024x1, .i1⟩
  | .hbm, ⟨61, _⟩ => ⟨S_, .f32⟩
  | .hbm, ⟨62, _⟩ => ⟨S_, .f32⟩
  | .hbm, ⟨63, _⟩ => ⟨S64x1024x2, .i1⟩
  | .hbm, ⟨64, _⟩ => ⟨S64x1024x2, .f32⟩
  | .hbm, ⟨65, _⟩ => ⟨S64x1024x2, .f32⟩
  | .hbm, ⟨66, _⟩ => ⟨S64x1024x2x1, .f32⟩
  | .hbm, ⟨67, _⟩ => ⟨S64, .f32⟩
  | .hbm, ⟨68, _⟩ => ⟨S1x1x1x64, .f32⟩
  | .hbm, ⟨69, _⟩ => ⟨S64x1024x2x64, .f32⟩
  | .hbm, ⟨70, _⟩ => ⟨S64x1024x2x64, .f32⟩
  | .hbm, ⟨71, _⟩ => ⟨S64x1024x2x64, .f32⟩
  | .hbm, ⟨72, _⟩ => ⟨S1x1x1x64, .f32⟩
  | .hbm, ⟨73, _⟩ => ⟨S64x1024x2x64, .f32⟩
  | .hbm, ⟨74, _⟩ => ⟨S64x1024x2x64, .f32⟩
  | .hbm, ⟨75, _⟩ => ⟨S_, .f32⟩
  | .hbm, ⟨76, _⟩ => ⟨S64x1024x2x64, .f32⟩
  | .hbm, ⟨77, _⟩ => ⟨S64x1024x2x64, .f32⟩
  | .hbm, ⟨78, _⟩ => ⟨S64x1024x2x64, .f32⟩
  | .hbm, ⟨79, _⟩ => ⟨S1x1x1x64, .f32⟩
  | .hbm, ⟨80, _⟩ => ⟨S64x1024x2x64, .f32⟩
  | .hbm, ⟨81, _⟩ => ⟨S64x1024x2x64, .f32⟩
  | .hbm, ⟨82, _⟩ => ⟨S_, .f32⟩
  | .hbm, ⟨83, _⟩ => ⟨S64x1024x64, .f32⟩
  | .hbm, ⟨84, _⟩ => ⟨S64x1024x2x1, .f32⟩
  | .hbm, ⟨85, _⟩ => ⟨S64, .f32⟩
  | .hbm, ⟨86, _⟩ => ⟨S1x1x1x64, .f32⟩
  | .hbm, ⟨87, _⟩ => ⟨S64x1024x2x64, .f32⟩
  | .hbm, ⟨88, _⟩ => ⟨S64x1024x2x64, .f32⟩
  | .hbm, ⟨89, _⟩ => ⟨S64x1024x2x64, .f32⟩
  | .hbm, ⟨90, _⟩ => ⟨S1x1x1x64, .f32⟩
  | .hbm, ⟨91, _⟩ => ⟨S64x1024x2x64, .f32⟩
  | .hbm, ⟨92, _⟩ => ⟨S64x1024x2x64, .f32⟩
  | .hbm, ⟨93, _⟩ => ⟨S_, .f32⟩
  | .hbm, ⟨94, _⟩ => ⟨S64x1024x2x64, .f32⟩
  | .hbm, ⟨95, _⟩ => ⟨S64x1024x2x64, .f32⟩
  | .hbm, ⟨96, _⟩ => ⟨S64x1024x2x64, .f32⟩
  | .hbm, ⟨97, _⟩ => ⟨S1x1x1x64, .f32⟩
  | .hbm, ⟨98, _⟩ => ⟨S64x1024x2x64, .f32⟩
  | .hbm, ⟨99, _⟩ => ⟨S64x1024x2x64, .f32⟩
  | .hbm, ⟨100, _⟩ => ⟨S_, .f32⟩
  | .hbm, ⟨101, _⟩ => ⟨S64x1024x64, .f32⟩
  | _, _ => ⟨S64x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v41 : Ref sig .tc := ⟨.hbm, 56, rfl⟩
abbrev main_c_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_call2_cst : Ref sig .tc := ⟨.hbm, 75, rfl⟩
abbrev main_call2_v0 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_6 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call3_cst : Ref sig .tc := ⟨.hbm, 93, rfl⟩
abbrev main_call3_v0 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_7 : Ref sig .tc := ⟨.hbm, 100, rfl⟩
abbrev main_v75 : Ref sig .tc := ⟨.hbm, 101, rfl⟩

abbrev nD : Nat := 1
abbrev τ : Topo := Topo.v7x

variable {F : FTy → Type} [FloatOps F]

class Facts₀ : Prop where
  bcast_S64x1024_S64x1024x1_0_1 : S64x1024.BroadcastsInDim S64x1024x1 (![0, 1] : Fin 2 → Fin S64x1024x1.rank)
  bcast_S64x1024_S64x1x1024_0_2 : S64x1024.BroadcastsInDim S64x1x1024 (![0, 2] : Fin 2 → Fin S64x1x1024.rank)
  bcast_S64x1024x1_S64x1024x1024_0_1_2 : S64x1024x1.BroadcastsInDim S64x1024x1024 (![0, 1, 2] : Fin 3 → Fin S64x1024x1024.rank)
  bcast_S64x1x1024_S64x1024x1024_0_1_2 : S64x1x1024.BroadcastsInDim S64x1024x1024 (![0, 1, 2] : Fin 3 → Fin S64x1024x1024.rank)
  natLt_1_32 : 1 < 32
  reducesTo_S64x1024x1024_S64x1024_d2 : S64x1024x1024.ReducesTo [2] S64x1024
  h_S_ : 0 < S_.numel
  concatenates_S64x1024x1_S64x1024x1_S64x1024x2_d2 : Shape.Concatenates [S64x1024x1, S64x1024x1] S64x1024x2 2
  bcast_S_S64x1024 : S_.BroadcastsInDim S64x1024 (![] : Fin 0 → Fin S64x1024.rank)
  bcast_S64x1024x1_S64x1024x2_0_1_2 : S64x1024x1.BroadcastsInDim S64x1024x2 (![0, 1, 2] : Fin 3 → Fin S64x1024x2.rank)
  bcast_S_S64x1024x2 : S_.BroadcastsInDim S64x1024x2 (![] : Fin 0 → Fin S64x1024x2.rank)
  bcast_S64x1024x2_S64x1024x2x1_0_1_2 : S64x1024x2.BroadcastsInDim S64x1024x2x1 (![0, 1, 2] : Fin 3 → Fin S64x1024x2x1.rank)
  shapeCasts_S64x1_S64 : S64x1.ShapeCasts S64
  bcast_S64_S1x1x1x64_3 : S64.BroadcastsInDim S1x1x1x64 (![3] : Fin 1 → Fin S1x1x1x64.rank)
  bcast_S64x1024x2x1_S64x1024x2x64_0_1_2_3 : S64x1024x2x1.BroadcastsInDim S64x1024x2x64 (![0, 1, 2, 3] : Fin 4 → Fin S64x1024x2x64.rank)
  bcast_S1x1x1x64_S64x1024x2x64_0_1_2_3 : S1x1x1x64.BroadcastsInDim S64x1024x2x64 (![0, 1, 2, 3] : Fin 4 → Fin S64x1024x2x64.rank)
  bcast_S_S64x1024x2x64 : S_.BroadcastsInDim S64x1024x2x64 (![] : Fin 0 → Fin S64x1024x2x64.rank)
  reducesTo_S64x1024x2x64_S64x1024x64_d2 : S64x1024x2x64.ReducesTo [2] S64x1024x64
  dot_S64x1024x2x64_S64x64_S64x1024x2x64_3_1_012_0_n_n_wf : DotDims.WF S64x1024x2x64 S64x64 S64x1024x2x64 [3] [1] [0, 1, 2] [0] [] []

variable [Facts₀]

def dot_S64x1024x2x64_S64x64_S64x1024x2x64_3_1_012_0_n_n : DotDims S64x1024x2x64 S64x64 S64x1024x2x64 where
  lhsContracting := [3]
  rhsContracting := [1]
  lhsNonContracting := [0, 1, 2]
  rhsNonContracting := [0]
  lhsBatch := []
  rhsBatch := []
  wf := dot_S64x1024x2x64_S64x64_S64x1024x2x64_3_1_012_0_n_n_wf

class Facts : Prop extends Facts₀ where

variable [Facts]
-- ==== Proof.BitsTileCond.lean ====
/-
  The grid of the call is 8 batch blocks by 8 key tiles, walked tile-fastest: point t is batch block t / 8, key tile t % 8.
  The body does three different things along a batch block: at its FIRST tile it clears the four count accumulators before
  adding the tile's counts; at an INNER tile it only adds; at its LAST tile it adds and then encodes the finished counts
  into the two output blocks. This module names the two conditions the body branches on and decides them over the grid.
-/
import proofs.«133724_j1889785610787_1_alg».proof.Proof.Gen.Kernel.Launch
import proofs.«133724_j1889785610787_1_alg».proof.Proof.Gen.Kernel.Skeleton
import proofs.«133724_j1889785610787_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the key-tile coordinate is zero (the accumulators are cleared). -/
abbrev condFirst (i : grid0.Coords) : Prop := (Scalar.cmpi .ne (Scalar.extui (Scalar.cmpi .eq (BitVec.ofNat 32 (i 1).val) 0#32)) 0#32) = 1#1
/-- It holds exactly at the points ≡ 0 (mod 8). -/
theorem condFirst_iff : ∀ t : Fin cfg0.N, condFirst (grid0.coords t) ↔ t.val % 8 = 0 :=
  (by decide +kernel : ∀ t : Fin grid0.N, condFirst (grid0.coords t) ↔ t.val % 8 = 0)

/-- The body's second branch: the key-tile coordinate is the last one, 7 (the counts are complete and are encoded). -/
abbrev condLast (i : grid0.Coords) : Prop := k0_cond2 i = 1#1
/-- It holds exactly at the points ≡ 7 (mod 8). -/
theorem condLast_iff : ∀ t : Fin cfg0.N, condLast (grid0.coords t) ↔ t.val % 8 = 7 :=
  (by decide +kernel : ∀ t : Fin grid0.N, condLast (grid0.coords t) ↔ t.val % 8 = 7)

/-- The two output windows are idle (nothing stored, nothing written back) away from a batch block's last tile, -/
theorem idle8_of_not_last : ∀ t : Fin cfg0.N, ¬condLast (grid0.coords t) → cfg0.idle 8 (grid0.coords t) = true := by decide +kernel
theorem idle9_of_not_last : ∀ t : Fin cfg0.N, ¬condLast (grid0.coords t) → cfg0.idle 9 (grid0.coords t) = true := by decide +kernel
theorem noFlush8_of_not_last : ∀ t : Fin cfg0.N, ¬condLast (grid0.coords t) → (cfg0.win 8).flush t = false := by decide +kernel
theorem noFlush9_of_not_last : ∀ t : Fin cfg0.N, ¬condLast (grid0.coords t) → (cfg0.win 9).flush t = false := by decide +kernel
/-- and live at it. -/
theorem live8_of_last : ∀ t : Fin cfg0.N, condLast (grid0.coords t) → cfg0.idle 8 (grid0.coords t) = false := by decide +kernel
theorem live9_of_last : ∀ t : Fin cfg0.N, condLast (grid0.coords t) → cfg0.idle 9 (grid0.coords t) = false := by decide +kernel
/-- The eight input windows are never idle. -/
theorem liveIn : ∀ (w : Fin 10), w.val < 8 → ∀ t : Fin cfg0.N, cfg0.idle w (grid0.coords t) = false := by decide +kernel

end Cert.Kernel.Tiles

end
-- ==== Proof.BitsTileFirst.lean ====
/-
  The body at the FIRST key tile of a batch block: the four count accumulators are cleared, then the tile's counts are added
  as at any tile. What they held before is overwritten, so the run starts from accumulators at any contents.
-/
import proofs.«133724_j1889785610787_1_alg».proof.Proof.BitsTileCond
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a first tile: from the eight input blocks, the two output buffers at any contents `xi·` and the four
    accumulators at anything, to the same inputs and outputs and each accumulator with the tile's pieces written. -/
noncomputable def runFirst (c : Dev nD) (i : grid0.Coords) (arg2 : Memref sig .tc .vmem S8x1024 .i32) (harg2 : arg2.IsWhole) (arg3 : Memref sig .tc .vmem S8x1024 .i32) (harg3 : arg3.IsWhole) (arg4 : Memref sig .tc .vmem S8x128 .i32) (harg4 : arg4.IsWhole) (arg5 : Memref sig .tc .vmem S8x128 .i32) (harg5 : arg5.IsWhole) (arg6 : Memref sig .tc .vmem S1x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S8x1024x64 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : condFirst i) (hc1 : ¬condLast i)
    (x0 : Vec F S8x1024 .i32) (x1 : Vec F S8x1024 .i32) (x2 : Vec F S8x128 .i32) (x3 : Vec F S8x128 .i32)
    (x4 : Vec F S1x64 .f32) (x5 : Vec F S1x64 .f32) (x6 : Vec F S64x64 .f32) (x7 : Vec F S1x64 .f32) :
    Σ' (LS0 LS1 LS2 : List (View.Piece (Elt F) S8x1024 .f32)), { LS3 : List (View.Piece (Elt F) S8x1024 .f32) //
      ∀ (xi8 xi9 : Vec F S8x1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xi8 ∗ owns (c : Thread nD τ) arg11 fullShare xi9
            ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ owns (c : Thread nD τ) arg10 fullShare xi8 ∗ owns (c : Thread nD τ) arg11 fullShare xi9
                ∗ (∃ f, (arg12.view.loc (c : Thread nD τ) ↦[arg12.view.set]{fullShare} arg12.view.writes (Elt F) f LS0)) ∗ (∃ f, (arg13.view.loc (c : Thread nD τ) ↦[arg13.view.set]{fullShare} arg13.view.writes (Elt F) f LS1)) ∗ (∃ f, (arg14.view.loc (c : Thread nD τ) ↦[arg14.view.set]{fullShare} arg14.view.writes (Elt F) f LS2)) ∗ (∃ f, (arg15.view.loc (c : Thread nD τ) ↦[arg15.view.set]{fullShare} arg15.view.writes (Elt F) f LS3))) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun xi8 xi9 E K => ?run⟩
  case run =>
    simp only [cc0__kernel_eq_skeleton]; unfold cc0__kernel_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact hf8
      iexact H8
    isplitl [H9]
    · iexists _; isplitr; · ipureintro; exact hf9
      iexact H9
    isplitl [HS0]; · iexists _; iexact HS0
    isplitl [HS1]; · iexists _; iexact HS1
    isplitl [HS2]; · iexists _; iexact HS2
    iexists _; iexact HS3

end Cert.Kernel.Tiles

end
-- ==== Proof.BitsTileInner.lean ====
/-
  The body at an INNER key tile of a batch block (neither its first nor its last): the tile's equality counts are added to the
  three running row counts, the column counts of this tile are written into their 128 columns of the fourth accumulator, and
  nothing else is touched — the two output blocks are handed back as found. What each accumulator holds afterwards is found
  by the run as a list of pieces written over what the tile before left.
-/
import proofs.«133724_j1889785610787_1_alg».proof.Proof.BitsTileCond
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at an inner tile: from the eight input blocks, the two output buffers at any contents `xi·` and the four
    accumulators at the contents `xs·` the tile before left, to the same inputs and outputs and each accumulator with the
    tile's pieces written over `xs·`. -/
noncomputable def runInner (c : Dev nD) (i : grid0.Coords) (arg2 : Memref sig .tc .vmem S8x1024 .i32) (harg2 : arg2.IsWhole) (arg3 : Memref sig .tc .vmem S8x1024 .i32) (harg3 : arg3.IsWhole) (arg4 : Memref sig .tc .vmem S8x128 .i32) (harg4 : arg4.IsWhole) (arg5 : Memref sig .tc .vmem S8x128 .i32) (harg5 : arg5.IsWhole) (arg6 : Memref sig .tc .vmem S1x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S8x1024x64 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : ¬condFirst i) (hc1 : ¬condLast i)
    (x0 : Vec F S8x1024 .i32) (x1 : Vec F S8x1024 .i32) (x2 : Vec F S8x128 .i32) (x3 : Vec F S8x128 .i32)
    (x4 : Vec F S1x64 .f32) (x5 : Vec F S1x64 .f32) (x6 : Vec F S64x64 .f32) (x7 : Vec F S1x64 .f32) (xs0 xs1 xs2 xs3 : Vec F S8x1024 .f32) :
    Σ' (LS0 LS1 LS2 : List (View.Piece (Elt F) S8x1024 .f32)), { LS3 : List (View.Piece (Elt F) S8x1024 .f32) //
      ∀ (xi8 xi9 : Vec F S8x1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xi8 ∗ owns (c : Thread nD τ) arg11 fullShare xi9
            ∗ owns (c : Thread nD τ) arg12 fullShare xs0 ∗ owns (c : Thread nD τ) arg13 fullShare xs1 ∗ owns (c : Thread nD τ) arg14 fullShare xs2 ∗ owns (c : Thread nD τ) arg15 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ owns (c : Thread nD τ) arg10 fullShare xi8 ∗ owns (c : Thread nD τ) arg11 fullShare xi9
                ∗ (arg12.view.loc (c : Thread nD τ) ↦[arg12.view.set]{fullShare} arg12.view.writes (Elt F) (harg12.unread xs0) LS0) ∗ (arg13.view.loc (c : Thread nD τ) ↦[arg13.view.set]{fullShare} arg13.view.writes (Elt F) (harg13.unread xs1) LS1) ∗ (arg14.view.loc (c : Thread nD τ) ↦[arg14.view.set]{fullShare} arg14.view.writes (Elt F) (harg14.unread xs2) LS2) ∗ (arg15.view.loc (c : Thread nD τ) ↦[arg15.view.set]{fullShare} arg15.view.writes (Elt F) (harg15.unread xs3) LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun xi8 xi9 E K => ?run⟩
  case run =>
    simp only [cc0__kernel_eq_skeleton]; unfold cc0__kernel_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg12.eq_unread hfs0; obtain rfl := harg13.eq_unread hfs1; obtain rfl := harg14.eq_unread hfs2; obtain rfl := harg15.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact hf8
      iexact H8
    isplitl [H9]
    · iexists _; isplitr; · ipureintro; exact hf9
      iexact H9
    isplitl [HS0]; · iexact HS0
    isplitl [HS1]; · iexact HS1
    isplitl [HS2]; · iexact HS2
    iexact HS3

end Cert.Kernel.Tiles

end
-- ==== Proof.BitsTileLast.lean ====
/-
  The body at the LAST key tile of a batch block: the tile's counts are added as at any tile, and then the finished counts are
  masked at the padding positions, passed through the two-layer encoder and stored, whole, into the two output blocks.
-/
import proofs.«133724_j1889785610787_1_alg».proof.Proof.BitsTileCond
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's run at a last tile: from the eight input blocks, the two output buffers at anything and the four accumulators
    at the contents `xs·` the tile before left, to the same inputs, each output buffer with its pieces written, and each
    accumulator with the tile's pieces written over `xs·`. -/
noncomputable def runLast (c : Dev nD) (i : grid0.Coords) (arg2 : Memref sig .tc .vmem S8x1024 .i32) (harg2 : arg2.IsWhole) (arg3 : Memref sig .tc .vmem S8x1024 .i32) (harg3 : arg3.IsWhole) (arg4 : Memref sig .tc .vmem S8x128 .i32) (harg4 : arg4.IsWhole) (arg5 : Memref sig .tc .vmem S8x128 .i32) (harg5 : arg5.IsWhole) (arg6 : Memref sig .tc .vmem S1x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S8x1024x64 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : ¬condFirst i) (hc1 : condLast i)
    (x0 : Vec F S8x1024 .i32) (x1 : Vec F S8x1024 .i32) (x2 : Vec F S8x128 .i32) (x3 : Vec F S8x128 .i32)
    (x4 : Vec F S1x64 .f32) (x5 : Vec F S1x64 .f32) (x6 : Vec F S64x64 .f32) (x7 : Vec F S1x64 .f32) (xs0 xs1 xs2 xs3 : Vec F S8x1024 .f32) :
    Σ' (L8 L9 : List (View.Piece (Elt F) S8x1024x64 .f32)) (LS0 LS1 LS2 : List (View.Piece (Elt F) S8x1024 .f32)), { LS3 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ (∃ d, owns (c : Thread nD τ) arg10 fullShare d) ∗ (∃ d, owns (c : Thread nD τ) arg11 fullShare d)
            ∗ owns (c : Thread nD τ) arg12 fullShare xs0 ∗ owns (c : Thread nD τ) arg13 fullShare xs1 ∗ owns (c : Thread nD τ) arg14 fullShare xs2 ∗ owns (c : Thread nD τ) arg15 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (∃ f, (arg10.view.loc (c : Thread nD τ) ↦[arg10.view.set]{fullShare} arg10.view.writes (Elt F) f L8)) ∗ (∃ f, (arg11.view.loc (c : Thread nD τ) ↦[arg11.view.set]{fullShare} arg11.view.writes (Elt F) f L9))
                ∗ (arg12.view.loc (c : Thread nD τ) ↦[arg12.view.set]{fullShare} arg12.view.writes (Elt F) (harg12.unread xs0) LS0) ∗ (arg13.view.loc (c : Thread nD τ) ↦[arg13.view.set]{fullShare} arg13.view.writes (Elt F) (harg13.unread xs1) LS1) ∗ (arg14.view.loc (c : Thread nD τ) ↦[arg14.view.set]{fullShare} arg14.view.writes (Elt F) (harg14.unread xs2) LS2) ∗ (arg15.view.loc (c : Thread nD τ) ↦[arg15.view.set]{fullShare} arg15.view.writes (Elt F) (harg15.unread xs3) LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0__kernel_eq_skeleton]; unfold cc0__kernel_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg12.eq_unread hfs0; obtain rfl := harg13.eq_unread hfs1; obtain rfl := harg14.eq_unread hfs2; obtain rfl := harg15.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexact HS0
    isplitl [HS1]; · iexact HS1
    isplitl [HS2]; · iexact HS2
    iexact HS3

end Cert.Kernel.Tiles

end
-- ==== Proof.BitsFrameKit.lean ====
/-
  The part of the frame that does not look inside the body. Before the call @main reshapes W1's column and the three bias /
  weight vectors to rows and transposes W2 (five host operations, none of which writes an argument array), so the call finds
  the two id arrays and the four parameter arrays exactly as launched. Each of the eight input windows holds, at every grid
  point, its block of the array the call found: the two whole-row windows the eight rows of the point's batch block, the two
  tile windows the 8 × 128 tile of the point, the four parameter windows their whole array.
-/
import proofs.«133724_j1889785610787_1_alg».proof.Proof.BitsTileCond
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the call is entered: after the five host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the call: the host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the call writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

end Cert.Kernel.Tiles

end
-- ==== Proof.BitsTileValues.lean ====
/-
  What the two output buffers and the four count accumulators hold after the body at each grid point, by recursion along
  the grid: at the first tile of a batch block the accumulators are what that tile's run writes (whatever they held); at
  every later tile they are the tile's pieces written over what the tile before left; the output buffers are written only
  at a batch block's last tile.
-/
import proofs.«133724_j1889785610787_1_alg».proof.Proof.BitsTileFirst
import proofs.«133724_j1889785610787_1_alg».proof.Proof.BitsTileInner
import proofs.«133724_j1889785610787_1_alg».proof.Proof.BitsTileLast
import proofs.«133724_j1889785610787_1_alg».proof.Proof.BitsFrameKit
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it to the body, and its wholeness. -/
abbrev ms0 (t : Fin cfg0.N) : Memref sig .tc .vmem S8x1024 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x128 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S8x1024x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S8x1024x64 .f32 := win0_9.stage (cfg0.slots t 9)
abbrev hs9 (t : Fin cfg0.N) : (ms9 t).IsWhole := hstage0_9 ((cfg0.slots t 9).cast nbuf0_9)
/-- The four count accumulators: whole scratch buffers of the kernel's own. -/
abbrev scM0 : Memref sig .tc .vmem S8x1024 .f32 := Memref.whole cc0_scratch0
abbrev scM1 : Memref sig .tc .vmem S8x1024 .f32 := Memref.whole cc0_scratch1
abbrev scM2 : Memref sig .tc .vmem S8x1024 .f32 := Memref.whole cc0_scratch2
abbrev scM3 : Memref sig .tc .vmem S8x1024 .f32 := Memref.whole cc0_scratch3
/-- One staging buffer of each output window, through which its contents are stated (the choice does not matter). -/
abbrev VO8 : View sig .tc .vmem S8x1024x64 .f32 := (Memref.whole cc0_stg8_0 : Memref sig .tc .vmem S8x1024x64 .f32).view
abbrev VO9 : View sig .tc .vmem S8x1024x64 .f32 := (Memref.whole cc0_stg9_0 : Memref sig .tc .vmem S8x1024x64 .f32).view

/-- The contents after a point: the two output buffers, then the four accumulators. -/
structure Outs (F : FTy → Type) [FloatOps F] where
  o8 : Vec F S8x1024x64 .f32
  o9 : Vec F S8x1024x64 .f32
  s0 : Vec F S8x1024 .f32
  s1 : Vec F S8x1024 .f32
  s2 : Vec F S8x1024 .f32
  s3 : Vec F S8x1024 .f32

/-- The run at a first tile, at the point's memrefs and input blocks. -/
def firstAt (c : Dev nD) (t : Fin cfg0.N) (h0 : t.val % 8 = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) scM3 (Memref.isWhole_whole _) ((condFirst_iff t).mpr h0) (fun h => by have := (condLast_iff t).mp h; omega) (iblk m c 0 t) (iblk m c 1 t) (iblk m c 2 t) (iblk m c 3 t) (iblk m c 4 t) (iblk m c 5 t) (iblk m c 6 t) (iblk m c 7 t)
/-- The run at an inner tile, over what the tile before left in the accumulators. -/
def innerAt (c : Dev nD) (t : Fin cfg0.N) (h0 : ¬t.val % 8 = 0) (h1 : ¬t.val % 8 = 7) (xs0 xs1 xs2 xs3 : Vec F S8x1024 .f32) :=
  runInner (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) scM3 (Memref.isWhole_whole _) (fun h => h0 ((condFirst_iff t).mp h)) (fun h => h1 ((condLast_iff t).mp h)) (iblk m c 0 t) (iblk m c 1 t) (iblk m c 2 t) (iblk m c 3 t) (iblk m c 4 t) (iblk m c 5 t) (iblk m c 6 t) (iblk m c 7 t) xs0 xs1 xs2 xs3
/-- The run at a last tile, over what the tile before left in the accumulators. -/
def lastAt (c : Dev nD) (t : Fin cfg0.N) (h0 : ¬t.val % 8 = 0) (h1 : t.val % 8 = 7) (xs0 xs1 xs2 xs3 : Vec F S8x1024 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) scM3 (Memref.isWhole_whole _) (fun h => h0 ((condFirst_iff t).mp h)) ((condLast_iff t).mpr h1) (iblk m c 0 t) (iblk m c 1 t) (iblk m c 2 t) (iblk m c 3 t) (iblk m c 4 t) (iblk m c 5 t) (iblk m c 6 t) (iblk m c 7 t) xs0 xs1 xs2 xs3

/-- After a first tile: the accumulators are the tile's pieces (they cover each accumulator: the clearing store is whole);
    the output buffers are not written (placeholders nothing consults). -/
def outsFirst (c : Dev nD) (t : Fin cfg0.N) (h0 : t.val % 8 = 0) : Outs F where
  o8 := VO8.read (Elt F) VO8.junk
  o9 := VO9.read (Elt F) VO9.junk
  s0 := scM0.view.read (Elt F) (scM0.view.writes (Elt F) scM0.view.junk (firstAt m c t h0).1)
  s1 := scM1.view.read (Elt F) (scM1.view.writes (Elt F) scM1.view.junk (firstAt m c t h0).2.1)
  s2 := scM2.view.read (Elt F) (scM2.view.writes (Elt F) scM2.view.junk (firstAt m c t h0).2.2.1)
  s3 := scM3.view.read (Elt F) (scM3.view.writes (Elt F) scM3.view.junk (firstAt m c t h0).2.2.2.1)

/-- After an inner tile: each accumulator is the tile's pieces written over what it held. -/
def outsInner (c : Dev nD) (t : Fin cfg0.N) (h0 : ¬t.val % 8 = 0) (h1 : ¬t.val % 8 = 7) (p : Outs F) : Outs F where
  o8 := VO8.read (Elt F) VO8.junk
  o9 := VO9.read (Elt F) VO9.junk
  s0 := scM0.view.read (Elt F) (scM0.view.writes (Elt F) ((Memref.isWhole_whole cc0_scratch0).unread p.s0) (innerAt m c t h0 h1 p.s0 p.s1 p.s2 p.s3).1)
  s1 := scM1.view.read (Elt F) (scM1.view.writes (Elt F) ((Memref.isWhole_whole cc0_scratch1).unread p.s1) (innerAt m c t h0 h1 p.s0 p.s1 p.s2 p.s3).2.1)
  s2 := scM2.view.read (Elt F) (scM2.view.writes (Elt F) ((Memref.isWhole_whole cc0_scratch2).unread p.s2) (innerAt m c t h0 h1 p.s0 p.s1 p.s2 p.s3).2.2.1)
  s3 := scM3.view.read (Elt F) (scM3.view.writes (Elt F) ((Memref.isWhole_whole cc0_scratch3).unread p.s3) (innerAt m c t h0 h1 p.s0 p.s1 p.s2 p.s3).2.2.2.1)

/-- After a last tile: the same for the accumulators, and each output buffer is its pieces (one whole store). -/
def outsLast (c : Dev nD) (t : Fin cfg0.N) (h0 : ¬t.val % 8 = 0) (h1 : t.val % 8 = 7) (p : Outs F) : Outs F where
  o8 := VO8.read (Elt F) (VO8.writes (Elt F) VO8.junk (lastAt m c t h0 h1 p.s0 p.s1 p.s2 p.s3).1)
  o9 := VO9.read (Elt F) (VO9.writes (Elt F) VO9.junk (lastAt m c t h0 h1 p.s0 p.s1 p.s2 p.s3).2.1)
  s0 := scM0.view.read (Elt F) (scM0.view.writes (Elt F) ((Memref.isWhole_whole cc0_scratch0).unread p.s0) (lastAt m c t h0 h1 p.s0 p.s1 p.s2 p.s3).2.2.1)
  s1 := scM1.view.read (Elt F) (scM1.view.writes (Elt F) ((Memref.isWhole_whole cc0_scratch1).unread p.s1) (lastAt m c t h0 h1 p.s0 p.s1 p.s2 p.s3).2.2.2.1)
  s2 := scM2.view.read (Elt F) (scM2.view.writes (Elt F) ((Memref.isWhole_whole cc0_scratch2).unread p.s2) (lastAt m c t h0 h1 p.s0 p.s1 p.s2 p.s3).2.2.2.2.1)
  s3 := scM3.view.read (Elt F) (scM3.view.writes (Elt F) ((Memref.isWhole_whole cc0_scratch3).unread p.s3) (lastAt m c t h0 h1 p.s0 p.s1 p.s2 p.s3).2.2.2.2.2.1)

/-- The contents after the body at position `n` of the grid walk. -/
def outsAt (c : Dev nD) : (n : ℕ) → n < cfg0.N → Outs F
  | 0, hn => outsFirst m c ⟨0, hn⟩ (Nat.zero_mod _)
  | n + 1, hn =>
    if h0 : (n + 1) % 8 = 0 then outsFirst m c ⟨n + 1, hn⟩ h0
    else if h1 : (n + 1) % 8 = 7 then outsLast m c ⟨n + 1, hn⟩ h0 h1 (outsAt c n (Nat.lt_of_succ_lt hn))
    else outsInner m c ⟨n + 1, hn⟩ h0 h1 (outsAt c n (Nat.lt_of_succ_lt hn))

theorem outsAt_first (c : Dev nD) (t : Fin cfg0.N) (h0 : t.val % 8 = 0) : outsAt m c t.val t.isLt = outsFirst m c t h0 := by
  obtain ⟨n, hn⟩ := t
  cases n with
  | zero => rfl
  | succ n => exact dif_pos h0

theorem outsAt_inner (c : Dev nD) (t : Fin cfg0.N) (h0 : ¬t.val % 8 = 0) (h1 : ¬t.val % 8 = 7) :
    outsAt m c t.val t.isLt = outsInner m c t h0 h1 (outsAt m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt_last (c : Dev nD) (t : Fin cfg0.N) (h0 : ¬t.val % 8 = 0) (h1 : t.val % 8 = 7) :
    outsAt m c t.val t.isLt = outsLast m c t h0 h1 (outsAt m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

end Cert.Kernel.Tiles

end
-- ==== Proof.BitsFrameBody.lean ====
/-
  The frame of the call: every weakly fair execution of @main runs to the end without a fault, and leaves each array of the
  call at what the library computes from the proof data below and every other buffer untouched.

  The two id arrays are each read through TWO input windows (the eight whole rows of the batch block, and the 8 × 128 key
  tile), so each array's ownership is dealt in two halves, one to each of its windows; nothing writes them. The invariant
  carried from point to point is the four count accumulators at the contents the recursion of the tile values names (at
  anything before the first point). At a generic point the body is one of three runs — first, inner or last tile of the
  batch block — chosen by the point's residue mod 8.
-/
import proofs.«133724_j1889785610787_1_alg».proof.Proof.BitsTileValues
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's own scoped buffers are the four accumulators, each owned whole at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) := by
  rw [scopedRest0_eq]; simp only [scM0, scM1, scM2, scM3, owns_whole]; try rfl

/-- The invariant before position `n`: before the first point the accumulators hold anything; afterwards what the point
    before left in them. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0 fullShare (outsAt m c n hn).s0 ∗ owns (c : Thread nD τ) scM1 fullShare (outsAt m c n hn).s1 ∗ owns (c : Thread nD τ) scM2 fullShare (outsAt m c n hn).s2 ∗ owns (c : Thread nD τ) scM3 fullShare (outsAt m c n hn).s3)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0 fullShare (outsAt m c n hn).s0 ∗ owns (c : Thread nD τ) scM1 fullShare (outsAt m c n hn).s1 ∗ owns (c : Thread nD τ) scM2 fullShare (outsAt m c n hn).s2 ∗ owns (c : Thread nD τ) scM3 fullShare (outsAt m c n hn).s3) := rfl

theorem PhiS_pos (c : Dev nD) (n : ℕ) (h : n ≤ cfg0.N) (hz : n ≠ 0) :
    PhiS m c n h = iprop(owns (c : Thread nD τ) scM0 fullShare (outsAt m c (n - 1) (by omega)).s0 ∗ owns (c : Thread nD τ) scM1 fullShare (outsAt m c (n - 1) (by omega)).s1 ∗ owns (c : Thread nD τ) scM2 fullShare (outsAt m c (n - 1) (by omega)).s2 ∗ owns (c : Thread nD τ) scM3 fullShare (outsAt m c (n - 1) (by omega)).s3) := by
  cases n with
  | zero => exact absurd rfl hz
  | succ n => rfl

/-- The proof data of the call on core `c`: the arrays as the call finds them; after the body each input buffer at its
    block and the two output buffers at the tile values; the invariant above; each id array's ownership dealt in halves to
    its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).o8
    | ⟨9, _⟩ => (outsAt m c t.val t.isLt).o9
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outsAt m c t.val t.isLt).o8 := by dsimp only [dats]
theorem after9 (c : Dev nD) (t : Fin cfg0.N) : (dats m 0 c).after 9 t = (outsAt m c t.val t.isLt).o9 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The pieces a first tile writes cover each accumulator, and a last tile's each output buffer -/

theorem coverFirst0 (c : Dev nD) (t : Fin cfg0.N) (h0 : t.val % 8 = 0) (y : S8x1024.Idx) : ∃ pc ∈ (firstAt m c t h0).1, y ∈ pc.1.set :=
  View.cover_of_tiledL (firstAt m c t h0).1 S8x1024.size (by sl_kernel_rfl) y
theorem coverFirst1 (c : Dev nD) (t : Fin cfg0.N) (h0 : t.val % 8 = 0) (y : S8x1024.Idx) : ∃ pc ∈ (firstAt m c t h0).2.1, y ∈ pc.1.set :=
  View.cover_of_tiledL (firstAt m c t h0).2.1 S8x1024.size (by sl_kernel_rfl) y
theorem coverFirst3 (c : Dev nD) (t : Fin cfg0.N) (h0 : t.val % 8 = 0) (y : S8x1024.Idx) : ∃ pc ∈ (firstAt m c t h0).2.2.2.1, y ∈ pc.1.set :=
  View.cover_of_tiledL (firstAt m c t h0).2.2.2.1 S8x1024.size (by sl_kernel_rfl) y
theorem coverLast8 (c : Dev nD) (t : Fin cfg0.N) (h0 : ¬t.val % 8 = 0) (h1 : t.val % 8 = 7) (xs0 xs1 xs2 xs3 : Vec F S8x1024 .f32) (y : S8x1024x64.Idx) :
    ∃ pc ∈ (lastAt m c t h0 h1 xs0 xs1 xs2 xs3).1, y ∈ pc.1.set :=
  View.cover_of_tiledL (lastAt m c t h0 h1 xs0 xs1 xs2 xs3).1 S8x1024x64.size (by sl_kernel_rfl) y
theorem coverLast9 (c : Dev nD) (t : Fin cfg0.N) (h0 : ¬t.val % 8 = 0) (h1 : t.val % 8 = 7) (xs0 xs1 xs2 xs3 : Vec F S8x1024 .f32) (y : S8x1024x64.Idx) :
    ∃ pc ∈ (lastAt m c t h0 h1 xs0 xs1 xs2 xs3).2.1, y ∈ pc.1.set :=
  View.cover_of_tiledL (lastAt m c t h0 h1 xs0 xs1 xs2 xs3).2.1 S8x1024x64.size (by sl_kernel_rfl) y
/-- The column-count accumulator at a first tile: its pieces are the tile's 128 columns over the whole clearing store,
    and the clearing store alone covers it. -/
theorem coverFirst2 (c : Dev nD) (t : Fin cfg0.N) (h0 : t.val % 8 = 0) (y : S8x1024.Idx) : ∃ pc ∈ (firstAt m c t h0).2.2.1, y ∈ pc.1.set := by
  have hL : ∃ p₁ p₂ : View.Piece (Elt F) S8x1024 .f32, (firstAt m c t h0).2.2.1 = [p₁, p₂]
      ∧ p₂.1 = Rect.unit (s := S8x1024) ![0, 0] S8x1024.size inb_S8x1024_S8x1024_0_0 := ⟨_, _, rfl, rfl⟩
  obtain ⟨p₁, p₂, hL, hp⟩ := hL
  refine ⟨p₂, by rw [hL]; exact List.mem_cons_of_mem _ (List.mem_singleton.mpr rfl), ?_⟩
  rw [hp, Rect.mem_set_unit]
  intro a
  have hz : (![0, 0] : Fin 2 → ℕ) a = 0 := by fin_cases a <;> rfl
  rw [hz, Nat.zero_add]
  exact ⟨Nat.zero_le _, (y a).isLt⟩

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by (unfold Dat.leavesExact; rw [liveIn 0 (by decide) t]), after0]
  rw [show (dats m 0 c).leavesExact 1 t = owns (c : Thread nD τ) (ms1 t) fullShare ((dats m 0 c).after 1 t) from by (unfold Dat.leavesExact; rw [liveIn 1 (by decide) t]), after1]
  rw [show (dats m 0 c).leavesExact 2 t = owns (c : Thread nD τ) (ms2 t) fullShare ((dats m 0 c).after 2 t) from by (unfold Dat.leavesExact; rw [liveIn 2 (by decide) t]), after2]
  rw [show (dats m 0 c).leavesExact 3 t = owns (c : Thread nD τ) (ms3 t) fullShare ((dats m 0 c).after 3 t) from by (unfold Dat.leavesExact; rw [liveIn 3 (by decide) t]), after3]
  rw [show (dats m 0 c).leavesExact 4 t = owns (c : Thread nD τ) (ms4 t) fullShare ((dats m 0 c).after 4 t) from by (unfold Dat.leavesExact; rw [liveIn 4 (by decide) t]), after4]
  rw [show (dats m 0 c).leavesExact 5 t = owns (c : Thread nD τ) (ms5 t) fullShare ((dats m 0 c).after 5 t) from by (unfold Dat.leavesExact; rw [liveIn 5 (by decide) t]), after5]
  rw [show (dats m 0 c).leavesExact 6 t = owns (c : Thread nD τ) (ms6 t) fullShare ((dats m 0 c).after 6 t) from by (unfold Dat.leavesExact; rw [liveIn 6 (by decide) t]), after6]
  rw [show (dats m 0 c).leavesExact 7 t = owns (c : Thread nD τ) (ms7 t) fullShare ((dats m 0 c).after 7 t) from by (unfold Dat.leavesExact; rw [liveIn 7 (by decide) t]), after7]
  by_cases h0 : t.val % 8 = 0
  · have h1 : ¬t.val % 8 = 7 := by omega
    have hl : ¬condLast (grid0.coords t) := fun h => h1 ((condLast_iff t).mp h)
    rw [Dat.leavesExact_idle (dats m 0 c) 8 t (idle8_of_not_last t hl) (noFlush8_of_not_last t hl)]
    rw [Dat.leavesExact_idle (dats m 0 c) 9 t (idle9_of_not_last t hl) (noFlush9_of_not_last t hl)]
    rw [outsAt_first m c t h0]
    unfold outsFirst; dsimp only
    by_cases hz : t.val = 0
    · rw [PhiS_castSucc m c t, PhiS_zero m c _ _ hz, scopedRest_eq]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((firstAt m c t h0).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      iintro ⟨H0, H1, H2, H3, H4, H5, H6, H7, H8, H9, ⟨%e0, HS0⟩, ⟨%e1, HS1⟩, ⟨%e2, HS2⟩, ⟨%e3, HS3⟩⟩
      isplitl [HS0 HS1 HS2 HS3]
      · isplitl [HS0]
        · unfold owns; iexists _; isplitr
          swap; · iexact HS0
          ipureintro; exact View.read_writes_of_cover _ _ _ _ _ (coverFirst0 m c t h0)
        isplitl [HS1]
        · unfold owns; iexists _; isplitr
          swap; · iexact HS1
          ipureintro; exact View.read_writes_of_cover _ _ _ _ _ (coverFirst1 m c t h0)
        isplitl [HS2]
        · unfold owns; iexists _; isplitr
          swap; · iexact HS2
          ipureintro; exact View.read_writes_of_cover _ _ _ _ _ (coverFirst2 m c t h0)
        · unfold owns; iexists _; isplitr
          swap; · iexact HS3
          ipureintro; exact View.read_writes_of_cover _ _ _ _ _ (coverFirst3 m c t h0)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
    · rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((firstAt m c t h0).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, H9, ⟨%e0, HS0⟩, ⟨%e1, HS1⟩, ⟨%e2, HS2⟩, ⟨%e3, HS3⟩⟩
      isplitl [HS0 HS1 HS2 HS3]
      · isplitl [HS0]
        · unfold owns; iexists _; isplitr
          swap; · iexact HS0
          ipureintro; exact View.read_writes_of_cover _ _ _ _ _ (coverFirst0 m c t h0)
        isplitl [HS1]
        · unfold owns; iexists _; isplitr
          swap; · iexact HS1
          ipureintro; exact View.read_writes_of_cover _ _ _ _ _ (coverFirst1 m c t h0)
        isplitl [HS2]
        · unfold owns; iexists _; isplitr
          swap; · iexact HS2
          ipureintro; exact View.read_writes_of_cover _ _ _ _ _ (coverFirst2 m c t h0)
        · unfold owns; iexists _; isplitr
          swap; · iexact HS3
          ipureintro; exact View.read_writes_of_cover _ _ _ _ _ (coverFirst3 m c t h0)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
  · have hz : t.val ≠ 0 := fun h => h0 (by rw [h])
    by_cases h1 : t.val % 8 = 7
    · have hl : condLast (grid0.coords t) := (condLast_iff t).mpr h1
      rw [show (dats m 0 c).leavesExact 8 t = owns (c : Thread nD τ) (ms8 t) fullShare ((dats m 0 c).after 8 t) from by
        unfold Dat.leavesExact; rw [live8_of_last t hl], after8]
      rw [show (dats m 0 c).leavesExact 9 t = owns (c : Thread nD τ) (ms9 t) fullShare ((dats m 0 c).after 9 t) from by
        unfold Dat.leavesExact; rw [live9_of_last t hl], after9]
      rw [outsAt_last m c t h0 h1]
      unfold outsLast; dsimp only
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((lastAt m c t h0 h1 _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, ⟨%e8, H8⟩, ⟨%e9, H9⟩, HS0, HS1, HS2, HS3⟩
      isplitl [HS0 HS1 HS2 HS3]
      · isplitl [HS0]
        · unfold owns; iexists _; isplitr
          swap; · iexact HS0
          ipureintro; rfl
        isplitl [HS1]
        · unfold owns; iexists _; isplitr
          swap; · iexact HS1
          ipureintro; rfl
        isplitl [HS2]
        · unfold owns; iexists _; isplitr
          swap; · iexact HS2
          ipureintro; rfl
        · unfold owns; iexists _; isplitr
          swap; · iexact HS3
          ipureintro; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (coverLast8 m c t h0 h1 _ _ _ _)
      · unfold owns; iexists _; isplitr
        swap; · iexact H9
        ipureintro; exact View.read_writes_of_cover _ _ _ _ _ (coverLast9 m c t h0 h1 _ _ _ _)
    · have hl : ¬condLast (grid0.coords t) := fun h => h1 ((condLast_iff t).mp h)
      rw [Dat.leavesExact_idle (dats m 0 c) 8 t (idle8_of_not_last t hl) (noFlush8_of_not_last t hl)]
      rw [Dat.leavesExact_idle (dats m 0 c) 9 t (idle9_of_not_last t hl) (noFlush9_of_not_last t hl)]
      rw [outsAt_inner m c t h0 h1]
      unfold outsInner; dsimp only
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((innerAt m c t h0 h1 _ _ _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      iintro ⟨H0, H1, H2, H3, H4, H5, H6, H7, H8, H9, HS0, HS1, HS2, HS3⟩
      isplitl [HS0 HS1 HS2 HS3]
      · isplitl [HS0]
        · unfold owns; iexists _; isplitr
          swap; · iexact HS0
          ipureintro; rfl
        isplitl [HS1]
        · unfold owns; iexists _; isplitr
          swap; · iexact HS1
          ipureintro; rfl
        isplitl [HS2]
        · unfold owns; iexists _; isplitr
          swap; · iexact HS2
          ipureintro; rfl
        · unfold owns; iexists _; isplitr
          swap; · iexact HS3
          ipureintro; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Tiles

end
-- ==== Proof.BitsFrameRun.lean ====
/-
  The launch. The call's ten windows stand on eight distinct arrays: each id array is behind two input windows. Its buffer,
  owned whole when the call is entered, is dealt as its two half shares to those windows; the other six arrays go whole to
  their one window. With that dealing, the body obligation and the invariant's ends, the library's launch theorem for
  windows that may share arrays runs @main; read at the six argument arrays its post is the frame.
-/
import proofs.«133724_j1889785610787_1_alg».proof.Proof.BitsFrameBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tiles

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows' arrays, owned whole at the entry contents, make the proof data's arrays:
    each id array split into its two halves, one for the whole-row window and one for the key-tile window. -/
theorem deal (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs
  rw [show (dats m 0 c).arrays ((dats m 0 c).arrAt · 0)
        = bigSep Finset.univ fun w : Fin 10 => (((c.tc : Thread nD τ).loc (Pipeline.arrRef spec0 w)) ↦{(dats m 0 c).share w} V m c (Pipeline.arrRef spec0 w) : sProp 𝕄) from by
      unfold Dat.arrays
      exact bigSep_congr fun w _ => by rw [(arr_whole0 w).set_eq_univ]; try rfl]
  rw [bigSep_eq_bigSepL_of_eq [main_arg0, main_arg1, main_v1, main_v2, main_v3, main_v4, main_v5_0, main_v5_1] (by decide) (by decide), bigSep_W0]
  simp only [bigSepL_cons_cons, bigSepL_singleton]
  show iprop(_ ∗ _ ∗ _ ∗ _ ∗ _ ∗ _ ∗ _ ∗ _) ⊢ _
  iintro ⟨HA0, HA1, HB1, HB2, HB3, HB4, HO0, HO1⟩
  ihave HS0 := (pointsTo_share (PosShare.mem_left_op_right fullShare)).1 $$ HA0
  icases HS0 with ⟨HA0l, HA0r⟩
  ihave HS1 := (pointsTo_share (PosShare.mem_left_op_right fullShare)).1 $$ HA1
  icases HS1 with ⟨HA1l, HA1r⟩
  isplitl [HA0l]; · iexact HA0l
  isplitl [HA1l]; · iexact HA1l
  isplitl [HA0r]; · iexact HA0r
  isplitl [HA1r]; · iexact HA1r
  isplitl [HB1]; · iexact HB1
  isplitl [HB2]; · iexact HB2
  isplitl [HB3]; · iexact HB3
  isplitl [HB4]; · iexact HB4
  isplitl [HO0]; · iexact HO0
  iexact HO1

/-- Before the first point the invariant is the accumulators at anything: what the launch hands the call. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- After the last point the accumulators' named contents are forgotten. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest_eq]
  iintro ⟨H0, H1, H2, H3⟩
  isplitr; · iempintro
  isplitl [H0]; · iexists _; iexact H0
  isplitl [H1]; · iexists _; iexact H1
  isplitl [H2]; · iexists _; iexact H2
  iexists _; iexact H3

set_option backward.isDefEq.respectTransparency.types false in
/-- Every weakly fair execution of @main terminates, and every final state has each array of the call at what the library
    computes from the proof data and every other unscoped buffer as the call found it. -/
theorem run_main : θ_run defs (onTc (τ := τ) (main (F := F))) ⟨m, fun _ => 0, ρ⟩ (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := deal m)
    (X := fun _ => BI.emp) (Y := fun _ => BI.emp)
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- THE FRAME: @main runs to the end and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.Kernel.Tiles

end
-- ==== Proof.IdealTileCond.lean ====
/-
  The grid of the call is 8 batch blocks by 8 key tiles, walked tile-fastest: point t is batch block t / 8, key tile t % 8.
  The body does three different things along a batch block: at its FIRST tile it clears the four count accumulators before
  adding the tile's counts; at an INNER tile it only adds; at its LAST tile it adds and then encodes the finished counts
  into the two output blocks. This module names the two conditions the body branches on and decides them over the grid.
-/
import proofs.«133724_j1889785610787_1_alg».proof.Proof.Gen.KernelIdeal.Launch
import proofs.«133724_j1889785610787_1_alg».proof.Proof.Gen.KernelIdeal.Skeleton
import proofs.«133724_j1889785610787_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the key-tile coordinate is zero (the accumulators are cleared). -/
abbrev condFirst (i : grid0.Coords) : Prop := (Scalar.cmpi .ne (Scalar.extui (Scalar.cmpi .eq (BitVec.ofNat 32 (i 1).val) 0#32)) 0#32) = 1#1
/-- It holds exactly at the points ≡ 0 (mod 8). -/
theorem condFirst_iff : ∀ t : Fin cfg0.N, condFirst (grid0.coords t) ↔ t.val % 8 = 0 :=
  (by decide +kernel : ∀ t : Fin grid0.N, condFirst (grid0.coords t) ↔ t.val % 8 = 0)

/-- The body's second branch: the key-tile coordinate is the last one, 7 (the counts are complete and are encoded). -/
abbrev condLast (i : grid0.Coords) : Prop := k0_cond2 i = 1#1
/-- It holds exactly at the points ≡ 7 (mod 8). -/
theorem condLast_iff : ∀ t : Fin cfg0.N, condLast (grid0.coords t) ↔ t.val % 8 = 7 :=
  (by decide +kernel : ∀ t : Fin grid0.N, condLast (grid0.coords t) ↔ t.val % 8 = 7)

/-- The two output windows are idle (nothing stored, nothing written back) away from a batch block's last tile, -/
theorem idle8_of_not_last : ∀ t : Fin cfg0.N, ¬condLast (grid0.coords t) → cfg0.idle 8 (grid0.coords t) = true := by decide +kernel
theorem idle9_of_not_last : ∀ t : Fin cfg0.N, ¬condLast (grid0.coords t) → cfg0.idle 9 (grid0.coords t) = true := by decide +kernel
theorem noFlush8_of_not_last : ∀ t : Fin cfg0.N, ¬condLast (grid0.coords t) → (cfg0.win 8).flush t = false := by decide +kernel
theorem noFlush9_of_not_last : ∀ t : Fin cfg0.N, ¬condLast (grid0.coords t) → (cfg0.win 9).flush t = false := by decide +kernel
/-- and live at it. -/
theorem live8_of_last : ∀ t : Fin cfg0.N, condLast (grid0.coords t) → cfg0.idle 8 (grid0.coords t) = false := by decide +kernel
theorem live9_of_last : ∀ t : Fin cfg0.N, condLast (grid0.coords t) → cfg0.idle 9 (grid0.coords t) = false := by decide +kernel
/-- The eight input windows are never idle. -/
theorem liveIn : ∀ (w : Fin 10), w.val < 8 → ∀ t : Fin cfg0.N, cfg0.idle w (grid0.coords t) = false := by decide +kernel

end Cert.KernelIdeal.Tiles

end
-- ==== Proof.IdealTileFirst.lean ====
/-
  The body at the FIRST key tile of a batch block: the four count accumulators are cleared, then the tile's counts are added
  as at any tile. What they held before is overwritten, so the run starts from accumulators at any contents.
-/
import proofs.«133724_j1889785610787_1_alg».proof.Proof.IdealTileCond
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a first tile: from the eight input blocks, the two output buffers at any contents `xi·` and the four
    accumulators at anything, to the same inputs and outputs and each accumulator with the tile's pieces written. -/
noncomputable def runFirst (c : Dev nD) (i : grid0.Coords) (arg2 : Memref sig .tc .vmem S8x1024 .i32) (harg2 : arg2.IsWhole) (arg3 : Memref sig .tc .vmem S8x1024 .i32) (harg3 : arg3.IsWhole) (arg4 : Memref sig .tc .vmem S8x128 .i32) (harg4 : arg4.IsWhole) (arg5 : Memref sig .tc .vmem S8x128 .i32) (harg5 : arg5.IsWhole) (arg6 : Memref sig .tc .vmem S1x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S8x1024x64 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : condFirst i) (hc1 : ¬condLast i)
    (x0 : Vec F S8x1024 .i32) (x1 : Vec F S8x1024 .i32) (x2 : Vec F S8x128 .i32) (x3 : Vec F S8x128 .i32)
    (x4 : Vec F S1x64 .f32) (x5 : Vec F S1x64 .f32) (x6 : Vec F S64x64 .f32) (x7 : Vec F S1x64 .f32) :
    Σ' (LS0 LS1 LS2 : List (View.Piece (Elt F) S8x1024 .f32)), { LS3 : List (View.Piece (Elt F) S8x1024 .f32) //
      ∀ (xi8 xi9 : Vec F S8x1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xi8 ∗ owns (c : Thread nD τ) arg11 fullShare xi9
            ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ owns (c : Thread nD τ) arg10 fullShare xi8 ∗ owns (c : Thread nD τ) arg11 fullShare xi9
                ∗ (∃ f, (arg12.view.loc (c : Thread nD τ) ↦[arg12.view.set]{fullShare} arg12.view.writes (Elt F) f LS0)) ∗ (∃ f, (arg13.view.loc (c : Thread nD τ) ↦[arg13.view.set]{fullShare} arg13.view.writes (Elt F) f LS1)) ∗ (∃ f, (arg14.view.loc (c : Thread nD τ) ↦[arg14.view.set]{fullShare} arg14.view.writes (Elt F) f LS2)) ∗ (∃ f, (arg15.view.loc (c : Thread nD τ) ↦[arg15.view.set]{fullShare} arg15.view.writes (Elt F) f LS3))) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun xi8 xi9 E K => ?run⟩
  case run =>
    simp only [cc0__kernel_eq_skeleton]; unfold cc0__kernel_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact hf8
      iexact H8
    isplitl [H9]
    · iexists _; isplitr; · ipureintro; exact hf9
      iexact H9
    isplitl [HS0]; · iexists _; iexact HS0
    isplitl [HS1]; · iexists _; iexact HS1
    isplitl [HS2]; · iexists _; iexact HS2
    iexists _; iexact HS3

end Cert.KernelIdeal.Tiles

end
-- ==== Proof.IdealTileInner.lean ====
/-
  The body at an INNER key tile of a batch block (neither its first nor its last): the tile's equality counts are added to the
  three running row counts, the column counts of this tile are written into their 128 columns of the fourth accumulator, and
  nothing else is touched — the two output blocks are handed back as found. What each accumulator holds afterwards is found
  by the run as a list of pieces written over what the tile before left.
-/
import proofs.«133724_j1889785610787_1_alg».proof.Proof.IdealTileCond
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at an inner tile: from the eight input blocks, the two output buffers at any contents `xi·` and the four
    accumulators at the contents `xs·` the tile before left, to the same inputs and outputs and each accumulator with the
    tile's pieces written over `xs·`. -/
noncomputable def runInner (c : Dev nD) (i : grid0.Coords) (arg2 : Memref sig .tc .vmem S8x1024 .i32) (harg2 : arg2.IsWhole) (arg3 : Memref sig .tc .vmem S8x1024 .i32) (harg3 : arg3.IsWhole) (arg4 : Memref sig .tc .vmem S8x128 .i32) (harg4 : arg4.IsWhole) (arg5 : Memref sig .tc .vmem S8x128 .i32) (harg5 : arg5.IsWhole) (arg6 : Memref sig .tc .vmem S1x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S8x1024x64 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : ¬condFirst i) (hc1 : ¬condLast i)
    (x0 : Vec F S8x1024 .i32) (x1 : Vec F S8x1024 .i32) (x2 : Vec F S8x128 .i32) (x3 : Vec F S8x128 .i32)
    (x4 : Vec F S1x64 .f32) (x5 : Vec F S1x64 .f32) (x6 : Vec F S64x64 .f32) (x7 : Vec F S1x64 .f32) (xs0 xs1 xs2 xs3 : Vec F S8x1024 .f32) :
    Σ' (LS0 LS1 LS2 : List (View.Piece (Elt F) S8x1024 .f32)), { LS3 : List (View.Piece (Elt F) S8x1024 .f32) //
      ∀ (xi8 xi9 : Vec F S8x1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare xi8 ∗ owns (c : Thread nD τ) arg11 fullShare xi9
            ∗ owns (c : Thread nD τ) arg12 fullShare xs0 ∗ owns (c : Thread nD τ) arg13 fullShare xs1 ∗ owns (c : Thread nD τ) arg14 fullShare xs2 ∗ owns (c : Thread nD τ) arg15 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ owns (c : Thread nD τ) arg10 fullShare xi8 ∗ owns (c : Thread nD τ) arg11 fullShare xi9
                ∗ (arg12.view.loc (c : Thread nD τ) ↦[arg12.view.set]{fullShare} arg12.view.writes (Elt F) (harg12.unread xs0) LS0) ∗ (arg13.view.loc (c : Thread nD τ) ↦[arg13.view.set]{fullShare} arg13.view.writes (Elt F) (harg13.unread xs1) LS1) ∗ (arg14.view.loc (c : Thread nD τ) ↦[arg14.view.set]{fullShare} arg14.view.writes (Elt F) (harg14.unread xs2) LS2) ∗ (arg15.view.loc (c : Thread nD τ) ↦[arg15.view.set]{fullShare} arg15.view.writes (Elt F) (harg15.unread xs3) LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun xi8 xi9 E K => ?run⟩
  case run =>
    simp only [cc0__kernel_eq_skeleton]; unfold cc0__kernel_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg12.eq_unread hfs0; obtain rfl := harg13.eq_unread hfs1; obtain rfl := harg14.eq_unread hfs2; obtain rfl := harg15.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact hf8
      iexact H8
    isplitl [H9]
    · iexists _; isplitr; · ipureintro; exact hf9
      iexact H9
    isplitl [HS0]; · iexact HS0
    isplitl [HS1]; · iexact HS1
    isplitl [HS2]; · iexact HS2
    iexact HS3

end Cert.KernelIdeal.Tiles

end
-- ==== Proof.IdealTileLast.lean ====
/-
  The body at the LAST key tile of a batch block: the tile's counts are added as at any tile, and then the finished counts are
  masked at the padding positions, passed through the two-layer encoder and stored, whole, into the two output blocks.
-/
import proofs.«133724_j1889785610787_1_alg».proof.Proof.IdealTileCond
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's run at a last tile: from the eight input blocks, the two output buffers at anything and the four accumulators
    at the contents `xs·` the tile before left, to the same inputs, each output buffer with its pieces written, and each
    accumulator with the tile's pieces written over `xs·`. -/
noncomputable def runLast (c : Dev nD) (i : grid0.Coords) (arg2 : Memref sig .tc .vmem S8x1024 .i32) (harg2 : arg2.IsWhole) (arg3 : Memref sig .tc .vmem S8x1024 .i32) (harg3 : arg3.IsWhole) (arg4 : Memref sig .tc .vmem S8x128 .i32) (harg4 : arg4.IsWhole) (arg5 : Memref sig .tc .vmem S8x128 .i32) (harg5 : arg5.IsWhole) (arg6 : Memref sig .tc .vmem S1x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S8x1024x64 .f32) (harg10 : arg10.IsWhole) (arg11 : Memref sig .tc .vmem S8x1024x64 .f32) (harg11 : arg11.IsWhole) (arg12 : Memref sig .tc .vmem S8x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S8x1024 .f32) (harg15 : arg15.IsWhole) (hc0 : ¬condFirst i) (hc1 : condLast i)
    (x0 : Vec F S8x1024 .i32) (x1 : Vec F S8x1024 .i32) (x2 : Vec F S8x128 .i32) (x3 : Vec F S8x128 .i32)
    (x4 : Vec F S1x64 .f32) (x5 : Vec F S1x64 .f32) (x6 : Vec F S64x64 .f32) (x7 : Vec F S1x64 .f32) (xs0 xs1 xs2 xs3 : Vec F S8x1024 .f32) :
    Σ' (L8 L9 : List (View.Piece (Elt F) S8x1024x64 .f32)) (LS0 LS1 LS2 : List (View.Piece (Elt F) S8x1024 .f32)), { LS3 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ (∃ d, owns (c : Thread nD τ) arg10 fullShare d) ∗ (∃ d, owns (c : Thread nD τ) arg11 fullShare d)
            ∗ owns (c : Thread nD τ) arg12 fullShare xs0 ∗ owns (c : Thread nD τ) arg13 fullShare xs1 ∗ owns (c : Thread nD τ) arg14 fullShare xs2 ∗ owns (c : Thread nD τ) arg15 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (∃ f, (arg10.view.loc (c : Thread nD τ) ↦[arg10.view.set]{fullShare} arg10.view.writes (Elt F) f L8)) ∗ (∃ f, (arg11.view.loc (c : Thread nD τ) ↦[arg11.view.set]{fullShare} arg11.view.writes (Elt F) f L9))
                ∗ (arg12.view.loc (c : Thread nD τ) ↦[arg12.view.set]{fullShare} arg12.view.writes (Elt F) (harg12.unread xs0) LS0) ∗ (arg13.view.loc (c : Thread nD τ) ↦[arg13.view.set]{fullShare} arg13.view.writes (Elt F) (harg13.unread xs1) LS1) ∗ (arg14.view.loc (c : Thread nD τ) ↦[arg14.view.set]{fullShare} arg14.view.writes (Elt F) (harg14.unread xs2) LS2) ∗ (arg15.view.loc (c : Thread nD τ) ↦[arg15.view.set]{fullShare} arg15.view.writes (Elt F) (harg15.unread xs3) LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0__kernel_eq_skeleton]; unfold cc0__kernel_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg12.eq_unread hfs0; obtain rfl := harg13.eq_unread hfs1; obtain rfl := harg14.eq_unread hfs2; obtain rfl := harg15.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexact HS0
    isplitl [HS1]; · iexact HS1
    isplitl [HS2]; · iexact HS2
    iexact HS3

end Cert.KernelIdeal.Tiles

end
-- ==== Proof.IdealFrameKit.lean ====
/-
  The part of the frame that does not look inside the body. Before the call @main reshapes W1's column and the three bias /
  weight vectors to rows and transposes W2 (five host operations, none of which writes an argument array), so the call finds
  the two id arrays and the four parameter arrays exactly as launched. Each of the eight input windows holds, at every grid
  point, its block of the array the call found: the two whole-row windows the eight rows of the point's batch block, the two
  tile windows the 8 × 128 tile of the point, the four parameter windows their whole array.
-/
import proofs.«133724_j1889785610787_1_alg».proof.Proof.IdealTileCond
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the call is entered: after the five host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the call: the host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the call writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the call writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Tiles

end
-- ==== Proof.IdealTileValues.lean ====
/-
  What the two output buffers and the four count accumulators hold after the body at each grid point, by recursion along
  the grid: at the first tile of a batch block the accumulators are what that tile's run writes (whatever they held); at
  every later tile they are the tile's pieces written over what the tile before left; the output buffers are written only
  at a batch block's last tile.
-/
import proofs.«133724_j1889785610787_1_alg».proof.Proof.IdealTileFirst
import proofs.«133724_j1889785610787_1_alg».proof.Proof.IdealTileInner
import proofs.«133724_j1889785610787_1_alg».proof.Proof.IdealTileLast
import proofs.«133724_j1889785610787_1_alg».proof.Proof.IdealFrameKit
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it to the body, and its wholeness. -/
abbrev ms0 (t : Fin cfg0.N) : Memref sig .tc .vmem S8x1024 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x128 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S8x1024x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S8x1024x64 .f32 := win0_9.stage (cfg0.slots t 9)
abbrev hs9 (t : Fin cfg0.N) : (ms9 t).IsWhole := hstage0_9 ((cfg0.slots t 9).cast nbuf0_9)
/-- The four count accumulators: whole scratch buffers of the kernel's own. -/
abbrev scM0 : Memref sig .tc .vmem S8x1024 .f32 := Memref.whole cc0_scratch0
abbrev scM1 : Memref sig .tc .vmem S8x1024 .f32 := Memref.whole cc0_scratch1
abbrev scM2 : Memref sig .tc .vmem S8x1024 .f32 := Memref.whole cc0_scratch2
abbrev scM3 : Memref sig .tc .vmem S8x1024 .f32 := Memref.whole cc0_scratch3
/-- One staging buffer of each output window, through which its contents are stated (the choice does not matter). -/
abbrev VO8 : View sig .tc .vmem S8x1024x64 .f32 := (Memref.whole cc0_stg8_0 : Memref sig .tc .vmem S8x1024x64 .f32).view
abbrev VO9 : View sig .tc .vmem S8x1024x64 .f32 := (Memref.whole cc0_stg9_0 : Memref sig .tc .vmem S8x1024x64 .f32).view

/-- The contents after a point: the two output buffers, then the four accumulators. -/
structure Outs (F : FTy → Type) [FloatOps F] where
  o8 : Vec F S8x1024x64 .f32
  o9 : Vec F S8x1024x64 .f32
  s0 : Vec F S8x1024 .f32
  s1 : Vec F S8x1024 .f32
  s2 : Vec F S8x1024 .f32
  s3 : Vec F S8x1024 .f32

/-- The run at a first tile, at the point's memrefs and input blocks. -/
def firstAt (c : Dev nD) (t : Fin cfg0.N) (h0 : t.val % 8 = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) scM3 (Memref.isWhole_whole _) ((condFirst_iff t).mpr h0) (fun h => by have := (condLast_iff t).mp h; omega) (iblk m c 0 t) (iblk m c 1 t) (iblk m c 2 t) (iblk m c 3 t) (iblk m c 4 t) (iblk m c 5 t) (iblk m c 6 t) (iblk m c 7 t)
/-- The run at an inner tile, over what the tile before left in the accumulators. -/
def innerAt (c : Dev nD) (t : Fin cfg0.N) (h0 : ¬t.val % 8 = 0) (h1 : ¬t.val % 8 = 7) (xs0 xs1 xs2 xs3 : Vec F S8x1024 .f32) :=
  runInner (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) scM3 (Memref.isWhole_whole _) (fun h => h0 ((condFirst_iff t).mp h)) (fun h => h1 ((condLast_iff t).mp h)) (iblk m c 0 t) (iblk m c 1 t) (iblk m c 2 t) (iblk m c 3 t) (iblk m c 4 t) (iblk m c 5 t) (iblk m c 6 t) (iblk m c 7 t) xs0 xs1 xs2 xs3
/-- The run at a last tile, over what the tile before left in the accumulators. -/
def lastAt (c : Dev nD) (t : Fin cfg0.N) (h0 : ¬t.val % 8 = 0) (h1 : t.val % 8 = 7) (xs0 xs1 xs2 xs3 : Vec F S8x1024 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scM0 (Memref.isWhole_whole _) scM1 (Memref.isWhole_whole _) scM2 (Memref.isWhole_whole _) scM3 (Memref.isWhole_whole _) (fun h => h0 ((condFirst_iff t).mp h)) ((condLast_iff t).mpr h1) (iblk m c 0 t) (iblk m c 1 t) (iblk m c 2 t) (iblk m c 3 t) (iblk m c 4 t) (iblk m c 5 t) (iblk m c 6 t) (iblk m c 7 t) xs0 xs1 xs2 xs3

/-- After a first tile: the accumulators are the tile's pieces (they cover each accumulator: the clearing store is whole);
    the output buffers are not written (placeholders nothing consults). -/
def outsFirst (c : Dev nD) (t : Fin cfg0.N) (h0 : t.val % 8 = 0) : Outs F where
  o8 := VO8.read (Elt F) VO8.junk
  o9 := VO9.read (Elt F) VO9.junk
  s0 := scM0.view.read (Elt F) (scM0.view.writes (Elt F) scM0.view.junk (firstAt m c t h0).1)
  s1 := scM1.view.read (Elt F) (scM1.view.writes (Elt F) scM1.view.junk (firstAt m c t h0).2.1)
  s2 := scM2.view.read (Elt F) (scM2.view.writes (Elt F) scM2.view.junk (firstAt m c t h0).2.2.1)
  s3 := scM3.view.read (Elt F) (scM3.view.writes (Elt F) scM3.view.junk (firstAt m c t h0).2.2.2.1)

/-- After an inner tile: each accumulator is the tile's pieces written over what it held. -/
def outsInner (c : Dev nD) (t : Fin cfg0.N) (h0 : ¬t.val % 8 = 0) (h1 : ¬t.val % 8 = 7) (p : Outs F) : Outs F where
  o8 := VO8.read (Elt F) VO8.junk
  o9 := VO9.read (Elt F) VO9.junk
  s0 := scM0.view.read (Elt F) (scM0.view.writes (Elt F) ((Memref.isWhole_whole cc0_scratch0).unread p.s0) (innerAt m c t h0 h1 p.s0 p.s1 p.s2 p.s3).1)
  s1 := scM1.view.read (Elt F) (scM1.view.writes (Elt F) ((Memref.isWhole_whole cc0_scratch1).unread p.s1) (innerAt m c t h0 h1 p.s0 p.s1 p.s2 p.s3).2.1)
  s2 := scM2.view.read (Elt F) (scM2.view.writes (Elt F) ((Memref.isWhole_whole cc0_scratch2).unread p.s2) (innerAt m c t h0 h1 p.s0 p.s1 p.s2 p.s3).2.2.1)
  s3 := scM3.view.read (Elt F) (scM3.view.writes (Elt F) ((Memref.isWhole_whole cc0_scratch3).unread p.s3) (innerAt m c t h0 h1 p.s0 p.s1 p.s2 p.s3).2.2.2.1)

/-- After a last tile: the same for the accumulators, and each output buffer is its pieces (one whole store). -/
def outsLast (c : Dev nD) (t : Fin cfg0.N) (h0 : ¬t.val % 8 = 0) (h1 : t.val % 8 = 7) (p : Outs F) : Outs F where
  o8 := VO8.read (Elt F) (VO8.writes (Elt F) VO8.junk (lastAt m c t h0 h1 p.s0 p.s1 p.s2 p.s3).1)
  o9 := VO9.read (Elt F) (VO9.writes (Elt F) VO9.junk (lastAt m c t h0 h1 p.s0 p.s1 p.s2 p.s3).2.1)
  s0 := scM0.view.read (Elt F) (scM0.view.writes (Elt F) ((Memref.isWhole_whole cc0_scratch0).unread p.s0) (lastAt m c t h0 h1 p.s0 p.s1 p.s2 p.s3).2.2.1)
  s1 := scM1.view.read (Elt F) (scM1.view.writes (Elt F) ((Memref.isWhole_whole cc0_scratch1).unread p.s1) (lastAt m c t h0 h1 p.s0 p.s1 p.s2 p.s3).2.2.2.1)
  s2 := scM2.view.read (Elt F) (scM2.view.writes (Elt F) ((Memref.isWhole_whole cc0_scratch2).unread p.s2) (lastAt m c t h0 h1 p.s0 p.s1 p.s2 p.s3).2.2.2.2.1)
  s3 := scM3.view.read (Elt F) (scM3.view.writes (Elt F) ((Memref.isWhole_whole cc0_scratch3).unread p.s3) (lastAt m c t h0 h1 p.s0 p.s1 p.s2 p.s3).2.2.2.2.2.1)

/-- The contents after the body at position `n` of the grid walk. -/
def outsAt (c : Dev nD) : (n : ℕ) → n < cfg0.N → Outs F
  | 0, hn => outsFirst m c ⟨0, hn⟩ (Nat.zero_mod _)
  | n + 1, hn =>
    if h0 : (n + 1) % 8 = 0 then outsFirst m c ⟨n + 1, hn⟩ h0
    else if h1 : (n + 1) % 8 = 7 then outsLast m c ⟨n + 1, hn⟩ h0 h1 (outsAt c n (Nat.lt_of_succ_lt hn))
    else outsInner m c ⟨n + 1, hn⟩ h0 h1 (outsAt c n (Nat.lt_of_succ_lt hn))

theorem outsAt_first (c : Dev nD) (t : Fin cfg0.N) (h0 : t.val % 8 = 0) : outsAt m c t.val t.isLt = outsFirst m c t h0 := by
  obtain ⟨n, hn⟩ := t
  cases n with
  | zero => rfl
  | succ n => exact dif_pos h0

theorem outsAt_inner (c : Dev nD) (t : Fin cfg0.N) (h0 : ¬t.val % 8 = 0) (h1 : ¬t.val % 8 = 7) :
    outsAt m c t.val t.isLt = outsInner m c t h0 h1 (outsAt m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt_last (c : Dev nD) (t : Fin cfg0.N) (h0 : ¬t.val % 8 = 0) (h1 : t.val % 8 = 7) :
    outsAt m c t.val t.isLt = outsLast m c t h0 h1 (outsAt m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

end Cert.KernelIdeal.Tiles

end
-- ==== Proof.IdealFrameBody.lean ====
/-
  The frame of the call: every weakly fair execution of @main runs to the end without a fault, and leaves each array of the
  call at what the library computes from the proof data below and every other buffer untouched.

  The two id arrays are each read through TWO input windows (the eight whole rows of the batch block, and the 8 × 128 key
  tile), so each array's ownership is dealt in two halves, one to each of its windows; nothing writes them. The invariant
  carried from point to point is the four count accumulators at the contents the recursion of the tile values names (at
  anything before the first point). At a generic point the body is one of three runs — first, inner or last tile of the
  batch block — chosen by the point's residue mod 8.
-/
import proofs.«133724_j1889785610787_1_alg».proof.Proof.IdealTileValues
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's own scoped buffers are the four accumulators, each owned whole at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) := by
  rw [scopedRest0_eq]; simp only [scM0, scM1, scM2, scM3, owns_whole]; try rfl

/-- The invariant before position `n`: before the first point the accumulators hold anything; afterwards what the point
    before left in them. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0 fullShare (outsAt m c n hn).s0 ∗ owns (c : Thread nD τ) scM1 fullShare (outsAt m c n hn).s1 ∗ owns (c : Thread nD τ) scM2 fullShare (outsAt m c n hn).s2 ∗ owns (c : Thread nD τ) scM3 fullShare (outsAt m c n hn).s3)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0 fullShare (outsAt m c n hn).s0 ∗ owns (c : Thread nD τ) scM1 fullShare (outsAt m c n hn).s1 ∗ owns (c : Thread nD τ) scM2 fullShare (outsAt m c n hn).s2 ∗ owns (c : Thread nD τ) scM3 fullShare (outsAt m c n hn).s3) := rfl

theorem PhiS_pos (c : Dev nD) (n : ℕ) (h : n ≤ cfg0.N) (hz : n ≠ 0) :
    PhiS m c n h = iprop(owns (c : Thread nD τ) scM0 fullShare (outsAt m c (n - 1) (by omega)).s0 ∗ owns (c : Thread nD τ) scM1 fullShare (outsAt m c (n - 1) (by omega)).s1 ∗ owns (c : Thread nD τ) scM2 fullShare (outsAt m c (n - 1) (by omega)).s2 ∗ owns (c : Thread nD τ) scM3 fullShare (outsAt m c (n - 1) (by omega)).s3) := by
  cases n with
  | zero => exact absurd rfl hz
  | succ n => rfl

/-- The proof data of the call on core `c`: the arrays as the call finds them; after the body each input buffer at its
    block and the two output buffers at the tile values; the invariant above; each id array's ownership dealt in halves to
    its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).o8
    | ⟨9, _⟩ => (outsAt m c t.val t.isLt).o9
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outsAt m c t.val t.isLt).o8 := by dsimp only [dats]
theorem after9 (c : Dev nD) (t : Fin cfg0.N) : (dats m 0 c).after 9 t = (outsAt m c t.val t.isLt).o9 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The pieces a first tile writes cover each accumulator, and a last tile's each output buffer -/

theorem coverFirst0 (c : Dev nD) (t : Fin cfg0.N) (h0 : t.val % 8 = 0) (y : S8x1024.Idx) : ∃ pc ∈ (firstAt m c t h0).1, y ∈ pc.1.set :=
  View.cover_of_tiledL (firstAt m c t h0).1 S8x1024.size (by sl_kernel_rfl) y
theorem coverFirst1 (c : Dev nD) (t : Fin cfg0.N) (h0 : t.val % 8 = 0) (y : S8x1024.Idx) : ∃ pc ∈ (firstAt m c t h0).2.1, y ∈ pc.1.set :=
  View.cover_of_tiledL (firstAt m c t h0).2.1 S8x1024.size (by sl_kernel_rfl) y
theorem coverFirst3 (c : Dev nD) (t : Fin cfg0.N) (h0 : t.val % 8 = 0) (y : S8x1024.Idx) : ∃ pc ∈ (firstAt m c t h0).2.2.2.1, y ∈ pc.1.set :=
  View.cover_of_tiledL (firstAt m c t h0).2.2.2.1 S8x1024.size (by sl_kernel_rfl) y
theorem coverLast8 (c : Dev nD) (t : Fin cfg0.N) (h0 : ¬t.val % 8 = 0) (h1 : t.val % 8 = 7) (xs0 xs1 xs2 xs3 : Vec F S8x1024 .f32) (y : S8x1024x64.Idx) :
    ∃ pc ∈ (lastAt m c t h0 h1 xs0 xs1 xs2 xs3).1, y ∈ pc.1.set :=
  View.cover_of_tiledL (lastAt m c t h0 h1 xs0 xs1 xs2 xs3).1 S8x1024x64.size (by sl_kernel_rfl) y
theorem coverLast9 (c : Dev nD) (t : Fin cfg0.N) (h0 : ¬t.val % 8 = 0) (h1 : t.val % 8 = 7) (xs0 xs1 xs2 xs3 : Vec F S8x1024 .f32) (y : S8x1024x64.Idx) :
    ∃ pc ∈ (lastAt m c t h0 h1 xs0 xs1 xs2 xs3).2.1, y ∈ pc.1.set :=
  View.cover_of_tiledL (lastAt m c t h0 h1 xs0 xs1 xs2 xs3).2.1 S8x1024x64.size (by sl_kernel_rfl) y
/-- The column-count accumulator at a first tile: its pieces are the tile's 128 columns over the whole clearing store,
    and the clearing store alone covers it. -/
theorem coverFirst2 (c : Dev nD) (t : Fin cfg0.N) (h0 : t.val % 8 = 0) (y : S8x1024.Idx) : ∃ pc ∈ (firstAt m c t h0).2.2.1, y ∈ pc.1.set := by
  have hL : ∃ p₁ p₂ : View.Piece (Elt F) S8x1024 .f32, (firstAt m c t h0).2.2.1 = [p₁, p₂]
      ∧ p₂.1 = Rect.unit (s := S8x1024) ![0, 0] S8x1024.size inb_S8x1024_S8x1024_0_0 := ⟨_, _, rfl, rfl⟩
  obtain ⟨p₁, p₂, hL, hp⟩ := hL
  refine ⟨p₂, by rw [hL]; exact List.mem_cons_of_mem _ (List.mem_singleton.mpr rfl), ?_⟩
  rw [hp, Rect.mem_set_unit]
  intro a
  have hz : (![0, 0] : Fin 2 → ℕ) a = 0 := by fin_cases a <;> rfl
  rw [hz, Nat.zero_add]
  exact ⟨Nat.zero_le _, (y a).isLt⟩

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by (unfold Dat.leavesExact; rw [liveIn 0 (by decide) t]), after0]
  rw [show (dats m 0 c).leavesExact 1 t = owns (c : Thread nD τ) (ms1 t) fullShare ((dats m 0 c).after 1 t) from by (unfold Dat.leavesExact; rw [liveIn 1 (by decide) t]), after1]
  rw [show (dats m 0 c).leavesExact 2 t = owns (c : Thread nD τ) (ms2 t) fullShare ((dats m 0 c).after 2 t) from by (unfold Dat.leavesExact; rw [liveIn 2 (by decide) t]), after2]
  rw [show (dats m 0 c).leavesExact 3 t = owns (c : Thread nD τ) (ms3 t) fullShare ((dats m 0 c).after 3 t) from by (unfold Dat.leavesExact; rw [liveIn 3 (by decide) t]), after3]
  rw [show (dats m 0 c).leavesExact 4 t = owns (c : Thread nD τ) (ms4 t) fullShare ((dats m 0 c).after 4 t) from by (unfold Dat.leavesExact; rw [liveIn 4 (by decide) t]), after4]
  rw [show (dats m 0 c).leavesExact 5 t = owns (c : Thread nD τ) (ms5 t) fullShare ((dats m 0 c).after 5 t) from by (unfold Dat.leavesExact; rw [liveIn 5 (by decide) t]), after5]
  rw [show (dats m 0 c).leavesExact 6 t = owns (c : Thread nD τ) (ms6 t) fullShare ((dats m 0 c).after 6 t) from by (unfold Dat.leavesExact; rw [liveIn 6 (by decide) t]), after6]
  rw [show (dats m 0 c).leavesExact 7 t = owns (c : Thread nD τ) (ms7 t) fullShare ((dats m 0 c).after 7 t) from by (unfold Dat.leavesExact; rw [liveIn 7 (by decide) t]), after7]
  by_cases h0 : t.val % 8 = 0
  · have h1 : ¬t.val % 8 = 7 := by omega
    have hl : ¬condLast (grid0.coords t) := fun h => h1 ((condLast_iff t).mp h)
    rw [Dat.leavesExact_idle (dats m 0 c) 8 t (idle8_of_not_last t hl) (noFlush8_of_not_last t hl)]
    rw [Dat.leavesExact_idle (dats m 0 c) 9 t (idle9_of_not_last t hl) (noFlush9_of_not_last t hl)]
    rw [outsAt_first m c t h0]
    unfold outsFirst; dsimp only
    by_cases hz : t.val = 0
    · rw [PhiS_castSucc m c t, PhiS_zero m c _ _ hz, scopedRest_eq]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((firstAt m c t h0).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      iintro ⟨H0, H1, H2, H3, H4, H5, H6, H7, H8, H9, ⟨%e0, HS0⟩, ⟨%e1, HS1⟩, ⟨%e2, HS2⟩, ⟨%e3, HS3⟩⟩
      isplitl [HS0 HS1 HS2 HS3]
      · isplitl [HS0]
        · unfold owns; iexists _; isplitr
          swap; · iexact HS0
          ipureintro; exact View.read_writes_of_cover _ _ _ _ _ (coverFirst0 m c t h0)
        isplitl [HS1]
        · unfold owns; iexists _; isplitr
          swap; · iexact HS1
          ipureintro; exact View.read_writes_of_cover _ _ _ _ _ (coverFirst1 m c t h0)
        isplitl [HS2]
        · unfold owns; iexists _; isplitr
          swap; · iexact HS2
          ipureintro; exact View.read_writes_of_cover _ _ _ _ _ (coverFirst2 m c t h0)
        · unfold owns; iexists _; isplitr
          swap; · iexact HS3
          ipureintro; exact View.read_writes_of_cover _ _ _ _ _ (coverFirst3 m c t h0)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
    · rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((firstAt m c t h0).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, H9, ⟨%e0, HS0⟩, ⟨%e1, HS1⟩, ⟨%e2, HS2⟩, ⟨%e3, HS3⟩⟩
      isplitl [HS0 HS1 HS2 HS3]
      · isplitl [HS0]
        · unfold owns; iexists _; isplitr
          swap; · iexact HS0
          ipureintro; exact View.read_writes_of_cover _ _ _ _ _ (coverFirst0 m c t h0)
        isplitl [HS1]
        · unfold owns; iexists _; isplitr
          swap; · iexact HS1
          ipureintro; exact View.read_writes_of_cover _ _ _ _ _ (coverFirst1 m c t h0)
        isplitl [HS2]
        · unfold owns; iexists _; isplitr
          swap; · iexact HS2
          ipureintro; exact View.read_writes_of_cover _ _ _ _ _ (coverFirst2 m c t h0)
        · unfold owns; iexists _; isplitr
          swap; · iexact HS3
          ipureintro; exact View.read_writes_of_cover _ _ _ _ _ (coverFirst3 m c t h0)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
  · have hz : t.val ≠ 0 := fun h => h0 (by rw [h])
    by_cases h1 : t.val % 8 = 7
    · have hl : condLast (grid0.coords t) := (condLast_iff t).mpr h1
      rw [show (dats m 0 c).leavesExact 8 t = owns (c : Thread nD τ) (ms8 t) fullShare ((dats m 0 c).after 8 t) from by
        unfold Dat.leavesExact; rw [live8_of_last t hl], after8]
      rw [show (dats m 0 c).leavesExact 9 t = owns (c : Thread nD τ) (ms9 t) fullShare ((dats m 0 c).after 9 t) from by
        unfold Dat.leavesExact; rw [live9_of_last t hl], after9]
      rw [outsAt_last m c t h0 h1]
      unfold outsLast; dsimp only
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((lastAt m c t h0 h1 _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, ⟨%e8, H8⟩, ⟨%e9, H9⟩, HS0, HS1, HS2, HS3⟩
      isplitl [HS0 HS1 HS2 HS3]
      · isplitl [HS0]
        · unfold owns; iexists _; isplitr
          swap; · iexact HS0
          ipureintro; rfl
        isplitl [HS1]
        · unfold owns; iexists _; isplitr
          swap; · iexact HS1
          ipureintro; rfl
        isplitl [HS2]
        · unfold owns; iexists _; isplitr
          swap; · iexact HS2
          ipureintro; rfl
        · unfold owns; iexists _; isplitr
          swap; · iexact HS3
          ipureintro; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (coverLast8 m c t h0 h1 _ _ _ _)
      · unfold owns; iexists _; isplitr
        swap; · iexact H9
        ipureintro; exact View.read_writes_of_cover _ _ _ _ _ (coverLast9 m c t h0 h1 _ _ _ _)
    · have hl : ¬condLast (grid0.coords t) := fun h => h1 ((condLast_iff t).mp h)
      rw [Dat.leavesExact_idle (dats m 0 c) 8 t (idle8_of_not_last t hl) (noFlush8_of_not_last t hl)]
      rw [Dat.leavesExact_idle (dats m 0 c) 9 t (idle9_of_not_last t hl) (noFlush9_of_not_last t hl)]
      rw [outsAt_inner m c t h0 h1]
      unfold outsInner; dsimp only
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((innerAt m c t h0 h1 _ _ _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      iintro ⟨H0, H1, H2, H3, H4, H5, H6, H7, H8, H9, HS0, HS1, HS2, HS3⟩
      isplitl [HS0 HS1 HS2 HS3]
      · isplitl [HS0]
        · unfold owns; iexists _; isplitr
          swap; · iexact HS0
          ipureintro; rfl
        isplitl [HS1]
        · unfold owns; iexists _; isplitr
          swap; · iexact HS1
          ipureintro; rfl
        isplitl [HS2]
        · unfold owns; iexists _; isplitr
          swap; · iexact HS2
          ipureintro; rfl
        · unfold owns; iexists _; isplitr
          swap; · iexact HS3
          ipureintro; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Tiles

end
-- ==== Proof.IdealFrameRun.lean ====
/-
  The launch. The call's ten windows stand on eight distinct arrays: each id array is behind two input windows. Its buffer,
  owned whole when the call is entered, is dealt as its two half shares to those windows; the other six arrays go whole to
  their one window. With that dealing, the body obligation and the invariant's ends, the library's launch theorem for
  windows that may share arrays runs @main; read at the six argument arrays its post is the frame.
-/
import proofs.«133724_j1889785610787_1_alg».proof.Proof.IdealFrameBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows' arrays, owned whole at the entry contents, make the proof data's arrays:
    each id array split into its two halves, one for the whole-row window and one for the key-tile window. -/
theorem deal (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs
  rw [show (dats m 0 c).arrays ((dats m 0 c).arrAt · 0)
        = bigSep Finset.univ fun w : Fin 10 => (((c.tc : Thread nD τ).loc (Pipeline.arrRef spec0 w)) ↦{(dats m 0 c).share w} V m c (Pipeline.arrRef spec0 w) : sProp 𝕄) from by
      unfold Dat.arrays
      exact bigSep_congr fun w _ => by rw [(arr_whole0 w).set_eq_univ]; try rfl]
  rw [bigSep_eq_bigSepL_of_eq [main_arg0, main_arg1, main_v1, main_v2, main_v3, main_v4, main_v5_0, main_v5_1] (by decide) (by decide), bigSep_W0]
  simp only [bigSepL_cons_cons, bigSepL_singleton]
  show iprop(_ ∗ _ ∗ _ ∗ _ ∗ _ ∗ _ ∗ _ ∗ _) ⊢ _
  iintro ⟨HA0, HA1, HB1, HB2, HB3, HB4, HO0, HO1⟩
  ihave HS0 := (pointsTo_share (PosShare.mem_left_op_right fullShare)).1 $$ HA0
  icases HS0 with ⟨HA0l, HA0r⟩
  ihave HS1 := (pointsTo_share (PosShare.mem_left_op_right fullShare)).1 $$ HA1
  icases HS1 with ⟨HA1l, HA1r⟩
  isplitl [HA0l]; · iexact HA0l
  isplitl [HA1l]; · iexact HA1l
  isplitl [HA0r]; · iexact HA0r
  isplitl [HA1r]; · iexact HA1r
  isplitl [HB1]; · iexact HB1
  isplitl [HB2]; · iexact HB2
  isplitl [HB3]; · iexact HB3
  isplitl [HB4]; · iexact HB4
  isplitl [HO0]; · iexact HO0
  iexact HO1

/-- Before the first point the invariant is the accumulators at anything: what the launch hands the call. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- After the last point the accumulators' named contents are forgotten. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest_eq]
  iintro ⟨H0, H1, H2, H3⟩
  isplitr; · iempintro
  isplitl [H0]; · iexists _; iexact H0
  isplitl [H1]; · iexists _; iexact H1
  isplitl [H2]; · iexists _; iexact H2
  iexists _; iexact H3

set_option backward.isDefEq.respectTransparency.types false in
/-- Every weakly fair execution of @main terminates, and every final state has each array of the call at what the library
    computes from the proof data and every other unscoped buffer as the call found it. -/
theorem run_main : θ_run defs (onTc (τ := τ) (main (F := F))) ⟨m, fun _ => 0, ρ⟩ (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := deal m)
    (X := fun _ => BI.emp) (Y := fun _ => BI.emp)
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- THE FRAME: @main runs to the end and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.KernelIdeal.Tiles

end
-- ==== Proof.RefRun.lean ====
/-
  The reference's run. @main of the reference is a straight line of 96 host operations: for each of the four pairs of id
  arrays the [64,1024,1024] equality table, summed along the key axis as integers and converted to float; the two count
  channels stacked and masked at the padding positions; the first layer (count · W1 + b1, clamped below at 0) in each
  channel; the second layer as one contraction with W2, plus b2; and the sum over the two channels. Every weakly fair
  execution of it terminates with each buffer at the operations' results folded over the launch contents, and no
  operation writes an argument array.
-/
import proofs.«133724_j1889785610787_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 96 operations, in order (a called function's operations stand in its call's place, spelt `TRef.…`). -/
abbrev ops : List (HloOp τ sig (Elt F)) :=
  [ unary main_arg0 main_v0 (broadcastInDim S64x1024x1 ![0, 1] bcast_S64x1024_S64x1024x1_0_1 : (⟨S64x1024, .i32⟩ : BufTy).Contents (Elt F) → (⟨S64x1024x1, .i32⟩ : BufTy).Contents (Elt F)),
    unary main_arg0 main_v1 (broadcastInDim S64x1x1024 ![0, 2] bcast_S64x1024_S64x1x1024_0_2 : (⟨S64x1024, .i32⟩ : BufTy).Contents (Elt F) → (⟨S64x1x1024, .i32⟩ : BufTy).Contents (Elt F)),
    unary main_v0 main_v2 (broadcastInDim S64x1024x1024 ![0, 1, 2] bcast_S64x1024x1_S64x1024x1024_0_1_2 : (⟨S64x1024x1, .i32⟩ : BufTy).Contents (Elt F) → (⟨S64x1024x1024, .i32⟩ : BufTy).Contents (Elt F)),
    unary main_v1 main_v3 (broadcastInDim S64x1024x1024 ![0, 1, 2] bcast_S64x1x1024_S64x1024x1024_0_1_2 : (⟨S64x1x1024, .i32⟩ : BufTy).Contents (Elt F) → (⟨S64x1024x1024, .i32⟩ : BufTy).Contents (Elt F)),
    binary main_v2 main_v3 main_v4 (cmpi .eq : (⟨S64x1024x1024, .i32⟩ : BufTy).Contents (Elt F) → (⟨S64x1024x1024, .i32⟩ : BufTy).Contents (Elt F) → (⟨S64x1024x1024, .i1⟩ : BufTy).Contents (Elt F)),
    unary main_v4 main_v5 ((extui 32 · natLt_1_32) : (⟨S64x1024x1024, .i1⟩ : BufTy).Contents (Elt F) → (⟨S64x1024x1024, .i32⟩ : BufTy).Contents (Elt F)),
    nullary main_c (constantI S_ 32 0#32),
    binary main_v5 main_c main_v6 ((fun x v => Host.reduce IntOp.addi x v reducesTo_S64x1024x1024_S64x1024_d2 h_S_) : (⟨S64x1024x1024, .i32⟩ : BufTy).Contents (Elt F) → (⟨S_, .i32⟩ : BufTy).Contents (Elt F) → (⟨S64x1024, .i32⟩ : BufTy).Contents (Elt F)),
    unary main_v6 main_v7 (sitofp .f32 : (⟨S64x1024, .i32⟩ : BufTy).Contents (Elt F) → (⟨S64x1024, .f32⟩ : BufTy).Contents (Elt F)),
    unary main_arg0 main_v8 (broadcastInDim S64x1024x1 ![0, 1] bcast_S64x1024_S64x1024x1_0_1 : (⟨S64x1024, .i32⟩ : BufTy).Contents (Elt F) → (⟨S64x1024x1, .i32⟩ : BufTy).Contents (Elt F)),
    unary main_arg1 main_v9 (broadcastInDim S64x1x1024 ![0, 2] bcast_S64x1024_S64x1x1024_0_2 : (⟨S64x1024, .i32⟩ : BufTy).Contents (Elt F) → (⟨S64x1x1024, .i32⟩ : BufTy).Contents (Elt F)),
    unary main_v8 main_v10 (broadcastInDim S64x1024x1024 ![0, 1, 2] bcast_S64x1024x1_S64x1024x1024_0_1_2 : (⟨S64x1024x1, .i32⟩ : BufTy).Contents (Elt F) → (⟨S64x1024x1024, .i32⟩ : BufTy).Contents (Elt F)),
    unary main_v9 main_v11 (broadcastInDim S64x1024x1024 ![0, 1, 2] bcast_S64x1x1024_S64x1024x1024_0_1_2 : (⟨S64x1x1024, .i32⟩ : BufTy).Contents (Elt F) → (⟨S64x1024x1024, .i32⟩ : BufTy).Contents (Elt F)),
    binary main_v10 main_v11 main_v12 (cmpi .eq : (⟨S64x1024x1024, .i32⟩ : BufTy).Contents (Elt F) → (⟨S64x1024x1024, .i32⟩ : BufTy).Contents (Elt F) → (⟨S64x1024x1024, .i1⟩ : BufTy).Contents (Elt F)),
    unary main_v12 main_v13 ((extui 32 · natLt_1_32) : (⟨S64x1024x1024, .i1⟩ : BufTy).Contents (Elt F) → (⟨S64x1024x1024, .i32⟩ : BufTy).Contents (Elt F)),
    nullary main_c_0 (constantI S_ 32 0#32),
    binary main_v13 main_c_0 main_v14 ((fun x v => Host.reduce IntOp.addi x v reducesTo_S64x1024x1024_S64x1024_d2 h_S_) : (⟨S64x1024x1024, .i32⟩ : BufTy).Contents (Elt F) → (⟨S_, .i32⟩ : BufTy).Contents (Elt F) → (⟨S64x1024, .i32⟩ : BufTy).Contents (Elt F)),
    unary main_v14 main_v15 (sitofp .f32 : (⟨S64x1024, .i32⟩ : BufTy).Contents (Elt F) → (⟨S64x1024, .f32⟩ : BufTy).Contents (Elt F)),
    unary main_v7 main_v16 (broadcastInDim S64x1024x1 ![0, 1] bcast_S64x1024_S64x1024x1_0_1 : (⟨S64x1024, .f32⟩ : BufTy).Contents (Elt F) → (⟨S64x1024x1, .f32⟩ : BufTy).Contents (Elt F)),
    unary main_v15 main_v17 (broadcastInDim S64x1024x1 ![0, 1] bcast_S64x1024_S64x1024x1_0_1 : (⟨S64x1024, .f32⟩ : BufTy).Contents (Elt F) → (⟨S64x1024x1, .f32⟩ : BufTy).Contents (Elt F)),
    binary main_v16 main_v17 main_v18 ((fun a b => concatenate S64x1024x2 2 [⟨S64x1024x1, a⟩, ⟨S64x1024x1, b⟩] concatenates_S64x1024x1_S64x1024x1_S64x1024x2_d2) : (⟨S64x1024x1, .f32⟩ : BufTy).Contents (Elt F) → (⟨S64x1024x1, .f32⟩ : BufTy).Contents (Elt F) → (⟨S64x1024x2, .f32⟩ : BufTy).Contents (Elt F)),
    unary main_arg1 main_v19 (broadcastInDim S64x1024x1 ![0, 1] bcast_S64x1024_S64x1024x1_0_1 : (⟨S64x1024, .i32⟩ : BufTy).Contents (Elt F) → (⟨S64x1024x1, .i32⟩ : BufTy).Contents (Elt F)),
    unary main_arg0 main_v20 (broadcastInDim S64x1x1024 ![0, 2] bcast_S64x1024_S64x1x1024_0_2 : (⟨S64x1024, .i32⟩ : BufTy).Contents (Elt F) → (⟨S64x1x1024, .i32⟩ : BufTy).Contents (Elt F)),
    unary main_v19 main_v21 (broadcastInDim S64x1024x1024 ![0, 1, 2] bcast_S64x1024x1_S64x1024x1024_0_1_2 : (⟨S64x1024x1, .i32⟩ : BufTy).Contents (Elt F) → (⟨S64x1024x1024, .i32⟩ : BufTy).Contents (Elt F)),
    unary main_v20 main_v22 (broadcastInDim S64x1024x1024 ![0, 1, 2] bcast_S64x1x1024_S64x1024x1024_0_1_2 : (⟨S64x1x1024, .i32⟩ : BufTy).Contents (Elt F) → (⟨S64x1024x1024, .i32⟩ : BufTy).Contents (Elt F)),
    binary main_v21 main_v22 main_v23 (cmpi .eq : (⟨S64x1024x1024, .i32⟩ : BufTy).Contents (Elt F) → (⟨S64x1024x1024, .i32⟩ : BufTy).Contents (Elt F) → (⟨S64x1024x1024, .i1⟩ : BufTy).Contents (Elt F)),
    unary main_v23 main_v24 ((extui 32 · natLt_1_32) : (⟨S64x1024x1024, .i1⟩ : BufTy).Contents (Elt F) → (⟨S64x1024x1024, .i32⟩ : BufTy).Contents (Elt F)),
    nullary main_c_1 (constantI S_ 32 0#32),
    binary main_v24 main_c_1 main_v25 ((fun x v => Host.reduce IntOp.addi x v reducesTo_S64x1024x1024_S64x1024_d2 h_S_) : (⟨S64x1024x1024, .i32⟩ : BufTy).Contents (Elt F) → (⟨S_, .i32⟩ : BufTy).Contents (Elt F) → (⟨S64x1024, .i32⟩ : BufTy).Contents (Elt F)),
    unary main_v25 main_v26 (sitofp .f32 : (⟨S64x1024, .i32⟩ : BufTy).Contents (Elt F) → (⟨S64x1024, .f32⟩ : BufTy).Contents (Elt F)),
    unary main_arg1 main_v27 (broadcastInDim S64x1024x1 ![0, 1] bcast_S64x1024_S64x1024x1_0_1 : (⟨S64x1024, .i32⟩ : BufTy).Contents (Elt F) → (⟨S64x1024x1, .i32⟩ : BufTy).Contents (Elt F)),
    unary main_arg1 main_v28 (broadcastInDim S64x1x1024 ![0, 2] bcast_S64x1024_S64x1x1024_0_2 : (⟨S64x1024, .i32⟩ : BufTy).Contents (Elt F) → (⟨S64x1x1024, .i32⟩ : BufTy).Contents (Elt F)),
    unary main_v27 main_v29 (broadcastInDim S64x1024x1024 ![0, 1, 2] bcast_S64x1024x1_S64x1024x1024_0_1_2 : (⟨S64x1024x1, .i32⟩ : BufTy).Contents (Elt F) → (⟨S64x1024x1024, .i32⟩ : BufTy).Contents (Elt F)),
    unary main_v28 main_v30 (broadcastInDim S64x1024x1024 ![0, 1, 2] bcast_S64x1x1024_S64x1024x1024_0_1_2 : (⟨S64x1x1024, .i32⟩ : BufTy).Contents (Elt F) → (⟨S64x1024x1024, .i32⟩ : BufTy).Contents (Elt F)),
    binary main_v29 main_v30 main_v31 (cmpi .eq : (⟨S64x1024x1024, .i32⟩ : BufTy).Contents (Elt F) → (⟨S64x1024x1024, .i32⟩ : BufTy).Contents (Elt F) → (⟨S64x1024x1024, .i1⟩ : BufTy).Contents (Elt F)),
    unary main_v31 main_v32 ((extui 32 · natLt_1_32) : (⟨S64x1024x1024, .i1⟩ : BufTy).Contents (Elt F) → (⟨S64x1024x1024, .i32⟩ : BufTy).Contents (Elt F)),
    nullary main_c_2 (constantI S_ 32 0#32),
    binary main_v32 main_c_2 main_v33 ((fun x v => Host.reduce IntOp.addi x v reducesTo_S64x1024x1024_S64x1024_d2 h_S_) : (⟨S64x1024x1024, .i32⟩ : BufTy).Contents (Elt F) → (⟨S_, .i32⟩ : BufTy).Contents (Elt F) → (⟨S64x1024, .i32⟩ : BufTy).Contents (Elt F)),
    unary main_v33 main_v34 (sitofp .f32 : (⟨S64x1024, .i32⟩ : BufTy).Contents (Elt F) → (⟨S64x1024, .f32⟩ : BufTy).Contents (Elt F)),
    unary main_v26 main_v35 (broadcastInDim S64x1024x1 ![0, 1] bcast_S64x1024_S64x1024x1_0_1 : (⟨S64x1024, .f32⟩ : BufTy).Contents (Elt F) → (⟨S64x1024x1, .f32⟩ : BufTy).Contents (Elt F)),
    unary main_v34 main_v36 (broadcastInDim S64x1024x1 ![0, 1] bcast_S64x1024_S64x1024x1_0_1 : (⟨S64x1024, .f32⟩ : BufTy).Contents (Elt F) → (⟨S64x1024x1, .f32⟩ : BufTy).Contents (Elt F)),
    binary main_v35 main_v36 main_v37 ((fun a b => concatenate S64x1024x2 2 [⟨S64x1024x1, a⟩, ⟨S64x1024x1, b⟩] concatenates_S64x1024x1_S64x1024x1_S64x1024x2_d2) : (⟨S64x1024x1, .f32⟩ : BufTy).Contents (Elt F) → (⟨S64x1024x1, .f32⟩ : BufTy).Contents (Elt F) → (⟨S64x1024x2, .f32⟩ : BufTy).Contents (Elt F)),
    nullary main_c_3 (constantI S_ 32 0#32),
    unary main_c_3 main_v38 (broadcastInDim S64x1024 ![] bcast_S_S64x1024 : (⟨S_, .i32⟩ : BufTy).Contents (Elt F) → (⟨S64x1024, .i32⟩ : BufTy).Contents (Elt F)),
    binary main_arg0 main_v38 main_v39 (cmpi .eq : (⟨S64x1024, .i32⟩ : BufTy).Contents (Elt F) → (⟨S64x1024, .i32⟩ : BufTy).Contents (Elt F) → (⟨S64x1024, .i1⟩ : BufTy).Contents (Elt F)),
    unary main_v39 main_v40 (broadcastInDim S64x1024x1 ![0, 1] bcast_S64x1024_S64x1024x1_0_1 : (⟨S64x1024, .i1⟩ : BufTy).Contents (Elt F) → (⟨S64x1024x1, .i1⟩ : BufTy).Contents (Elt F)),
    nullary main_cst (constant S_ .f32 0x00000000#32),
    TRef.unary (TRef.of (T := ⟨S_, .f32⟩) main_cst) (TRef.of (T := ⟨S_, .f32⟩) main_call0_v0) id,
    TRef.unary (TRef.of (T := ⟨S64x1024x1, .i1⟩) main_v40) (TRef.of (T := ⟨S64x1024x2, .i1⟩) main_call0_v1) (broadcastInDim S64x1024x2 ![0, 1, 2] bcast_S64x1024x1_S64x1024x2_0_1_2),
    TRef.unary (TRef.of (T := ⟨S_, .f32⟩) main_call0_v0) (TRef.of (T := ⟨S64x1024x2, .f32⟩) main_call0_v2) (broadcastInDim S64x1024x2 ![] bcast_S_S64x1024x2),
    TRef.ternary (TRef.of (T := ⟨S64x1024x2, .i1⟩) main_call0_v1) (TRef.of (T := ⟨S64x1024x2, .f32⟩) main_call0_v2) (TRef.of (T := ⟨S64x1024x2, .f32⟩) main_v18) (TRef.of (T := ⟨S64x1024x2, .f32⟩) main_v41) select,
    nullary main_c_4 (constantI S_ 32 0#32),
    unary main_c_4 main_v42 (broadcastInDim S64x1024 ![] bcast_S_S64x1024 : (⟨S_, .i32⟩ : BufTy).Contents (Elt F) → (⟨S64x1024, .i32⟩ : BufTy).Contents (Elt F)),
    binary main_arg1 main_v42 main_v43 (cmpi .eq : (⟨S64x1024, .i32⟩ : BufTy).Contents (Elt F) → (⟨S64x1024, .i32⟩ : BufTy).Contents (Elt F) → (⟨S64x1024, .i1⟩ : BufTy).Contents (Elt F)),
    unary main_v43 main_v44 (broadcastInDim S64x1024x1 ![0, 1] bcast_S64x1024_S64x1024x1_0_1 : (⟨S64x1024, .i1⟩ : BufTy).Contents (Elt F) → (⟨S64x1024x1, .i1⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S64x1024x1, .i1⟩) main_v44) (TRef.of (T := ⟨S64x1024x2, .i1⟩) main_call1_v1) (broadcastInDim S64x1024x2 ![0, 1, 2] bcast_S64x1024x1_S64x1024x2_0_1_2),
    TRef.unary (TRef.of (T := ⟨S_, .f32⟩) main_call1_v0) (TRef.of (T := ⟨S64x1024x2, .f32⟩) main_call1_v2) (broadcastInDim S64x1024x2 ![] bcast_S_S64x1024x2),
    TRef.ternary (TRef.of (T := ⟨S64x1024x2, .i1⟩) main_call1_v1) (TRef.of (T := ⟨S64x1024x2, .f32⟩) main_call1_v2) (TRef.of (T := ⟨S64x1024x2, .f32⟩) main_v37) (TRef.of (T := ⟨S64x1024x2, .f32⟩) main_v45) select,
    unary main_v41 main_v46 (broadcastInDim S64x1024x2x1 ![0, 1, 2] bcast_S64x1024x2_S64x1024x2x1_0_1_2 : (⟨S64x1024x2, .f32⟩ : BufTy).Contents (Elt F) → (⟨S64x1024x2x1, .f32⟩ : BufTy).Contents (Elt F)),
    reshape main_arg2 main_v47 rfl shapeCasts_S64x1_S64,
    unary main_v47 main_v48 (broadcastInDim S1x1x1x64 ![3] bcast_S64_S1x1x1x64_3 : (⟨S64, .f32⟩ : BufTy).Contents (Elt F) → (⟨S1x1x1x64, .f32⟩ : BufTy).Contents (Elt F)),
    unary main_v46 main_v49 (broadcastInDim S64x1024x2x64 ![0, 1, 2, 3] bcast_S64x1024x2x1_S64x1024x2x64_0_1_2_3 : (⟨S64x1024x2x1, .f32⟩ : BufTy).Contents (Elt F) → (⟨S64x1024x2x64, .f32⟩ : BufTy).Contents (Elt F)),
    unary main_v48 main_v50 (broadcastInDim S64x1024x2x64 ![0, 1, 2, 3] bcast_S1x1x1x64_S64x1024x2x64_0_1_2_3 : (⟨S1x1x1x64, .f32⟩ : BufTy).Contents (Elt F) → (⟨S64x1024x2x64, .f32⟩ : BufTy).Contents (Elt F)),
    binary main_v49 main_v50 main_v51 (mulf : (⟨S64x1024x2x64, .f32⟩ : BufTy).Contents (Elt F) → (⟨S64x1024x2x64, .f32⟩ : BufTy).Contents (Elt F) → (⟨S64x1024x2x64, .f32⟩ : BufTy).Contents (Elt F)),
    unary main_arg3 main_v52 (broadcastInDim S1x1x1x64 ![3] bcast_S64_S1x1x1x64_3 : (⟨S64, .f32⟩ : BufTy).Contents (Elt F) → (⟨S1x1x1x64, .f32⟩ : BufTy).Contents (Elt F)),
    unary main_v52 main_v53 (broadcastInDim S64x1024x2x64 ![0, 1, 2, 3] bcast_S1x1x1x64_S64x1024x2x64_0_1_2_3 : (⟨S1x1x1x64, .f32⟩ : BufTy).Contents (Elt F) → (⟨S64x1024x2x64, .f32⟩ : BufTy).Contents (Elt F)),
    binary main_v51 main_v53 main_v54 (addf : (⟨S64x1024x2x64, .f32⟩ : BufTy).Contents (Elt F) → (⟨S64x1024x2x64, .f32⟩ : BufTy).Contents (Elt F) → (⟨S64x1024x2x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S64x1024x2x64, .f32⟩) main_call2_v0) (broadcastInDim S64x1024x2x64 ![] bcast_S_S64x1024x2x64),
    TRef.binary (TRef.of (T := ⟨S64x1024x2x64, .f32⟩) main_v54) (TRef.of (T := ⟨S64x1024x2x64, .f32⟩) main_call2_v0) (TRef.of (T := ⟨S64x1024x2x64, .f32⟩) main_v55) maximumf,
    binary main_v55 main_arg4 main_v56 ((fun l r => Host.dotGeneral dot_S64x1024x2x64_S64x64_S64x1024x2x64_3_1_012_0_n_n none l r) : (⟨S64x1024x2x64, .f32⟩ : BufTy).Contents (Elt F) → (⟨S64x64, .f32⟩ : BufTy).Contents (Elt F) → (⟨S64x1024x2x64, .f32⟩ : BufTy).Contents (Elt F)),
    unary main_arg5 main_v57 (broadcastInDim S1x1x1x64 ![3] bcast_S64_S1x1x1x64_3 : (⟨S64, .f32⟩ : BufTy).Contents (Elt F) → (⟨S1x1x1x64, .f32⟩ : BufTy).Contents (Elt F)),
    unary main_v57 main_v58 (broadcastInDim S64x1024x2x64 ![0, 1, 2, 3] bcast_S1x1x1x64_S64x1024x2x64_0_1_2_3 : (⟨S1x1x1x64, .f32⟩ : BufTy).Contents (Elt F) → (⟨S64x1024x2x64, .f32⟩ : BufTy).Contents (Elt F)),
    binary main_v56 main_v58 main_v59 (addf : (⟨S64x1024x2x64, .f32⟩ : BufTy).Contents (Elt F) → (⟨S64x1024x2x64, .f32⟩ : BufTy).Contents (Elt F) → (⟨S64x1024x2x64, .f32⟩ : BufTy).Contents (Elt F)),
    nullary main_cst_6 (constant S_ .f32 0x00000000#32),
    binary main_v59 main_cst_6 main_v60 ((fun x v => Host.reduceAdd x v reducesTo_S64x1024x2x64_S64x1024x64_d2 h_S_) : (⟨S64x1024x2x64, .f32⟩ : BufTy).Contents (Elt F) → (⟨S_, .f32⟩ : BufTy).Contents (Elt F) → (⟨S64x1024x64, .f32⟩ : BufTy).Contents (Elt F)),
    unary main_v45 main_v61 (broadcastInDim S64x1024x2x1 ![0, 1, 2] bcast_S64x1024x2_S64x1024x2x1_0_1_2 : (⟨S64x1024x2, .f32⟩ : BufTy).Contents (Elt F) → (⟨S64x1024x2x1, .f32⟩ : BufTy).Contents (Elt F)),
    reshape main_arg2 main_v62 rfl shapeCasts_S64x1_S64,
    unary main_v62 main_v63 (broadcastInDim S1x1x1x64 ![3] bcast_S64_S1x1x1x64_3 : (⟨S64, .f32⟩ : BufTy).Contents (Elt F) → (⟨S1x1x1x64, .f32⟩ : BufTy).Contents (Elt F)),
    unary main_v61 main_v64 (broadcastInDim S64x1024x2x64 ![0, 1, 2, 3] bcast_S64x1024x2x1_S64x1024x2x64_0_1_2_3 : (⟨S64x1024x2x1, .f32⟩ : BufTy).Contents (Elt F) → (⟨S64x1024x2x64, .f32⟩ : BufTy).Contents (Elt F)),
    unary main_v63 main_v65 (broadcastInDim S64x1024x2x64 ![0, 1, 2, 3] bcast_S1x1x1x64_S64x1024x2x64_0_1_2_3 : (⟨S1x1x1x64, .f32⟩ : BufTy).Contents (Elt F) → (⟨S64x1024x2x64, .f32⟩ : BufTy).Contents (Elt F)),
    binary main_v64 main_v65 main_v66 (mulf : (⟨S64x1024x2x64, .f32⟩ : BufTy).Contents (Elt F) → (⟨S64x1024x2x64, .f32⟩ : BufTy).Contents (Elt F) → (⟨S64x1024x2x64, .f32⟩ : BufTy).Contents (Elt F)),
    unary main_arg3 main_v67 (broadcastInDim S1x1x1x64 ![3] bcast_S64_S1x1x1x64_3 : (⟨S64, .f32⟩ : BufTy).Contents (Elt F) → (⟨S1x1x1x64, .f32⟩ : BufTy).Contents (Elt F)),
    unary main_v67 main_v68 (broadcastInDim S64x1024x2x64 ![0, 1, 2, 3] bcast_S1x1x1x64_S64x1024x2x64_0_1_2_3 : (⟨S1x1x1x64, .f32⟩ : BufTy).Contents (Elt F) → (⟨S64x1024x2x64, .f32⟩ : BufTy).Contents (Elt F)),
    binary main_v66 main_v68 main_v69 (addf : (⟨S64x1024x2x64, .f32⟩ : BufTy).Contents (Elt F) → (⟨S64x1024x2x64, .f32⟩ : BufTy).Contents (Elt F) → (⟨S64x1024x2x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S64x1024x2x64, .f32⟩) main_call3_v0) (broadcastInDim S64x1024x2x64 ![] bcast_S_S64x1024x2x64),
    TRef.binary (TRef.of (T := ⟨S64x1024x2x64, .f32⟩) main_v69) (TRef.of (T := ⟨S64x1024x2x64, .f32⟩) main_call3_v0) (TRef.of (T := ⟨S64x1024x2x64, .f32⟩) main_v70) maximumf,
    binary main_v70 main_arg4 main_v71 ((fun l r => Host.dotGeneral dot_S64x1024x2x64_S64x64_S64x1024x2x64_3_1_012_0_n_n none l r) : (⟨S64x1024x2x64, .f32⟩ : BufTy).Contents (Elt F) → (⟨S64x64, .f32⟩ : BufTy).Contents (Elt F) → (⟨S64x1024x2x64, .f32⟩ : BufTy).Contents (Elt F)),
    unary main_arg5 main_v72 (broadcastInDim S1x1x1x64 ![3] bcast_S64_S1x1x1x64_3 : (⟨S64, .f32⟩ : BufTy).Contents (Elt F) → (⟨S1x1x1x64, .f32⟩ : BufTy).Contents (Elt F)),
    unary main_v72 main_v73 (broadcastInDim S64x1024x2x64 ![0, 1, 2, 3] bcast_S1x1x1x64_S64x1024x2x64_0_1_2_3 : (⟨S1x1x1x64, .f32⟩ : BufTy).Contents (Elt F) → (⟨S64x1024x2x64, .f32⟩ : BufTy).Contents (Elt F)),
    binary main_v71 main_v73 main_v74 (addf : (⟨S64x1024x2x64, .f32⟩ : BufTy).Contents (Elt F) → (⟨S64x1024x2x64, .f32⟩ : BufTy).Contents (Elt F) → (⟨S64x1024x2x64, .f32⟩ : BufTy).Contents (Elt F)),
    nullary main_cst_7 (constant S_ .f32 0x00000000#32),
    binary main_v74 main_cst_7 main_v75 ((fun x v => Host.reduceAdd x v reducesTo_S64x1024x2x64_S64x1024x64_d2 h_S_) : (⟨S64x1024x2x64, .f32⟩ : BufTy).Contents (Elt F) → (⟨S_, .f32⟩ : BufTy).Contents (Elt F) → (⟨S64x1024x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., unary_bufs_sub .., binary_bufs_sub .., unary_bufs_sub .., nullary_bufs_sub .., binary_bufs_sub .., unary_bufs_sub .., unary_bufs_sub .., unary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., unary_bufs_sub .., unary_bufs_sub .., binary_bufs_sub .., unary_bufs_sub .., nullary_bufs_sub .., binary_bufs_sub .., unary_bufs_sub .., unary_bufs_sub .., unary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., unary_bufs_sub .., nullary_bufs_sub .., unary_bufs_sub .., unary_bufs_sub .., unary_bufs_sub .., ternary_bufs_sub .., nullary_bufs_sub .., unary_bufs_sub .., binary_bufs_sub .., unary_bufs_sub .., nullary_bufs_sub .., unary_bufs_sub .., unary_bufs_sub .., unary_bufs_sub .., ternary_bufs_sub .., unary_bufs_sub .., reshape_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., reshape_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub ..⟩

/-- The run: each TensorCore buffer ends at the fold of the operations' results over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

set_option maxRecDepth 65536 in
/-- No operation writes an argument array. -/
theorem kept (m : (ℓ : Loc nD τ sig) → Buf (Elt F) ℓ) (d : Dev nD) (b : Ref sig .tc)
    (hb : b = main_arg0 ∨ b = main_arg1 ∨ b = main_arg2 ∨ b = main_arg3 ∨ b = main_arg4 ∨ b = main_arg5) :
    after (ops (F := F)) (launchContents m d) (Proc.devRef .tc b) = m ((d.tc : Thread nD τ).loc b) := by
  rcases hb with rfl | rfl | rfl | rfl | rfl | rfl <;>
  · refine after_of_forall_not_mem (b := Proc.devRef .tc _) _ _ (List.forall_iff_forall_mem.mp ?_)
    simp only [ops, List.Forall, nullary_writes, unary_writes, binary_writes, ternary_writes, quaternary_writes, reshape_writes, binaryIndexed_writes, Finset.mem_singleton]
    repeat' apply And.intro
    all_goals exact devRef_ne_of_ne (by decide)

/-- The reference's frame: it runs to the end and its six argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_arg0).trans (kept m c _ (.inl rfl)), (h c main_arg1).trans (kept m c _ (.inr (.inl rfl))),
     (h c main_arg2).trans (kept m c _ (.inr (.inr (.inl rfl)))), (h c main_arg3).trans (kept m c _ (.inr (.inr (.inr (.inl rfl))))),
     (h c main_arg4).trans (kept m c _ (.inr (.inr (.inr (.inr (.inl rfl)))))), (h c main_arg5).trans (kept m c _ (.inr (.inr (.inr (.inr (.inr rfl))))))⟩) (run m ρ)

end Cert.ReferenceIdeal.RefRun

end
-- ==== Proof.IdealTilePieces.lean ====
/-
  What a tile leaves, as the body's arithmetic of the point's blocks. At any tile each of the three row-count accumulators
  is one tile step over what it held (over the clearing payload at a first tile), and the column-count accumulator takes
  the tile's column counts on the tile's 128 columns and keeps the rest (the clearing payload, at a first tile). At a last
  tile each output block is the encoder's payload of the finished accumulators.
-/
import proofs.«133724_j1889785610787_1_alg».proof.Proof.IdealTileValues
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl
theorem hz3 : (![0, 0, 0] : Fin 3 → ℕ) = fun _ => 0 := by funext a; fin_cases a <;> rfl

/-- The rectangle of the column-count accumulator the tile's column counts are written through. -/
abbrev colRect (t : Fin cfg0.N) : Rect S8x1024 := Rect.unit (s := S8x1024) (k0_off1 (grid0.coords t)) S8x128.size (k0_off1_inb (grid0.coords t))

/-! ## An inner tile -/

theorem inner_s0 (c : Dev nD) (t : Fin cfg0.N) (h0 : ¬t.val % 8 = 0) (h1 : ¬t.val % 8 = 7) (p : Outs F) :
    (outsInner m c t h0 h1 p).s0 = k0_pay22 (iblk m c 0 t) (iblk m c 2 t) p.s0 := by
  unfold outsInner; dsimp only
  rw [View.read_writes_eq_canon _ _ _ (View.cover_of_tiledL _ S8x1024.size (by sl_kernel_rfl))]
  unfold innerAt runInner; dsimp only; sl_unfold_words
  rw [View.canon_unit_zero hz2]
  simp only [View.readAt_eq_ld, Memref.IsWhole.read_unread, View.ld_unit_zero (S := S8x1024) hz2, View.ld_unit_zero (S := S8x128) hz2, View.ld_unit_zero (S := S1x64) hz2, View.ld_unit_zero (S := S64x64) hz2, View.readCov_unit_zero (S := S8x1024) (off := ![0, 0]) _ hz2]
  exact congrArg (k0_pay22 _ _) ((Memref.isWhole_whole cc0_scratch0).read_unread p.s0)
theorem inner_s1 (c : Dev nD) (t : Fin cfg0.N) (h0 : ¬t.val % 8 = 0) (h1 : ¬t.val % 8 = 7) (p : Outs F) :
    (outsInner m c t h0 h1 p).s1 = k0_pay24 (iblk m c 0 t) (iblk m c 3 t) p.s1 := by
  unfold outsInner; dsimp only
  rw [View.read_writes_eq_canon _ _ _ (View.cover_of_tiledL _ S8x1024.size (by sl_kernel_rfl))]
  unfold innerAt runInner; dsimp only; sl_unfold_words
  rw [View.canon_unit_zero hz2]
  simp only [View.readAt_eq_ld, Memref.IsWhole.read_unread, View.ld_unit_zero (S := S8x1024) hz2, View.ld_unit_zero (S := S8x128) hz2, View.ld_unit_zero (S := S1x64) hz2, View.ld_unit_zero (S := S64x64) hz2, View.readCov_unit_zero (S := S8x1024) (off := ![0, 0]) _ hz2]
  exact congrArg (k0_pay24 _ _) ((Memref.isWhole_whole cc0_scratch1).read_unread p.s1)
theorem inner_s3 (c : Dev nD) (t : Fin cfg0.N) (h0 : ¬t.val % 8 = 0) (h1 : ¬t.val % 8 = 7) (p : Outs F) :
    (outsInner m c t h0 h1 p).s3 = k0_pay2 (iblk m c 1 t) (iblk m c 3 t) p.s3 := by
  unfold outsInner; dsimp only
  rw [View.read_writes_eq_canon _ _ _ (View.cover_of_tiledL _ S8x1024.size (by sl_kernel_rfl))]
  unfold innerAt runInner; dsimp only; sl_unfold_words
  rw [View.canon_unit_zero hz2]
  simp only [View.readAt_eq_ld, Memref.IsWhole.read_unread, View.ld_unit_zero (S := S8x1024) hz2, View.ld_unit_zero (S := S8x128) hz2, View.ld_unit_zero (S := S1x64) hz2, View.ld_unit_zero (S := S64x64) hz2, View.readCov_unit_zero (S := S8x1024) (off := ![0, 0]) _ hz2]
  exact congrArg (k0_pay2 _ _) ((Memref.isWhole_whole cc0_scratch3).read_unread p.s3)
theorem inner_s2_in (c : Dev nD) (t : Fin cfg0.N) (h0 : ¬t.val % 8 = 0) (h1 : ¬t.val % 8 = 7) (p : Outs F) (x : S8x128.Idx) :
    (outsInner m c t h0 h1 p).s2 ((colRect t).emb x) = k0_pay1 (k0_pay25 (iblk m c 0 t) (iblk m c 3 t)) x := by
  unfold outsInner; dsimp only
  unfold innerAt runInner; dsimp only
  refine (View.read_writes_cons_emb _ _ (colRect t) _ _ x).trans ?_
  sl_unfold_run_names
  simp only [View.readAt_eq_ld, Memref.IsWhole.read_unread, View.ld_unit_zero (S := S8x1024) hz2, View.ld_unit_zero (S := S8x128) hz2, View.ld_unit_zero (S := S1x64) hz2, View.ld_unit_zero (S := S64x64) hz2, View.readCov_unit_zero (S := S8x1024) (off := ![0, 0]) _ hz2]

theorem inner_s2_out (c : Dev nD) (t : Fin cfg0.N) (h0 : ¬t.val % 8 = 0) (h1 : ¬t.val % 8 = 7) (p : Outs F) (y : S8x1024.Idx)
    (hy : y ∉ (colRect t).set) : (outsInner m c t h0 h1 p).s2 y = p.s2 y := by
  unfold outsInner; dsimp only
  unfold innerAt runInner; dsimp only
  refine (View.read_writes_apply_of_forall_not_mem _ _ y _ ?_).trans ?_
  · intro q hq; rw [List.mem_singleton] at hq; subst hq; exact hy
  · exact congrFun ((Memref.isWhole_whole cc0_scratch2).read_unread _) y

/-! ## A last tile -/

theorem last_s0 (c : Dev nD) (t : Fin cfg0.N) (h0 : ¬t.val % 8 = 0) (h1 : t.val % 8 = 7) (p : Outs F) :
    (outsLast m c t h0 h1 p).s0 = k0_pay22 (iblk m c 0 t) (iblk m c 2 t) p.s0 := by
  unfold outsLast; dsimp only
  rw [View.read_writes_eq_canon _ _ _ (View.cover_of_tiledL _ S8x1024.size (by sl_kernel_rfl))]
  unfold lastAt runLast; dsimp only; sl_unfold_words
  rw [View.canon_unit_zero hz2]
  simp only [View.readAt_eq_ld, Memref.IsWhole.read_unread, View.ld_unit_zero (S := S8x1024) hz2, View.ld_unit_zero (S := S8x128) hz2, View.ld_unit_zero (S := S1x64) hz2, View.ld_unit_zero (S := S64x64) hz2, View.readCov_unit_zero (S := S8x1024) (off := ![0, 0]) _ hz2]
  exact congrArg (k0_pay22 _ _) ((Memref.isWhole_whole cc0_scratch0).read_unread p.s0)
theorem last_s1 (c : Dev nD) (t : Fin cfg0.N) (h0 : ¬t.val % 8 = 0) (h1 : t.val % 8 = 7) (p : Outs F) :
    (outsLast m c t h0 h1 p).s1 = k0_pay24 (iblk m c 0 t) (iblk m c 3 t) p.s1 := by
  unfold outsLast; dsimp only
  rw [View.read_writes_eq_canon _ _ _ (View.cover_of_tiledL _ S8x1024.size (by sl_kernel_rfl))]
  unfold lastAt runLast; dsimp only; sl_unfold_words
  rw [View.canon_unit_zero hz2]
  simp only [View.readAt_eq_ld, Memref.IsWhole.read_unread, View.ld_unit_zero (S := S8x1024) hz2, View.ld_unit_zero (S := S8x128) hz2, View.ld_unit_zero (S := S1x64) hz2, View.ld_unit_zero (S := S64x64) hz2, View.readCov_unit_zero (S := S8x1024) (off := ![0, 0]) _ hz2]
  exact congrArg (k0_pay24 _ _) ((Memref.isWhole_whole cc0_scratch1).read_unread p.s1)
theorem last_s3 (c : Dev nD) (t : Fin cfg0.N) (h0 : ¬t.val % 8 = 0) (h1 : t.val % 8 = 7) (p : Outs F) :
    (outsLast m c t h0 h1 p).s3 = k0_pay2 (iblk m c 1 t) (iblk m c 3 t) p.s3 := by
  unfold outsLast; dsimp only
  rw [View.read_writes_eq_canon _ _ _ (View.cover_of_tiledL _ S8x1024.size (by sl_kernel_rfl))]
  unfold lastAt runLast; dsimp only; sl_unfold_words
  rw [View.canon_unit_zero hz2]
  simp only [View.readAt_eq_ld, Memref.IsWhole.read_unread, View.ld_unit_zero (S := S8x1024) hz2, View.ld_unit_zero (S := S8x128) hz2, View.ld_unit_zero (S := S1x64) hz2, View.ld_unit_zero (S := S64x64) hz2, View.readCov_unit_zero (S := S8x1024) (off := ![0, 0]) _ hz2]
  exact congrArg (k0_pay2 _ _) ((Memref.isWhole_whole cc0_scratch3).read_unread p.s3)
theorem last_s2_in (c : Dev nD) (t : Fin cfg0.N) (h0 : ¬t.val % 8 = 0) (h1 : t.val % 8 = 7) (p : Outs F) (x : S8x128.Idx) :
    (outsLast m c t h0 h1 p).s2 ((colRect t).emb x) = k0_pay1 (k0_pay25 (iblk m c 0 t) (iblk m c 3 t)) x := by
  unfold outsLast; dsimp only
  unfold lastAt runLast; dsimp only
  refine (View.read_writes_cons_emb _ _ (colRect t) _ _ x).trans ?_
  sl_unfold_run_names
  simp only [View.readAt_eq_ld, Memref.IsWhole.read_unread, View.ld_unit_zero (S := S8x1024) hz2, View.ld_unit_zero (S := S8x128) hz2, View.ld_unit_zero (S := S1x64) hz2, View.ld_unit_zero (S := S64x64) hz2, View.readCov_unit_zero (S := S8x1024) (off := ![0, 0]) _ hz2]

theorem last_s2_out (c : Dev nD) (t : Fin cfg0.N) (h0 : ¬t.val % 8 = 0) (h1 : t.val % 8 = 7) (p : Outs F) (y : S8x1024.Idx)
    (hy : y ∉ (colRect t).set) : (outsLast m c t h0 h1 p).s2 y = p.s2 y := by
  unfold outsLast; dsimp only
  unfold lastAt runLast; dsimp only
  sl_unfold_run_names
  refine (View.read_writes_apply_of_forall_not_mem _ _ y _ ?_).trans ?_
  · intro q hq; rw [List.mem_singleton] at hq; subst hq; exact hy
  · exact congrFun ((Memref.isWhole_whole cc0_scratch2).read_unread _) y

/-- The first output block: the encoder of the finished source-side counts. -/
theorem last_o8 (c : Dev nD) (t : Fin cfg0.N) (h0 : ¬t.val % 8 = 0) (h1 : t.val % 8 = 7) (p : Outs F) :
    (outsLast m c t h0 h1 p).o8
      = k0_pay15 (k0_pay5 (iblk m c 5 t)) (k0_pay6 (iblk m c 7 t)) (k0_pay7 (iblk m c 6 t))
          (k0_pay12 (iblk m c 0 t) (iblk m c 4 t) (iblk m c 5 t) (outsLast m c t h0 h1 p).s0) (k0_pay13 (iblk m c 4 t))
          (k0_pay14 (iblk m c 0 t) (outsLast m c t h0 h1 p).s1) := by
  rw [last_s0, last_s1]
  unfold outsLast; dsimp only
  rw [View.read_writes_junk_eq_canon]
  unfold lastAt runLast; dsimp only; sl_unfold_words
  rw [View.canon_unit_zero hz3]
  simp only [View.readAt_eq_ld, Memref.IsWhole.read_unread, View.ld_unit_zero (S := S8x1024) hz2, View.ld_unit_zero (S := S8x128) hz2, View.ld_unit_zero (S := S1x64) hz2, View.ld_unit_zero (S := S64x64) hz2, View.readCov_unit_zero (S := S8x1024) (off := ![0, 0]) _ hz2]
  simp only [show View.read (Elt F) (View.whole cc0_scratch0) ((Memref.isWhole_whole cc0_scratch0).unread p.s0) = p.s0 from (Memref.isWhole_whole cc0_scratch0).read_unread p.s0,
    show View.read (Elt F) (View.whole cc0_scratch1) ((Memref.isWhole_whole cc0_scratch1).unread p.s1) = p.s1 from (Memref.isWhole_whole cc0_scratch1).read_unread p.s1]
  try rfl

/-- The second output block: the encoder of the finished destination-side counts. -/
theorem last_o9 (c : Dev nD) (t : Fin cfg0.N) (h0 : ¬t.val % 8 = 0) (h1 : t.val % 8 = 7) (p : Outs F) :
    (outsLast m c t h0 h1 p).o9
      = k0_pay3 (k0_pay16 (k0_pay4 (iblk m c 4 t)) (k0_pay5 (iblk m c 5 t)) (k0_pay7 (iblk m c 6 t))
            (k0_pay10 (iblk m c 1 t) (outsLast m c t h0 h1 p).s2) (k0_pay11 (iblk m c 1 t) (outsLast m c t h0 h1 p).s3))
          (k0_pay17 (k0_pay6 (iblk m c 7 t))) := by
  rw [last_s3]
  unfold outsLast; dsimp only
  rw [View.read_writes_junk_eq_canon]
  unfold lastAt runLast; dsimp only; sl_unfold_words
  rw [View.canon_unit_zero hz3]
  simp only [View.readAt_eq_ld, Memref.IsWhole.read_unread, View.ld_unit_zero (S := S8x1024) hz2, View.ld_unit_zero (S := S8x128) hz2, View.ld_unit_zero (S := S1x64) hz2, View.ld_unit_zero (S := S64x64) hz2, View.readCov_unit_zero (S := S8x1024) (off := ![0, 0]) _ hz2]
  simp only [show View.read (Elt F) (View.whole cc0_scratch3) ((Memref.isWhole_whole cc0_scratch3).unread p.s3) = p.s3 from (Memref.isWhole_whole cc0_scratch3).read_unread p.s3]
  try rfl

/-! ## A first tile -/

theorem first_s0 (c : Dev nD) (t : Fin cfg0.N) (h0 : t.val % 8 = 0) :
    (outsFirst m c t h0).s0 = k0_pay22 (iblk m c 0 t) (iblk m c 2 t) (k0_pay18 (F := F)) := by
  unfold outsFirst; dsimp only
  rw [View.read_writes_junk_eq_canon]
  unfold firstAt runFirst; dsimp only; sl_unfold_words
  rw [View.canon_cons_unit_zero hz2]
  simp only [View.readAt_eq_ld, Memref.IsWhole.read_unread, View.ld_unit_zero (S := S8x1024) hz2, View.ld_unit_zero (S := S8x128) hz2, View.ld_unit_zero (S := S1x64) hz2, View.ld_unit_zero (S := S64x64) hz2, View.readCov_unit_zero (S := S8x1024) (off := ![0, 0]) _ hz2]
theorem first_s1 (c : Dev nD) (t : Fin cfg0.N) (h0 : t.val % 8 = 0) :
    (outsFirst m c t h0).s1 = k0_pay24 (iblk m c 0 t) (iblk m c 3 t) (k0_pay19 (F := F)) := by
  unfold outsFirst; dsimp only
  rw [View.read_writes_junk_eq_canon]
  unfold firstAt runFirst; dsimp only; sl_unfold_words
  rw [View.canon_cons_unit_zero hz2]
  simp only [View.readAt_eq_ld, Memref.IsWhole.read_unread, View.ld_unit_zero (S := S8x1024) hz2, View.ld_unit_zero (S := S8x128) hz2, View.ld_unit_zero (S := S1x64) hz2, View.ld_unit_zero (S := S64x64) hz2, View.readCov_unit_zero (S := S8x1024) (off := ![0, 0]) _ hz2]
theorem first_s3 (c : Dev nD) (t : Fin cfg0.N) (h0 : t.val % 8 = 0) :
    (outsFirst m c t h0).s3 = k0_pay2 (iblk m c 1 t) (iblk m c 3 t) (k0_pay21 (F := F)) := by
  unfold outsFirst; dsimp only
  rw [View.read_writes_junk_eq_canon]
  unfold firstAt runFirst; dsimp only; sl_unfold_words
  rw [View.canon_cons_unit_zero hz2]
  simp only [View.readAt_eq_ld, Memref.IsWhole.read_unread, View.ld_unit_zero (S := S8x1024) hz2, View.ld_unit_zero (S := S8x128) hz2, View.ld_unit_zero (S := S1x64) hz2, View.ld_unit_zero (S := S64x64) hz2, View.readCov_unit_zero (S := S8x1024) (off := ![0, 0]) _ hz2]

theorem first_s2_in (c : Dev nD) (t : Fin cfg0.N) (h0 : t.val % 8 = 0) (x : S8x128.Idx) :
    (outsFirst m c t h0).s2 ((colRect t).emb x) = k0_pay1 (k0_pay25 (iblk m c 0 t) (iblk m c 3 t)) x := by
  unfold outsFirst; dsimp only
  unfold firstAt runFirst; dsimp only
  refine (View.read_writes_cons_emb _ _ (colRect t) _ _ x).trans ?_
  sl_unfold_run_names
  simp only [View.readAt_eq_ld, Memref.IsWhole.read_unread, View.ld_unit_zero (S := S8x1024) hz2, View.ld_unit_zero (S := S8x128) hz2, View.ld_unit_zero (S := S1x64) hz2, View.ld_unit_zero (S := S64x64) hz2, View.readCov_unit_zero (S := S8x1024) (off := ![0, 0]) _ hz2]

theorem first_s2_out (c : Dev nD) (t : Fin cfg0.N) (h0 : t.val % 8 = 0) (y : S8x1024.Idx)
    (hy : y ∉ (colRect t).set) : (outsFirst m c t h0).s2 y = k0_pay20 (F := F) y := by
  unfold outsFirst; dsimp only
  rw [View.read_writes_junk_eq_canon]
  unfold firstAt runFirst; dsimp only
  sl_unfold_run_names
  rw [View.canon_cons_of_not_mem (⟨colRect t, _⟩ : View.Piece (Elt F) S8x1024 .f32) _ hy, View.canon_unit_zero hz2]

end Cert.KernelIdeal.Tiles

end
-- ==== Proof.IdealBlocks.lean ====
/-
  Where each block sits in its array. Point t of the grid is batch block t / 8, key tile t % 8. The whole-row windows of the
  two id arrays hold rows 8·(t / 8) … 8·(t / 8) + 7; the key-tile windows hold, of those rows, columns
  128·(t % 8) … 128·(t % 8) + 127; the four parameter windows hold their whole array; the output windows' block at a
  batch block's last tile is rows 8·(t / 8) … of the result. The tile's column counts are written into columns
  128·(t % 8) … of their accumulator.
-/
import proofs.«133724_j1889785610787_1_alg».proof.Proof.IdealTileValues
import Idealize.ShloMosaic.Lib.Pipeline.FrameBody
import Idealize.ShloMosaic.Lib.Pipeline.Value
import Idealize.ShloMosaic.Lib.ValueIdx
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The index maps, decided over the grid -/

theorem idx0_0 : ∀ t : Fin cfg0.N, win0_0.index t (0 : Fin 2) = t.val / 8 := (by decide +kernel : ∀ t : Fin grid0.N, win0_0.index t (0 : Fin 2) = t.val / 8)
theorem idx0_1 : ∀ t : Fin cfg0.N, win0_0.index t (1 : Fin 2) = 0 := (by decide +kernel : ∀ t : Fin grid0.N, win0_0.index t (1 : Fin 2) = 0)
theorem idx1_0 : ∀ t : Fin cfg0.N, win0_1.index t (0 : Fin 2) = t.val / 8 := (by decide +kernel : ∀ t : Fin grid0.N, win0_1.index t (0 : Fin 2) = t.val / 8)
theorem idx1_1 : ∀ t : Fin cfg0.N, win0_1.index t (1 : Fin 2) = 0 := (by decide +kernel : ∀ t : Fin grid0.N, win0_1.index t (1 : Fin 2) = 0)
theorem idx2_0 : ∀ t : Fin cfg0.N, win0_2.index t (0 : Fin 2) = t.val / 8 := (by decide +kernel : ∀ t : Fin grid0.N, win0_2.index t (0 : Fin 2) = t.val / 8)
theorem idx2_1 : ∀ t : Fin cfg0.N, win0_2.index t (1 : Fin 2) = t.val % 8 := (by decide +kernel : ∀ t : Fin grid0.N, win0_2.index t (1 : Fin 2) = t.val % 8)
theorem idx3_0 : ∀ t : Fin cfg0.N, win0_3.index t (0 : Fin 2) = t.val / 8 := (by decide +kernel : ∀ t : Fin grid0.N, win0_3.index t (0 : Fin 2) = t.val / 8)
theorem idx3_1 : ∀ t : Fin cfg0.N, win0_3.index t (1 : Fin 2) = t.val % 8 := (by decide +kernel : ∀ t : Fin grid0.N, win0_3.index t (1 : Fin 2) = t.val % 8)
theorem idx4 : ∀ (t : Fin cfg0.N) (a : Fin 2), win0_4.index t a = 0 := (by decide +kernel : ∀ (t : Fin grid0.N) (a : Fin 2), win0_4.index t a = 0)
theorem idx5 : ∀ (t : Fin cfg0.N) (a : Fin 2), win0_5.index t a = 0 := (by decide +kernel : ∀ (t : Fin grid0.N) (a : Fin 2), win0_5.index t a = 0)
theorem idx6 : ∀ (t : Fin cfg0.N) (a : Fin 2), win0_6.index t a = 0 := (by decide +kernel : ∀ (t : Fin grid0.N) (a : Fin 2), win0_6.index t a = 0)
theorem idx7 : ∀ (t : Fin cfg0.N) (a : Fin 2), win0_7.index t a = 0 := (by decide +kernel : ∀ (t : Fin grid0.N) (a : Fin 2), win0_7.index t a = 0)
/-- The columns the tile's column counts are written through start at 128·(t % 8). -/
theorem colOff_0 : ∀ t : Fin cfg0.N, k0_off1 (grid0.coords t) (0 : Fin 2) = 0 := (by decide +kernel : ∀ t : Fin grid0.N, k0_off1 (grid0.coords t) (0 : Fin 2) = 0)
theorem colOff_1 : ∀ t : Fin cfg0.N, k0_off1 (grid0.coords t) (1 : Fin 2) = 128 * (t.val % 8) := (by decide +kernel : ∀ t : Fin grid0.N, k0_off1 (grid0.coords t) (1 : Fin 2) = 128 * (t.val % 8))

theorem row_lt (t : Fin cfg0.N) (r : Fin 8) : 8 * (t.val / 8) + r.val < 64 := by
  have := lt_of_lt_of_eq t.isLt (show cfg0.N = 64 from N_0); have := r.isLt; omega
theorem col_lt (t : Fin cfg0.N) (j : Fin 128) : 128 * (t.val % 8) + j.val < 1024 := by
  have := j.isLt; omega

/-- Row r of the point's batch block, as a row of the arrays. -/
abbrev gRow (t : Fin cfg0.N) (r : Fin 8) : Fin 64 := ⟨8 * (t.val / 8) + r.val, row_lt t r⟩
/-- Key j of the point's tile, as a column of the id arrays. -/
abbrev gCol (t : Fin cfg0.N) (j : Fin 128) : Fin 1024 := ⟨128 * (t.val % 8) + j.val, col_lt t j⟩

/-! ## The blocks read at coordinates -/

theorem blk0_apply (c : Dev nD) (t : Fin cfg0.N) (r : Fin 8) (l : Fin 1024) :
    iblk m c 0 t (ix2 r l) = V m c main_arg0 (ix2 (gRow t r) l) := by
  unfold iblk
  show V m c main_arg0 (((cfg0.win 0).blk t).view.emb (ix2 r l)) = _
  refine congrArg _ (funext fun a => Fin.ext ?_)
  match a with
  | ⟨0, _⟩ => show win0_0.index t (0 : Fin 2) * 8 + 1 * r.val = 8 * (t.val / 8) + r.val; rw [idx0_0 t]; omega
  | ⟨1, _⟩ => show win0_0.index t (1 : Fin 2) * 1024 + 1 * l.val = l.val; rw [idx0_1 t]; omega

theorem blk1_apply (c : Dev nD) (t : Fin cfg0.N) (r : Fin 8) (l : Fin 1024) :
    iblk m c 1 t (ix2 r l) = V m c main_arg1 (ix2 (gRow t r) l) := by
  unfold iblk
  show V m c main_arg1 (((cfg0.win 1).blk t).view.emb (ix2 r l)) = _
  refine congrArg _ (funext fun a => Fin.ext ?_)
  match a with
  | ⟨0, _⟩ => show win0_1.index t (0 : Fin 2) * 8 + 1 * r.val = 8 * (t.val / 8) + r.val; rw [idx1_0 t]; omega
  | ⟨1, _⟩ => show win0_1.index t (1 : Fin 2) * 1024 + 1 * l.val = l.val; rw [idx1_1 t]; omega

theorem blk2_apply (c : Dev nD) (t : Fin cfg0.N) (r : Fin 8) (j : Fin 128) :
    iblk m c 2 t (ix2 r j) = V m c main_arg0 (ix2 (gRow t r) (gCol t j)) := by
  unfold iblk
  show V m c main_arg0 (((cfg0.win 2).blk t).view.emb (ix2 r j)) = _
  refine congrArg _ (funext fun a => Fin.ext ?_)
  match a with
  | ⟨0, _⟩ => show win0_2.index t (0 : Fin 2) * 8 + 1 * r.val = 8 * (t.val / 8) + r.val; rw [idx2_0 t]; omega
  | ⟨1, _⟩ => show win0_2.index t (1 : Fin 2) * 128 + 1 * j.val = 128 * (t.val % 8) + j.val; rw [idx2_1 t]; omega

theorem blk3_apply (c : Dev nD) (t : Fin cfg0.N) (r : Fin 8) (j : Fin 128) :
    iblk m c 3 t (ix2 r j) = V m c main_arg1 (ix2 (gRow t r) (gCol t j)) := by
  unfold iblk
  show V m c main_arg1 (((cfg0.win 3).blk t).view.emb (ix2 r j)) = _
  refine congrArg _ (funext fun a => Fin.ext ?_)
  match a with
  | ⟨0, _⟩ => show win0_3.index t (0 : Fin 2) * 8 + 1 * r.val = 8 * (t.val / 8) + r.val; rw [idx3_0 t]; omega
  | ⟨1, _⟩ => show win0_3.index t (1 : Fin 2) * 128 + 1 * j.val = 128 * (t.val % 8) + j.val; rw [idx3_1 t]; omega

theorem blk4_apply (c : Dev nD) (t : Fin cfg0.N) (d : Fin 64) : iblk m c 4 t (ix2 0 d) = V m c main_v1 (ix2 0 d) := by
  unfold iblk
  show V m c main_v1 (((cfg0.win 4).blk t).view.emb (ix2 0 d)) = _
  refine congrArg _ (funext fun a => Fin.ext ?_)
  match a with
  | ⟨0, _⟩ => show win0_4.index t (0 : Fin 2) * 1 + 1 * 0 = 0; rw [idx4 t]
  | ⟨1, _⟩ => show win0_4.index t (1 : Fin 2) * 64 + 1 * d.val = d.val; rw [idx4 t]; omega

theorem blk5_apply (c : Dev nD) (t : Fin cfg0.N) (d : Fin 64) : iblk m c 5 t (ix2 0 d) = V m c main_v2 (ix2 0 d) := by
  unfold iblk
  show V m c main_v2 (((cfg0.win 5).blk t).view.emb (ix2 0 d)) = _
  refine congrArg _ (funext fun a => Fin.ext ?_)
  match a with
  | ⟨0, _⟩ => show win0_5.index t (0 : Fin 2) * 1 + 1 * 0 = 0; rw [idx5 t]
  | ⟨1, _⟩ => show win0_5.index t (1 : Fin 2) * 64 + 1 * d.val = d.val; rw [idx5 t]; omega

theorem blk6_apply (c : Dev nD) (t : Fin cfg0.N) (d e : Fin 64) : iblk m c 6 t (ix2 d e) = V m c main_v3 (ix2 d e) := by
  unfold iblk
  show V m c main_v3 (((cfg0.win 6).blk t).view.emb (ix2 d e)) = _
  refine congrArg _ (funext fun a => Fin.ext ?_)
  match a with
  | ⟨0, _⟩ => show win0_6.index t (0 : Fin 2) * 64 + 1 * d.val = d.val; rw [idx6 t]; omega
  | ⟨1, _⟩ => show win0_6.index t (1 : Fin 2) * 64 + 1 * e.val = e.val; rw [idx6 t]; omega

theorem blk7_apply (c : Dev nD) (t : Fin cfg0.N) (d : Fin 64) : iblk m c 7 t (ix2 0 d) = V m c main_v4 (ix2 0 d) := by
  unfold iblk
  show V m c main_v4 (((cfg0.win 7).blk t).view.emb (ix2 0 d)) = _
  refine congrArg _ (funext fun a => Fin.ext ?_)
  match a with
  | ⟨0, _⟩ => show win0_7.index t (0 : Fin 2) * 1 + 1 * 0 = 0; rw [idx7 t]
  | ⟨1, _⟩ => show win0_7.index t (1 : Fin 2) * 64 + 1 * d.val = d.val; rw [idx7 t]; omega

end Cert.KernelIdeal.Tiles

end
-- ==== Proof.CountSpec.lean ====
/-
  The mathematics both programs compute, free of either program.

  For ids x, y let [x = y] be 1 where they are equal and 0 elsewhere. Both programs build it the same way — the comparison's
  bit, widened to a word, converted to a float — and that conversion is exact. A count is a finite sum of such indicators.
  The encoder of a pair of counts (c₀, c₁) at output feature e is
      Σ_d (max (c₀·w₁ d + b₁ d) 0 + max (c₁·w₁ d + b₁ d) 0) · W e d + 2·b₂ e
  as the kernel spells it (the two clamped branches added BEFORE the one contraction, the bias doubled), and
      0 + (((0 + Σ_d max (c₀·w₁ d + b₁ d) 0 · W e d) + b₂ e) + ((0 + Σ_d max (c₁·w₁ d + b₁ d) 0 · W e d) + b₂ e))
  as the reference spells it (one contraction and one bias per channel, the channels summed last). On finite data these are
  one real number: the contraction distributes over the sum of the branches. That needs finiteness — on the extended reals
  a product does not distribute over a sum at the infinities — which is what the precondition gives.
-/
import Idealize.ShloMosaic.PureOps.Ideal
import Idealize.ShloMosaic.PureOps.Ideal.Laws
import Idealize.ShloMosaic.Lib.ValueIdx
import Idealize.ShloMosaic.Lib.IndicatorCount

noncomputable section

namespace Cert.Cooccur

open Idealize.ShloMosaic

/-- 1 where two ids are equal, 0 elsewhere. -/
def ind (x y : BitVec 32) : EReal := if x = y then 1 else 0

theorem ind_comm (x y : BitVec 32) : ind x y = ind y x := by
  unfold ind; by_cases h : x = y
  · rw [if_pos h, if_pos h.symm]
  · rw [if_neg h, if_neg (fun e => h e.symm)]

/-- The indicator as a natural number's cast. -/
theorem ind_eq_cast (x y : BitVec 32) : ind x y = (((if x = y then 1 else 0 : ℕ) : ℝ) : EReal) := by
  unfold ind; by_cases h : x = y
  · rw [if_pos h, if_pos h]; norm_num
  · rw [if_neg h, if_neg h]; norm_num

/-- How both programs spell the indicator: the comparison's bit, widened to 32 bits, converted to a float. -/
theorem conv_cmp (x y : BitVec 32) :
    (FloatOps.sitofp (F := Ideal) .f32 ((IntOp.cmpi .eq x y).setWidth 32) : EReal) = ind x y := by
  show ((((IntOp.cmpi .eq x y).setWidth 32).toInt : ℝ) : EReal) = ind x y
  unfold ind IntOp.cmpi
  by_cases h : x = y
  · have e : (x == y) = true := by rw [beq_iff_eq]; exact h
    rw [if_pos h]; dsimp only; rw [e]
    have : ((BitVec.ofBool true).setWidth 32 : BitVec 32).toInt = 1 := by decide
    rw [this]; norm_num
  · have e : (x == y) = false := by rw [beq_eq_false_iff_ne]; exact h
    rw [if_neg h]; dsimp only; rw [e]
    have : ((BitVec.ofBool false).setWidth 32 : BitVec 32).toInt = 0 := by decide
    rw [this]; norm_num

/-- A sum of indicators over a finite type is the number of hits. -/
theorem sum_ind_eq_card {ι : Type} [Fintype ι] [DecidableEq ι] (x : BitVec 32) (y : ι → BitVec 32) :
    (∑ j : ι, ind x (y j)) = (((Finset.univ.filter fun j => x = y j).card : ℝ) : EReal) := by
  classical
  have h : ∀ S : Finset ι, (∑ j ∈ S, ind x (y j)) = (((S.filter fun j => x = y j).card : ℝ) : EReal) := by
    intro S
    induction S using Finset.induction_on with
    | empty => simp
    | insert a S ha ih =>
      rw [Finset.sum_insert ha, ih, Finset.filter_insert]
      by_cases hx : x = y a
      · rw [if_pos hx, Finset.card_insert_of_notMem (fun hm => ha (Finset.mem_filter.1 hm).1)]
        unfold ind; rw [if_pos hx]
        rw [Nat.cast_add, Nat.cast_one, EReal.coe_add, EReal.coe_one, add_comm]
      · rw [if_neg hx]; unfold ind; rw [if_neg hx, zero_add]
  exact h Finset.univ

/-! ## The encoder -/

/-- A count masked at a padding position: zero where the id is 0. -/
def mask (x : BitVec 32) (y : EReal) : EReal := Scalar.select (IntOp.cmpi .eq x 0#32) (Ideal.ofBits .f32 0x00000000#32) y

/-- The first layer at one feature: max (c · w + b) 0. -/
def hid (c w b : EReal) : EReal := max (c * w + b) (Ideal.ofBits .f32 0x00000000#32)

/-- The encoder of a pair of counts at output feature e, as the kernel spells it: the branches added, one contraction with
    the weights `Wt d e`, the bias doubled. -/
def encK (c0 c1 : EReal) (w1 b1 b2 : Fin 64 → EReal) (Wt : Fin 64 → Fin 64 → EReal) (e : Fin 64) : EReal :=
  (∑ d : Fin 64, (hid c0 (w1 d) (b1 d) + hid c1 (w1 d) (b1 d)) * Wt d e) + Ideal.ofBits .f32 0x40000000#32 * b2 e

/-- The same as the reference spells it: per channel one contraction and one bias, the two channels summed onto zero. -/
def encR (c0 c1 : EReal) (w1 b1 b2 : Fin 64 → EReal) (Wt : Fin 64 → Fin 64 → EReal) (e : Fin 64) : EReal :=
  Ideal.ofBits .f32 0x00000000#32
    + (((∑ d : Fin 64, hid c0 (w1 d) (b1 d) * Wt d e) + b2 e) + ((∑ d : Fin 64, hid c1 (w1 d) (b1 d) * Wt d e) + b2 e))

theorem mask_real (x : BitVec 32) (y : ℝ) : ∃ z : ℝ, mask x (y : EReal) = (z : EReal) := by
  unfold mask Scalar.select
  split
  · exact ⟨0, by rw [Ideal.ofBits_zero_f32]; rfl⟩
  · exact ⟨y, rfl⟩

theorem hid_real (c w b : ℝ) : hid (c : EReal) w b = ((max (c * w + b) 0 : ℝ) : EReal) := by
  unfold hid
  rw [Ideal.ofBits_zero_f32, ← EReal.coe_mul, ← EReal.coe_add, ← EReal.coe_zero]
  exact (EReal.coe_strictMono.monotone.map_max).symm

/-- The coercion of the reals commutes with finite sums. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem two_eq : Ideal.ofBits .f32 0x40000000#32 = ((2 : ℝ) : EReal) := by
  simp [Ideal.ofBits, Ideal.ieee]
  rw [← EReal.coe_mul]; exact congrArg _ (by norm_num)

/-- On finite data the two spellings of the encoder are one number: the contraction distributes over the sum of the two
    branches, and twice the bias is the bias added twice. -/
theorem encK_eq_encR (c0 c1 : ℝ) (w1 b1 b2 : Fin 64 → ℝ) (Wt : Fin 64 → Fin 64 → ℝ) (e : Fin 64) :
    encK (c0 : EReal) (c1 : EReal) (fun d => (w1 d : EReal)) (fun d => (b1 d : EReal)) (fun d => (b2 d : EReal)) (fun d e => (Wt d e : EReal)) e
      = encR (c0 : EReal) (c1 : EReal) (fun d => (w1 d : EReal)) (fun d => (b1 d : EReal)) (fun d => (b2 d : EReal)) (fun d e => (Wt d e : EReal)) e := by
  unfold encK encR
  simp only [hid_real, two_eq, Ideal.ofBits_zero_f32]
  simp only [← EReal.coe_add, ← EReal.coe_mul, ← coe_sum, ← EReal.coe_zero]
  refine congrArg _ ?_
  simp only [add_mul, Finset.sum_add_distrib]
  ring

end Cert.Cooccur

end
-- ==== Proof.LibLayout3.lean ====
/-
  Layout operations of rank-2 and rank-3 arrays read at an index by coordinates, for any extents:
  a trailing or middle unit axis added to a matrix; a unit axis broadcast; a vector laid along the last axis of a rank-3 array;
  the two leading axes of a rank-3 array merged into one (row-major) and split again.
-/
import Idealize.ShloMosaic.Lib.Pipeline.Value
import Idealize.ShloMosaic.Lib.ValueIdx
import Idealize.ShloMosaic.Lib.ValueLayout

namespace Idealize.ShloMosaic.Layout3

open Idealize.ShloMosaic Idealize.ShloMosaic.ValueIdx

variable {α : Type}

/-- An `[a, b]` array cast to `[a, b, 1]` reads at `(i, j, u)` the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads at `(i, u, k)` the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A `[c]` vector cast to `[1, 1, c]` reads at `(u, v, k)` the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; simp)

/-- An `[a, b, 1]` array broadcast to `[a, b, c]` reads at `(i, j, k)` the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ (by
    intro d
    match d with
    | ⟨0, _⟩ =>
      show i.val = if a = 1 then 0 else i.val
      split
      · next e => have := i.isLt; omega
      · rfl
    | ⟨1, _⟩ =>
      show j.val = if b = 1 then 0 else j.val
      split
      · next e => have := j.isLt; omega
      · rfl
    | ⟨2, _⟩ => show (0 : ℕ) = if (1 : ℕ) = 1 then 0 else k.val; rw [if_pos rfl])

/-- An `[a, 1, c]` array broadcast to `[a, b, c]` reads at `(i, j, k)` the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) :=
  broadcastTo_apply x h _ _ (by
    intro d
    match d with
    | ⟨0, _⟩ =>
      show i.val = if a = 1 then 0 else i.val
      split
      · next e => have := i.isLt; omega
      · rfl
    | ⟨1, _⟩ => show (0 : ℕ) = if (1 : ℕ) = 1 then 0 else j.val; rw [if_pos rfl]
    | ⟨2, _⟩ =>
      show k.val = if c = 1 then 0 else k.val
      split
      · next e => have := k.isLt; omega
      · rfl)

/-- A `[1, 1, c]` array broadcast to `[a, b, c]` reads at `(i, j, k)` the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) :=
  broadcastTo_apply x h _ _ (by
    intro d
    match d with
    | ⟨0, _⟩ => show (0 : ℕ) = if (1 : ℕ) = 1 then 0 else i.val; rw [if_pos rfl]
    | ⟨1, _⟩ => show (0 : ℕ) = if (1 : ℕ) = 1 then 0 else j.val; rw [if_pos rfl]
    | ⟨2, _⟩ =>
      show k.val = if c = 1 then 0 else k.val
      split
      · next e => have := k.isLt; omega
      · rfl)

/-- An `[a, b, c]` array with its two leading axes merged, `[n, c]` with `n = a·b`, reads at row `i·b + j` the operand at
    `(i, j, ·)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- And split again: an `[n, c]` array cast to `[a, b, c]` reads at `(i, j, k)` the operand at row `i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Idealize.ShloMosaic.Layout3
-- ==== Proof.IdealCountPieces.lean ====
/-
  The kernel's count arithmetic read at an index, at the ideal instance. One tile step adds to a running row count, at
  (row r, position l), the number of the tile's 128 keys equal to the query id at (r, l): the [8, 1024, 128] equality table
  summed along its last axis. The same table summed along its MIDDLE axis gives, at (r, key j), the number of the 1024 query
  ids equal to the tile's key j. The clearing payloads are zero.
-/
import proofs.«133724_j1889785610787_1_alg».proof.Proof.Gen.KernelIdeal.Skeleton
import proofs.«133724_j1889785610787_1_alg».proof.Proof.CountSpec
import proofs.«133724_j1889785610787_1_alg».proof.Proof.LibLayout3
import Idealize.ShloMosaic.PureOps.Ideal.Laws

set_option maxRecDepth 16384

noncomputable section

namespace Cert.KernelIdeal.Counts

open Cert.KernelIdeal Cert.KernelIdeal.Gen Cert.Cooccur
open Idealize.ShloMosaic Idealize.ShloMosaic.ValueIdx Idealize.ShloMosaic.Layout3

/-- The [8, 1024, 128] equality table of eight rows of 1024 query ids against eight rows of 128 key ids, converted to
    floats, at (r, l, j): 1 where query (r, l) equals key (r, j). -/
def eqTable (a : Vec Ideal S8x1024 .i32) (b : Vec Ideal S8x128 .i32) : FVec Ideal S8x1024x128 .f32 :=
  sitofp .f32 (extui 32 (cmpi .eq
    (broadcastTo S8x1024x128 (shapeCast S8x1024x1 a shapeCasts_S8x1024_S8x1024x1) broadcasts_S8x1024x1_S8x1024x128)
    (broadcastTo S8x1024x128 (shapeCast S8x1x128 b shapeCasts_S8x128_S8x1x128) broadcasts_S8x1x128_S8x1024x128)) natLt_1_32)

theorem eqTable_apply (a : Vec Ideal S8x1024 .i32) (b : Vec Ideal S8x128 .i32) (r : Fin 8) (l : Fin 1024) (j : Fin 128) :
    eqTable a b (ix3 r l j) = ind (a (ix2 r l)) (b (ix2 r j)) := by
  unfold eqTable
  rw [sitofp_apply, extui_apply]
  refine Eq.trans ?_ (conv_cmp (a (ix2 r l)) (b (ix2 r j)))
  show FloatOps.sitofp (F := Ideal) .f32 ((IntOp.cmpi .eq _ _).setWidth 32) = _
  rw [broadcastTo_ab1_abc_apply _ _ r l j, shapeCast_ab_ab1_apply _ _ r l 0,
    broadcastTo_a1c_abc_apply _ _ r l j, shapeCast_ac_a1c_apply _ _ r 0 j]

/-- One tile step of a row count, at (r, l): what was there plus the tile's hits. -/
theorem rowStep_apply (a : Vec Ideal S8x1024 .i32) (b : Vec Ideal S8x128 .i32) (acc : Vec Ideal S8x1024 .f32) (r : Fin 8) (l : Fin 1024) :
    k0_pay22 (F := Ideal) a b acc (ix2 r l) = acc (ix2 r l) + ∑ j : Fin 128, ind (a (ix2 r l)) (b (ix2 r j)) := by
  unfold k0_pay22
  show shapeCast S8x1024 (addf acc (multiReduction .add [2] S8x1024 (eqTable a b) 0x00000000#32 reduces_S8x1024x128_S8x1024 (.inl rfl) rfl)) shapeCasts_S8x1024_S8x1024 (ix2 r l) = _
  rw [shapeCast_self, addf_apply]
  refine congrArg (acc (ix2 r l) + ·) ?_
  refine (Ideal.multiReduction_add_single (eqTable a b) 0x00000000#32 reduces_S8x1024x128_S8x1024 (.inl rfl) rfl (ix2 r l)).trans ?_
  refine Finset.sum_congr rfl fun j _ => ?_
  have e : reduces_S8x1024x128_S8x1024.lift (ix2 r l) j = ix3 r l j := by
    funext d; apply Fin.ext
    match d with
    | ⟨0, _⟩ => rfl
    | ⟨1, _⟩ => rfl
    | ⟨2, _⟩ => rfl
  rw [e]; exact eqTable_apply a b r l j

theorem rowStep24_apply (a : Vec Ideal S8x1024 .i32) (b : Vec Ideal S8x128 .i32) (acc : Vec Ideal S8x1024 .f32) (r : Fin 8) (l : Fin 1024) :
    k0_pay24 (F := Ideal) a b acc (ix2 r l) = acc (ix2 r l) + ∑ j : Fin 128, ind (a (ix2 r l)) (b (ix2 r j)) :=
  (show k0_pay24 (F := Ideal) a b acc (ix2 r l) = k0_pay22 (F := Ideal) a b acc (ix2 r l) from rfl).trans (rowStep_apply a b acc r l)

theorem rowStep2_apply (a : Vec Ideal S8x1024 .i32) (b : Vec Ideal S8x128 .i32) (acc : Vec Ideal S8x1024 .f32) (r : Fin 8) (l : Fin 1024) :
    k0_pay2 (F := Ideal) a b acc (ix2 r l) = acc (ix2 r l) + ∑ j : Fin 128, ind (a (ix2 r l)) (b (ix2 r j)) :=
  (show k0_pay2 (F := Ideal) a b acc (ix2 r l) = k0_pay22 (F := Ideal) a b acc (ix2 r l) from rfl).trans (rowStep_apply a b acc r l)

/-- The tile's column counts, at (r, key j): how many of the 1024 query ids of row r equal the tile's key j. -/
theorem colCount_apply (a : Vec Ideal S8x1024 .i32) (b : Vec Ideal S8x128 .i32) (r : Fin 8) (j : Fin 128) :
    k0_pay1 (F := Ideal) (k0_pay25 (F := Ideal) a b) (ix2 r j) = ∑ l : Fin 1024, ind (a (ix2 r l)) (b (ix2 r j)) := by
  unfold k0_pay1 k0_pay25 k0_pay23
  show shapeCast S8x128 (multiReduction .add [1] S8x128 (eqTable a b) 0x00000000#32 reduces_S8x1024x128_S8x128 (.inl rfl) rfl) shapeCasts_S8x128_S8x128 (ix2 r j) = _
  rw [shapeCast_self]
  refine (Ideal.multiReduction_add_single (eqTable a b) 0x00000000#32 reduces_S8x1024x128_S8x128 (.inl rfl) rfl (ix2 r j)).trans ?_
  refine Finset.sum_congr rfl fun l _ => ?_
  have e : reduces_S8x1024x128_S8x128.lift (ix2 r j) l = ix3 r l j := by
    funext d; apply Fin.ext
    match d with
    | ⟨0, _⟩ => rfl
    | ⟨1, _⟩ => rfl
    | ⟨2, _⟩ => rfl
  rw [e]; exact eqTable_apply a b r l j

/-- The clearing payloads are zero. -/
theorem clear18_apply (y : S8x1024.Idx) : k0_pay18 (F := Ideal) y = 0 := by
  unfold k0_pay18; rw [shapeCast_self]; show Ideal.ofBits .f32 0x00000000#32 = 0; exact Ideal.ofBits_zero_f32
theorem clear19_apply (y : S8x1024.Idx) : k0_pay19 (F := Ideal) y = 0 := by
  unfold k0_pay19; rw [shapeCast_self]; show Ideal.ofBits .f32 0x00000000#32 = 0; exact Ideal.ofBits_zero_f32
theorem clear20_apply (y : S8x1024.Idx) : k0_pay20 (F := Ideal) y = 0 := by
  unfold k0_pay20; rw [shapeCast_self]; show Ideal.ofBits .f32 0x00000000#32 = 0; exact Ideal.ofBits_zero_f32
theorem clear21_apply (y : S8x1024.Idx) : k0_pay21 (F := Ideal) y = 0 := by
  unfold k0_pay21; rw [shapeCast_self]; show Ideal.ofBits .f32 0x00000000#32 = 0; exact Ideal.ofBits_zero_f32

end Cert.KernelIdeal.Counts

end
-- ==== Proof.IdealCountInv.lean ====
/-
  The counting invariant. Write A₀, A₁ for the two id arrays as the call finds them. After the body at point t — batch block
  t / 8, key tile k = t % 8 — the accumulators hold, for row r of the batch block (array row R = 8·(t / 8) + r):
    · at position l, the number of the first 128·(k+1) keys of row R of A₀ (of A₁; of A₁) equal to A₀ (R, l) (A₀ (R, l);
      A₁ (R, l)) — the three row counts, each grown by one tile step per point;
    · at column q < 128·(k+1), the number of the 1024 ids of row R of A₀ equal to A₁ (R, q) — the column counts, written
      whole for the tile's 128 columns at each point — and 0 at the columns not yet reached.
  By induction along the grid: a first tile starts from the cleared accumulators, every later tile from what the tile
  before left (the same batch block, since the point is not a first tile). At k = 7 the counts are complete.
-/
import proofs.«133724_j1889785610787_1_alg».proof.Proof.IdealTilePieces
import proofs.«133724_j1889785610787_1_alg».proof.Proof.IdealBlocks
import proofs.«133724_j1889785610787_1_alg».proof.Proof.IdealCountPieces

set_option maxRecDepth 16384

noncomputable section

namespace Cert.KernelIdeal.Tiles

open Cert.KernelIdeal Cert.KernelIdeal.Gen Cert.KernelIdeal.Counts Cert.Cooccur
open Idealize.ShloMosaic Idealize.ShloMosaic.TcCoe Idealize.ShloMosaic.ValueIdx
open Idealize.SL.Sem

variable (m : (ℓ : Loc nD τ sig) → Buf (Elt Ideal) ℓ)

/-- The number of the first K keys of row R of B equal to the id of A at (R, l). -/
def pcount (A B : S64x1024.Idx → BitVec 32) (R : Fin 64) (l : Fin 1024) (K : ℕ) : EReal :=
  ∑ i ∈ Finset.range K, if h : i < 1024 then ind (A (ix2 R l)) (B (ix2 R ⟨i, h⟩)) else 0

/-- The number of the 1024 ids of row R of A equal to the id of B at (R, q). -/
def ccount (A B : S64x1024.Idx → BitVec 32) (R : Fin 64) (q : Fin 1024) : EReal :=
  ∑ l : Fin 1024, ind (A (ix2 R l)) (B (ix2 R q))

theorem pcount_zero (A B : S64x1024.Idx → BitVec 32) (R : Fin 64) (l : Fin 1024) : pcount A B R l 0 = 0 := by
  unfold pcount; rw [Finset.range_zero, Finset.sum_empty]

/-- One tile step: the count over the first K + 128 keys is the count over the first K plus the next 128 keys' hits. -/
theorem pcount_step (A B : S64x1024.Idx → BitVec 32) (R : Fin 64) (l : Fin 1024) (k : ℕ) (hk : 128 * k + 128 ≤ 1024) :
    pcount A B R l (128 * k) + ∑ j : Fin 128, ind (A (ix2 R l)) (B (ix2 R ⟨128 * k + j.val, by have := j.isLt; omega⟩))
      = pcount A B R l (128 * (k + 1)) := by
  unfold pcount
  rw [show 128 * (k + 1) = 128 * k + 128 from by ring, Finset.sum_range_add]
  refine congrArg (_ + ·) ?_
  rw [Finset.sum_range]
  refine Finset.sum_congr rfl fun j _ => ?_
  rw [dif_pos (by have := j.isLt; omega)]

/-- The full count, as the sum over all keys. -/
theorem pcount_full (A B : S64x1024.Idx → BitVec 32) (R : Fin 64) (l : Fin 1024) :
    pcount A B R l 1024 = ∑ j : Fin 1024, ind (A (ix2 R l)) (B (ix2 R j)) := by
  unfold pcount
  rw [Finset.sum_range]
  refine Finset.sum_congr rfl fun j _ => ?_
  rw [dif_pos j.isLt]

/-- The two id arrays as the call finds them. -/
abbrev A0 (c : Dev nD) : S64x1024.Idx → BitVec 32 := V m c main_arg0
abbrev A1 (c : Dev nD) : S64x1024.Idx → BitVec 32 := V m c main_arg1

/-- The invariant after the body at position n. -/
structure CountInv (c : Dev nD) (n : ℕ) (hn : n < 64) (o : Outs Ideal) : Prop where
  s0 : ∀ (r : Fin 8) (l : Fin 1024), o.s0 (ix2 r l) = pcount (A0 m c) (A0 m c) ⟨8 * (n / 8) + r.val, by have := r.isLt; omega⟩ l (128 * (n % 8 + 1))
  s1 : ∀ (r : Fin 8) (l : Fin 1024), o.s1 (ix2 r l) = pcount (A0 m c) (A1 m c) ⟨8 * (n / 8) + r.val, by have := r.isLt; omega⟩ l (128 * (n % 8 + 1))
  s3 : ∀ (r : Fin 8) (l : Fin 1024), o.s3 (ix2 r l) = pcount (A1 m c) (A1 m c) ⟨8 * (n / 8) + r.val, by have := r.isLt; omega⟩ l (128 * (n % 8 + 1))
  s2 : ∀ (r : Fin 8) (q : Fin 1024), o.s2 (ix2 r q)
        = if q.val < 128 * (n % 8 + 1) then ccount (A0 m c) (A1 m c) ⟨8 * (n / 8) + r.val, by have := r.isLt; omega⟩ q else 0

theorem N64 : cfg0.N = 64 := N_0

/-- The tile's columns: (r, q) is written through iff q lies in the tile. -/
theorem mem_colRect (t : Fin cfg0.N) (r : Fin 8) (q : Fin 1024) :
    ix2 r q ∈ (colRect t).set ↔ 128 * (t.val % 8) ≤ q.val ∧ q.val < 128 * (t.val % 8) + 128 := by
  rw [Rect.mem_set_unit]
  constructor
  · intro h
    have h1 := h (1 : Fin 2)
    rw [colOff_1 t] at h1
    exact h1
  · intro h a
    match a with
    | ⟨0, _⟩ => rw [show (⟨0, by decide⟩ : Fin 2) = 0 from rfl, colOff_0 t]; exact ⟨Nat.zero_le _, by have := r.isLt; simpa using this⟩
    | ⟨1, _⟩ => rw [show (⟨1, by decide⟩ : Fin 2) = 1 from rfl, colOff_1 t]; exact h

theorem colRect_emb (t : Fin cfg0.N) (r : Fin 8) (j : Fin 128) : (colRect t).emb (ix2 r j) = ix2 r (gCol t j) := by
  funext a; apply Fin.ext
  match a with
  | ⟨0, _⟩ => show k0_off1 (grid0.coords t) (0 : Fin 2) + 1 * r.val = r.val; rw [colOff_0 t]; omega
  | ⟨1, _⟩ => show k0_off1 (grid0.coords t) (1 : Fin 2) + 1 * j.val = 128 * (t.val % 8) + j.val; rw [colOff_1 t]; omega

/-- The column counts on the tile's columns, from the blocks. -/
theorem colcounts_blocks (c : Dev nD) (t : Fin cfg0.N) (r : Fin 8) (j : Fin 128) :
    k0_pay1 (F := Ideal) (k0_pay25 (F := Ideal) (iblk m c 0 t) (iblk m c 3 t)) (ix2 r j) = ccount (A0 m c) (A1 m c) (gRow t r) (gCol t j) := by
  rw [colCount_apply]
  unfold ccount
  refine Finset.sum_congr rfl fun l _ => ?_
  rw [blk0_apply, blk3_apply]

/-- One tile's hits of a row count, from the blocks (source ids against the tile's source keys). -/
theorem hits00 (c : Dev nD) (t : Fin cfg0.N) (r : Fin 8) (l : Fin 1024) :
    (∑ j : Fin 128, ind (iblk m c 0 t (ix2 r l)) (iblk m c 2 t (ix2 r j)))
      = ∑ j : Fin 128, ind (A0 m c (ix2 (gRow t r) l)) (A0 m c (ix2 (gRow t r) ⟨128 * (t.val % 8) + j.val, col_lt t j⟩)) :=
  Finset.sum_congr rfl fun j _ => by rw [blk0_apply, blk2_apply]
theorem hits01 (c : Dev nD) (t : Fin cfg0.N) (r : Fin 8) (l : Fin 1024) :
    (∑ j : Fin 128, ind (iblk m c 0 t (ix2 r l)) (iblk m c 3 t (ix2 r j)))
      = ∑ j : Fin 128, ind (A0 m c (ix2 (gRow t r) l)) (A1 m c (ix2 (gRow t r) ⟨128 * (t.val % 8) + j.val, col_lt t j⟩)) :=
  Finset.sum_congr rfl fun j _ => by rw [blk0_apply, blk3_apply]
theorem hits11 (c : Dev nD) (t : Fin cfg0.N) (r : Fin 8) (l : Fin 1024) :
    (∑ j : Fin 128, ind (iblk m c 1 t (ix2 r l)) (iblk m c 3 t (ix2 r j)))
      = ∑ j : Fin 128, ind (A1 m c (ix2 (gRow t r) l)) (A1 m c (ix2 (gRow t r) ⟨128 * (t.val % 8) + j.val, col_lt t j⟩)) :=
  Finset.sum_congr rfl fun j _ => by rw [blk1_apply, blk3_apply]

/-- A first tile establishes the invariant. -/
theorem inv_first (c : Dev nD) (t : Fin cfg0.N) (h0 : t.val % 8 = 0) :
    CountInv m c t.val (lt_of_lt_of_eq t.isLt N64) (outsFirst m c t h0) := by
  have hk : 128 * (t.val % 8) + 128 ≤ 1024 := by omega
  refine ⟨fun r l => ?_, fun r l => ?_, fun r l => ?_, fun r q => ?_⟩
  · have hz : pcount (A0 m c) (A0 m c) (gRow t r) l (128 * (t.val % 8)) = 0 := by rw [h0]; exact pcount_zero _ _ _ _
    rw [first_s0, rowStep_apply, clear18_apply, zero_add, hits00, ← pcount_step _ _ _ _ (t.val % 8) hk, hz, zero_add]
  · have hz : pcount (A0 m c) (A1 m c) (gRow t r) l (128 * (t.val % 8)) = 0 := by rw [h0]; exact pcount_zero _ _ _ _
    rw [first_s1, rowStep24_apply, clear19_apply, zero_add, hits01, ← pcount_step _ _ _ _ (t.val % 8) hk, hz, zero_add]
  · have hz : pcount (A1 m c) (A1 m c) (gRow t r) l (128 * (t.val % 8)) = 0 := by rw [h0]; exact pcount_zero _ _ _ _
    rw [first_s3, rowStep2_apply, clear21_apply, zero_add, hits11, ← pcount_step _ _ _ _ (t.val % 8) hk, hz, zero_add]
  · by_cases hq : q.val < 128 * (t.val % 8 + 1)
    · rw [if_pos hq]
      have hq' : q.val < 128 := by rw [h0] at hq; omega
      have e : ix2 r q = (colRect t).emb (ix2 r ⟨q.val, hq'⟩) := by
        rw [colRect_emb]; congr 1; apply Fin.ext; show q.val = 128 * (t.val % 8) + q.val; rw [h0]; omega
      rw [e, first_s2_in, colcounts_blocks]
      congr 1; apply Fin.ext; show 128 * (t.val % 8) + q.val = q.val; omega
    · rw [if_neg hq]
      have hn : ix2 r q ∉ (colRect t).set := by rw [mem_colRect]; omega
      rw [first_s2_out m c t h0 _ hn, clear20_apply]

/-- A later tile (inner or last) carries the invariant on from the tile before. -/
theorem inv_step (c : Dev nD) (t : Fin cfg0.N) (h0 : ¬t.val % 8 = 0) (p o : Outs Ideal)
    (hp : CountInv m c (t.val - 1) (by have := lt_of_lt_of_eq t.isLt N64; omega) p)
    (e0 : o.s0 = k0_pay22 (F := Ideal) (iblk m c 0 t) (iblk m c 2 t) p.s0)
    (e1 : o.s1 = k0_pay24 (F := Ideal) (iblk m c 0 t) (iblk m c 3 t) p.s1)
    (e3 : o.s3 = k0_pay2 (F := Ideal) (iblk m c 1 t) (iblk m c 3 t) p.s3)
    (e2i : ∀ x : S8x128.Idx, o.s2 ((colRect t).emb x) = k0_pay1 (F := Ideal) (k0_pay25 (F := Ideal) (iblk m c 0 t) (iblk m c 3 t)) x)
    (e2o : ∀ y : S8x1024.Idx, y ∉ (colRect t).set → o.s2 y = p.s2 y) :
    CountInv m c t.val (lt_of_lt_of_eq t.isLt N64) o := by
  have hN := lt_of_lt_of_eq t.isLt N64
  have hdiv : (t.val - 1) / 8 = t.val / 8 := by omega
  have hmod : (t.val - 1) % 8 + 1 = t.val % 8 := by omega
  have hk : 128 * (t.val % 8) + 128 ≤ 1024 := by omega
  refine ⟨fun r l => ?_, fun r l => ?_, fun r l => ?_, fun r q => ?_⟩
  · rw [e0, rowStep_apply, hp.s0 r l, hits00, ← pcount_step _ _ _ _ (t.val % 8) hk]
    simp only [hdiv, hmod]
  · rw [e1, rowStep24_apply, hp.s1 r l, hits01, ← pcount_step _ _ _ _ (t.val % 8) hk]
    simp only [hdiv, hmod]
  · rw [e3, rowStep2_apply, hp.s3 r l, hits11, ← pcount_step _ _ _ _ (t.val % 8) hk]
    simp only [hdiv, hmod]
  · by_cases hin : 128 * (t.val % 8) ≤ q.val ∧ q.val < 128 * (t.val % 8) + 128
    · have hq' : q.val - 128 * (t.val % 8) < 128 := by omega
      have e : ix2 r q = (colRect t).emb (ix2 r ⟨q.val - 128 * (t.val % 8), hq'⟩) := by
        rw [colRect_emb]; congr 1; apply Fin.ext; show q.val = 128 * (t.val % 8) + (q.val - 128 * (t.val % 8)); omega
      rw [if_pos (by omega), e, e2i, colcounts_blocks]
      congr 1; apply Fin.ext; show 128 * (t.val % 8) + (q.val - 128 * (t.val % 8)) = q.val; omega
    · have hn : ix2 r q ∉ (colRect t).set := by rw [mem_colRect]; exact hin
      rw [e2o _ hn, hp.s2 r q]
      simp only [hdiv, hmod]
      by_cases hq : q.val < 128 * (t.val % 8)
      · rw [if_pos hq, if_pos (by omega)]
      · rw [if_neg hq, if_neg (by omega)]

/-- The invariant holds after every point. -/
theorem inv_all (c : Dev nD) : ∀ (n : ℕ) (hn : n < cfg0.N), CountInv m c n (lt_of_lt_of_eq hn N64) (outsAt m c n hn) := by
  intro n
  induction n with
  | zero => intro hn; exact inv_first m c ⟨0, hn⟩ (Nat.zero_mod _)
  | succ n ih =>
    intro hn
    by_cases h0 : (n + 1) % 8 = 0
    · rw [outsAt_first m c ⟨n + 1, hn⟩ h0]; exact inv_first m c ⟨n + 1, hn⟩ h0
    · by_cases h1 : (n + 1) % 8 = 7
      · rw [outsAt_last m c ⟨n + 1, hn⟩ h0 h1]
        exact inv_step m c ⟨n + 1, hn⟩ h0 _ _ (ih (Nat.lt_of_succ_lt hn)) (last_s0 m c _ h0 h1 _) (last_s1 m c _ h0 h1 _) (last_s3 m c _ h0 h1 _)
          (last_s2_in m c _ h0 h1 _) (last_s2_out m c _ h0 h1 _)
      · rw [outsAt_inner m c ⟨n + 1, hn⟩ h0 h1]
        exact inv_step m c ⟨n + 1, hn⟩ h0 _ _ (ih (Nat.lt_of_succ_lt hn)) (inner_s0 m c _ h0 h1 _) (inner_s1 m c _ h0 h1 _) (inner_s3 m c _ h0 h1 _)
          (inner_s2_in m c _ h0 h1 _) (inner_s2_out m c _ h0 h1 _)

end Cert.KernelIdeal.Tiles

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.IdealEncPieces.lean ====
/-
  The kernel's encoder arithmetic read at an index, at the ideal instance. A count c at (row r, position l) is first masked
  (zero where the id is 0, a padding position), then sent through the first layer feature by feature,
  max (c · w₁ d + b₁ d) 0; the two branches' hidden vectors are added and contracted ONCE with the transposed second-layer
  weights, and twice the second bias is added.
-/
import proofs.«133724_j1889785610787_1_alg».proof.Proof.Gen.KernelIdeal.Skeleton
import proofs.«133724_j1889785610787_1_alg».proof.Proof.CountSpec
import proofs.«133724_j1889785610787_1_alg».proof.Proof.LibLayout3
import proofs.«133724_j1889785610787_1_alg».proof.Proof.LibContract
import Idealize.ShloMosaic.PureOps.Ideal.Laws

set_option maxRecDepth 16384

noncomputable section

namespace Cert.KernelIdeal.Enc

open Cert.KernelIdeal Cert.KernelIdeal.Gen Cert.Cooccur
open Idealize.ShloMosaic Idealize.ShloMosaic.ValueIdx Idealize.ShloMosaic.Layout3

theorem pay4_apply (v56 : Vec Ideal S1x64 .f32) (d : Fin 64) : k0_pay4 (F := Ideal) v56 (ix1 d) = v56 (ix2 0 d) := by
  unfold k0_pay4; exact shapeCast_1a_a_apply _ _ d
theorem pay5_apply (v58 : Vec Ideal S1x64 .f32) (d : Fin 64) : k0_pay5 (F := Ideal) v58 (ix1 d) = v58 (ix2 0 d) := by
  unfold k0_pay5; exact shapeCast_1a_a_apply _ _ d
theorem pay6_apply (v60 : Vec Ideal S1x64 .f32) (d : Fin 64) : k0_pay6 (F := Ideal) v60 (ix1 d) = v60 (ix2 0 d) := by
  unfold k0_pay6; exact shapeCast_1a_a_apply _ _ d
theorem pay7_eq (v62 : Vec Ideal S64x64 .f32) : k0_pay7 (F := Ideal) v62 = v62 := by
  unfold k0_pay7; exact shapeCast_self _ _

theorem pay10_apply (v4 : Vec Ideal S8x1024 .i32) (v74 : Vec Ideal S8x1024 .f32) (r : Fin 8) (l : Fin 1024) :
    k0_pay10 (F := Ideal) v4 v74 (ix2 r l) = mask (v4 (ix2 r l)) (v74 (ix2 r l)) := rfl
theorem pay11_apply (v4 : Vec Ideal S8x1024 .i32) (v77 : Vec Ideal S8x1024 .f32) (r : Fin 8) (l : Fin 1024) :
    k0_pay11 (F := Ideal) v4 v77 (ix2 r l) = mask (v4 (ix2 r l)) (v77 (ix2 r l)) := rfl

theorem pay13_apply (v56 : Vec Ideal S1x64 .f32) (d : Fin 64) : k0_pay13 (F := Ideal) v56 (ix3 0 0 d) = v56 (ix2 0 d) := by
  unfold k0_pay13
  refine (shapeCast_c_11c_apply _ _ 0 0 d).trans (pay4_apply v56 d)

theorem pay14_apply (v3 : Vec Ideal S8x1024 .i32) (v71 : Vec Ideal S8x1024 .f32) (r : Fin 8) (l : Fin 1024) (d : Fin 64) :
    k0_pay14 (F := Ideal) v3 v71 (ix3 r l d) = mask (v3 (ix2 r l)) (v71 (ix2 r l)) := by
  unfold k0_pay14
  refine (broadcastTo_ab1_abc_apply _ _ r l d).trans ?_
  refine (shapeCast_ab_ab1_apply _ _ r l 0).trans ?_
  rfl

theorem pay12_apply (v3 : Vec Ideal S8x1024 .i32) (v56 v58 : Vec Ideal S1x64 .f32) (v68 : Vec Ideal S8x1024 .f32) (r : Fin 8) (l : Fin 1024) (d : Fin 64) :
    k0_pay12 (F := Ideal) v3 v56 v58 v68 (ix3 r l d) = hid (mask (v3 (ix2 r l)) (v68 (ix2 r l))) (v56 (ix2 0 d)) (v58 (ix2 0 d)) := by
  unfold k0_pay12 hid
  rw [maximumf_apply, addf_apply, mulf_apply]
  rw [broadcastTo_ab1_abc_apply _ _ r l d, shapeCast_ab_ab1_apply _ _ r l 0,
    broadcastTo_11c_abc_apply _ _ r l d, shapeCast_c_11c_apply _ _ 0 0 d, pay4_apply,
    broadcastTo_11c_abc_apply _ _ r l d, shapeCast_c_11c_apply _ _ 0 0 d, pay5_apply]
  rfl

theorem pay17_apply (v61 : FVec Ideal S64 .f32) (r : Fin 8) (l : Fin 1024) (e : Fin 64) :
    k0_pay17 (F := Ideal) v61 (ix3 r l e) = Ideal.ofBits .f32 0x40000000#32 * v61 (ix1 e) := by
  unfold k0_pay17
  refine (broadcastTo_11c_abc_apply _ _ r l e).trans ?_
  refine (shapeCast_c_11c_apply _ _ 0 0 e).trans ?_
  rfl

/-- The contraction with the transposed weights, at (r, l, e): the [8, 1024, 64] hidden array is viewed as 8192 rows. -/
theorem contract_apply (h : FVec Ideal S8x1024x64 .f32) (v63 : FVec Ideal S64x64 .f32) (r : Fin 8) (l : Fin 1024) (e : Fin 64) :
    shapeCast S8x1024x64 (matmul dot_S8192x64_S64x64_S8192x64_1_0_0_1_n_n none
        (shapeCast S8192x64 (truncf .bf16 h bitsLt_bf16_f32) shapeCasts_S8x1024x64_S8192x64)
        (truncf .bf16 v63 bitsLt_bf16_f32) (constant S8192x64 .f32 0x00000000#32)) shapeCasts_S8192x64_S8x1024x64 (ix3 r l e)
      = ∑ d : Fin 64, h (ix3 r l d) * v63 (ix2 d e) := by
  have hrow : r.val * 1024 + l.val < 8192 := by have := r.isLt; have := l.isLt; omega
  refine (shapeCast_nc_abc_apply _ _ r l e ⟨r.val * 1024 + l.val, hrow⟩ rfl).trans ?_
  refine (Ideal.matmul_constant_zero_apply _ none _ _ _).trans ?_
  refine (Contract2.sum_contr_eq_sum_fin dot_S8192x64_S64x64_S8192x64_1_0_0_1_n_n rfl rfl rfl rfl (fun _ _ => rfl) (fun _ _ => rfl) _ _ _).trans ?_
  refine Finset.sum_congr rfl fun d _ => ?_
  refine congrArg₂ (· * ·) ?_ rfl
  exact shapeCast_abc_nc_apply _ _ r l d ⟨r.val * 1024 + l.val, hrow⟩ rfl

theorem pay15_apply (v59 v61 : FVec Ideal S64 .f32) (v63 : FVec Ideal S64x64 .f32) (v89 : FVec Ideal S8x1024x64 .f32)
    (v91 : FVec Ideal S1x1x64 .f32) (v92 : FVec Ideal S8x1024x64 .f32) (r : Fin 8) (l : Fin 1024) (e : Fin 64) :
    k0_pay15 (F := Ideal) v59 v61 v63 v89 v91 v92 (ix3 r l e)
      = (∑ d : Fin 64, (v89 (ix3 r l d) + max (v92 (ix3 r l d) * v91 (ix3 0 0 d) + v59 (ix1 d)) (Ideal.ofBits .f32 0x00000000#32)) * v63 (ix2 d e))
        + Ideal.ofBits .f32 0x40000000#32 * v61 (ix1 e) := by
  unfold k0_pay15
  rw [addf_apply]
  refine congrArg₂ (· + ·) ?_ ?_
  · refine (contract_apply _ v63 r l e).trans ?_
    refine Finset.sum_congr rfl fun d _ => ?_
    refine congrArg (· * v63 (ix2 d e)) ?_
    rw [addf_apply, maximumf_apply, addf_apply, mulf_apply]
    rw [broadcastTo_11c_abc_apply _ _ r l d, broadcastTo_11c_abc_apply _ _ r l d, shapeCast_c_11c_apply _ _ 0 0 d]
    rfl
  · refine (broadcastTo_11c_abc_apply _ _ r l e).trans ?_
    refine (shapeCast_c_11c_apply _ _ 0 0 e).trans ?_
    rfl

theorem pay16_apply (v57 v59 : FVec Ideal S64 .f32) (v63 : FVec Ideal S64x64 .f32) (v76 v79 : FVec Ideal S8x1024 .f32)
    (r : Fin 8) (l : Fin 1024) (e : Fin 64) :
    k0_pay16 (F := Ideal) v57 v59 v63 v76 v79 (ix3 r l e)
      = ∑ d : Fin 64, (hid (v76 (ix2 r l)) (v57 (ix1 d)) (v59 (ix1 d)) + hid (v79 (ix2 r l)) (v57 (ix1 d)) (v59 (ix1 d))) * v63 (ix2 d e) := by
  unfold k0_pay16 hid
  refine (contract_apply _ v63 r l e).trans ?_
  refine Finset.sum_congr rfl fun d _ => ?_
  refine congrArg (· * v63 (ix2 d e)) ?_
  rw [addf_apply, maximumf_apply, maximumf_apply, addf_apply, addf_apply, mulf_apply, mulf_apply]
  rw [broadcastTo_ab1_abc_apply _ _ r l d, shapeCast_ab_ab1_apply _ _ r l 0,
    broadcastTo_11c_abc_apply _ _ r l d, shapeCast_c_11c_apply _ _ 0 0 d,
    broadcastTo_11c_abc_apply _ _ r l d, shapeCast_c_11c_apply _ _ 0 0 d,
    broadcastTo_ab1_abc_apply _ _ r l d, shapeCast_ab_ab1_apply _ _ r l 0]
  rfl

end Cert.KernelIdeal.Enc

end
-- ==== Proof.IdealParams.lean ====
/-
  What the five host operations before the call leave in the four parameter arrays it stages, read at coordinates:
  W1's column as a row, b1 and b2 as rows, W2 transposed. The two id arrays are not touched.
-/
import proofs.«133724_j1889785610787_1_alg».proof.Proof.IdealFrameKit
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.StableHlo.Run
import Idealize.ShloMosaic.Lib.Pipeline.FrameSuffix
import Idealize.ShloMosaic.Lib.Ring
import Idealize.ShloMosaic.Lib.Tactic

set_option maxRecDepth 16384

noncomputable section

namespace Cert.KernelIdeal.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem V_v1 (c : Dev nD) : (V m c main_v1 : S1x64.Idx → Elt F .f32)
    = shapeCast S1x64 (shapeCast S64 (m ((c : Thread nD τ).loc main_arg2)) shapeCasts_S64x1_S64) shapeCasts_S64_S1x64 := by
  dsimp only [V, hostOps0]
  first | (after_results; rfl) | after_results

theorem V_v2 (c : Dev nD) : (V m c main_v2 : S1x64.Idx → Elt F .f32)
    = shapeCast S1x64 (m ((c : Thread nD τ).loc main_arg3)) shapeCasts_S64_S1x64 := by
  dsimp only [V, hostOps0]
  first | (after_results; rfl) | after_results

theorem V_v3 (c : Dev nD) : (V m c main_v3 : S64x64.Idx → Elt F .f32)
    = transpose S64x64 [1, 0] (m ((c : Thread nD τ).loc main_arg4)) transposes_S64x64_S64x64_1_0 := by
  dsimp only [V, hostOps0]
  first | (after_results; rfl) | after_results

theorem V_v4 (c : Dev nD) : (V m c main_v4 : S1x64.Idx → Elt F .f32)
    = shapeCast S1x64 (m ((c : Thread nD τ).loc main_arg5)) shapeCasts_S64_S1x64 := by
  dsimp only [V, hostOps0]
  first | (after_results; rfl) | after_results

/-- W1's column, as the row the call stages: entry d is W1[d, 0]. -/
theorem V_v1_apply (c : Dev nD) (d : Fin 64) : V m c main_v1 (ix2 0 d) = m ((c : Thread nD τ).loc main_arg2) (ix2 d 0) := by
  rw [V_v1]
  refine (shapeCast_a_1a_apply _ _ 0 d).trans ?_
  refine shapeCast_apply _ _ _ _ ?_
  show ((⟨2, ![64, 1]⟩ : Shape).rowMajor (ix2 d (0 : Fin 1))).val = ((⟨1, ![64]⟩ : Shape).rowMajor (ix1 d)).val
  rw [Shape.rowMajor_val_two, Shape.rowMajor_val_one]
  show d.val * 1 + 0 = d.val
  omega

theorem V_v2_apply (c : Dev nD) (d : Fin 64) : V m c main_v2 (ix2 0 d) = m ((c : Thread nD τ).loc main_arg3) (ix1 d) := by
  rw [V_v2]; exact shapeCast_a_1a_apply _ _ 0 d

theorem V_v4_apply (c : Dev nD) (d : Fin 64) : V m c main_v4 (ix2 0 d) = m ((c : Thread nD τ).loc main_arg5) (ix1 d) := by
  rw [V_v4]; exact shapeCast_a_1a_apply _ _ 0 d

/-- W2 transposed: entry (d, e) is W2[e, d]. -/
theorem V_v3_apply (c : Dev nD) (d e : Fin 64) : V m c main_v3 (ix2 d e) = m ((c : Thread nD τ).loc main_arg4) (ix2 e d) := by
  rw [V_v3]; exact transpose_ix2_apply _ _ d e

end Cert.KernelIdeal.Tiles

end
-- ==== Proof.IdealOutputs.lean ====
/-
  The kernel's two result arrays. At the last tile of batch block B the counts are complete, so the block written back is,
  at (r, l, e), the encoder of the masked counts of array row R = 8·B + r at position l. The eight last tiles' blocks tile
  each result array (block B is rows 8·B … 8·B + 7), so each array ends holding ONE function of the argument arrays:
    result 0 at (R, l, e) = enc (mask A₀(R,l) #{j : A₀(R,l) = A₀(R,j)}) (mask A₀(R,l) #{j : A₀(R,l) = A₁(R,j)}) … e
    result 1 at (R, l, e) = enc (mask A₁(R,l) #{i : A₀(R,i) = A₁(R,l)}) (mask A₁(R,l) #{j : A₁(R,l) = A₁(R,j)}) … e
  with w₁ d = W1[d,0], the biases b1, b2, and the second-layer weight read transposed, W2[e,d].
-/
import proofs.«133724_j1889785610787_1_alg».proof.Proof.IdealCountInv
import proofs.«133724_j1889785610787_1_alg».proof.Proof.IdealEncPieces
import proofs.«133724_j1889785610787_1_alg».proof.Proof.IdealParams
import proofs.«133724_j1889785610787_1_alg».proof.Proof.IdealFrameRun
import Idealize.ShloMosaic.Lib.Pipeline.Value

set_option maxRecDepth 16384

noncomputable section

namespace Cert.KernelIdeal.Tiles

open Cert.KernelIdeal Cert.KernelIdeal.Gen Cert.KernelIdeal.Counts Cert.KernelIdeal.Enc Cert.Cooccur
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The parameters as the arguments give them. -/
def pw1 (c : Dev nD) (d : Fin 64) : EReal := m ((c : Thread nD τ).loc main_arg2) (ix2 d 0)
def pb1 (c : Dev nD) (d : Fin 64) : EReal := m ((c : Thread nD τ).loc main_arg3) (ix1 d)
def pb2 (c : Dev nD) (e : Fin 64) : EReal := m ((c : Thread nD τ).loc main_arg5) (ix1 e)
def pWt (c : Dev nD) (d e : Fin 64) : EReal := m ((c : Thread nD τ).loc main_arg4) (ix2 e d)

/-- Result 0 at (R, l, e). -/
def out0 (c : Dev nD) (R : Fin 64) (l : Fin 1024) (e : Fin 64) : EReal :=
  encK (mask (A0 m c (ix2 R l)) (pcount (A0 m c) (A0 m c) R l 1024)) (mask (A0 m c (ix2 R l)) (pcount (A0 m c) (A1 m c) R l 1024))
    (pw1 m c) (pb1 m c) (pb2 m c) (pWt m c) e
/-- Result 1 at (R, l, e). -/
def out1 (c : Dev nD) (R : Fin 64) (l : Fin 1024) (e : Fin 64) : EReal :=
  encK (mask (A1 m c (ix2 R l)) (ccount (A0 m c) (A1 m c) R l)) (mask (A1 m c (ix2 R l)) (pcount (A1 m c) (A1 m c) R l 1024))
    (pw1 m c) (pb1 m c) (pb2 m c) (pWt m c) e

/-- The two result arrays, whole. -/
def G0 (c : Dev nD) : S64x1024x64.Idx → EReal := fun i => out0 m c ⟨(i 0).val, (i 0).isLt⟩ ⟨(i 1).val, (i 1).isLt⟩ ⟨(i 2).val, (i 2).isLt⟩
def G1 (c : Dev nD) : S64x1024x64.Idx → EReal := fun i => out1 m c ⟨(i 0).val, (i 0).isLt⟩ ⟨(i 1).val, (i 1).isLt⟩ ⟨(i 2).val, (i 2).isLt⟩

/-- The blocks of the parameter windows, read through to the arguments. -/
theorem par_w1 (c : Dev nD) (t : Fin cfg0.N) (d : Fin 64) : iblk m c 4 t (ix2 0 d) = pw1 m c d := by rw [blk4_apply, V_v1_apply]; rfl
theorem par_b1 (c : Dev nD) (t : Fin cfg0.N) (d : Fin 64) : iblk m c 5 t (ix2 0 d) = pb1 m c d := by rw [blk5_apply, V_v2_apply]; rfl
theorem par_b2 (c : Dev nD) (t : Fin cfg0.N) (e : Fin 64) : iblk m c 7 t (ix2 0 e) = pb2 m c e := by rw [blk7_apply, V_v4_apply]; rfl
theorem par_Wt (c : Dev nD) (t : Fin cfg0.N) (d e : Fin 64) : iblk m c 6 t (ix2 d e) = pWt m c d e := by rw [blk6_apply, V_v3_apply]; rfl

/-- The first output block at a last tile. -/
theorem out8_val (c : Dev nD) (t : Fin cfg0.N) (h0 : ¬t.val % 8 = 0) (h1 : t.val % 8 = 7) (r : Fin 8) (l : Fin 1024) (e : Fin 64) :
    (outsAt m c t.val t.isLt).o8 (ix3 r l e) = out0 m c (gRow t r) l e := by
  have I := inv_all m c t.val t.isLt
  rw [outsAt_last m c t h0 h1] at I ⊢
  rw [last_o8, pay15_apply]
  simp only [pay12_apply, pay13_apply, pay14_apply, pay5_apply, pay6_apply, pay7_eq, I.s0 r l, I.s1 r l, blk0_apply, par_w1, par_b1, par_b2, par_Wt]
  simp only [h1]
  rfl

/-- The second output block at a last tile. -/
theorem out9_val (c : Dev nD) (t : Fin cfg0.N) (h0 : ¬t.val % 8 = 0) (h1 : t.val % 8 = 7) (r : Fin 8) (l : Fin 1024) (e : Fin 64) :
    (outsAt m c t.val t.isLt).o9 (ix3 r l e) = out1 m c (gRow t r) l e := by
  have I := inv_all m c t.val t.isLt
  rw [outsAt_last m c t h0 h1] at I ⊢
  rw [last_o9]
  show k0_pay16 (F := Ideal) _ _ _ _ _ (ix3 r l e) + k0_pay17 (F := Ideal) _ (ix3 r l e) = _
  rw [pay16_apply, pay17_apply]
  simp only [pay10_apply, pay11_apply, pay4_apply, pay5_apply, pay6_apply, pay7_eq, I.s2 r l, I.s3 r l, blk1_apply, par_w1, par_b1, par_b2, par_Wt]
  simp only [h1]
  rw [if_pos (by have := l.isLt; omega)]
  rfl

/-! ## From blocks to arrays -/

theorem idx8_0 : ∀ t : Fin cfg0.N, win0_8.index t (0 : Fin 3) = t.val / 8 := (by decide +kernel : ∀ t : Fin grid0.N, win0_8.index t (0 : Fin 3) = t.val / 8)
theorem idx8_1 : ∀ t : Fin cfg0.N, win0_8.index t (1 : Fin 3) = 0 := (by decide +kernel : ∀ t : Fin grid0.N, win0_8.index t (1 : Fin 3) = 0)
theorem idx8_2 : ∀ t : Fin cfg0.N, win0_8.index t (2 : Fin 3) = 0 := (by decide +kernel : ∀ t : Fin grid0.N, win0_8.index t (2 : Fin 3) = 0)
theorem idx9_0 : ∀ t : Fin cfg0.N, win0_9.index t (0 : Fin 3) = t.val / 8 := (by decide +kernel : ∀ t : Fin grid0.N, win0_9.index t (0 : Fin 3) = t.val / 8)
theorem idx9_1 : ∀ t : Fin cfg0.N, win0_9.index t (1 : Fin 3) = 0 := (by decide +kernel : ∀ t : Fin grid0.N, win0_9.index t (1 : Fin 3) = 0)
theorem idx9_2 : ∀ t : Fin cfg0.N, win0_9.index t (2 : Fin 3) = 0 := (by decide +kernel : ∀ t : Fin grid0.N, win0_9.index t (2 : Fin 3) = 0)

theorem emb8 (t : Fin cfg0.N) (r : Fin 8) (l : Fin 1024) (e : Fin 64) :
    ((cfg0.win 8).blk t).view.emb (ix3 r l e) = ix3 (gRow t r) l e := by
  funext a; apply Fin.ext
  match a with
  | ⟨0, _⟩ => show win0_8.index t (0 : Fin 3) * 8 + 1 * r.val = 8 * (t.val / 8) + r.val; rw [idx8_0 t]; omega
  | ⟨1, _⟩ => show win0_8.index t (1 : Fin 3) * 1024 + 1 * l.val = l.val; rw [idx8_1 t]; omega
  | ⟨2, _⟩ => show win0_8.index t (2 : Fin 3) * 64 + 1 * e.val = e.val; rw [idx8_2 t]; omega
theorem emb9 (t : Fin cfg0.N) (r : Fin 8) (l : Fin 1024) (e : Fin 64) :
    ((cfg0.win 9).blk t).view.emb (ix3 r l e) = ix3 (gRow t r) l e := by
  funext a; apply Fin.ext
  match a with
  | ⟨0, _⟩ => show win0_9.index t (0 : Fin 3) * 8 + 1 * r.val = 8 * (t.val / 8) + r.val; rw [idx9_0 t]; omega
  | ⟨1, _⟩ => show win0_9.index t (1 : Fin 3) * 1024 + 1 * l.val = l.val; rw [idx9_1 t]; omega
  | ⟨2, _⟩ => show win0_9.index t (2 : Fin 3) * 64 + 1 * e.val = e.val; rw [idx9_2 t]; omega

/-- What a last tile writes back of result 0 is its block of `G0`. -/
theorem flushed8_eq (c : Dev nD) (t : Fin cfg0.N) (hf : (cfg0.win 8).flush t = true) :
    (dats m 0 c).flushed 8 t = ((cfg0.win 8).blk t).view.read (Elt Ideal) (G0 m c) := by
  have h1 : t.val % 8 = 7 := (flush0_8 t).mp hf
  have h0 : ¬t.val % 8 = 0 := by omega
  show (cfg0.win 8).cut (grid0.coords t) ((dats m 0 c).after 8 t) = _
  rw [after8]
  funext y
  obtain ⟨r, l, e, rfl⟩ : ∃ (r : Fin 8) (l : Fin 1024) (e : Fin 64), y = ix3 r l e := ⟨y 0, y 1, y 2, eq_ix3 y⟩
  show (outsAt m c t.val t.isLt).o8 (ix3 r l e) = G0 m c (((cfg0.win 8).blk t).view.emb (ix3 r l e))
  rw [out8_val m c t h0 h1, emb8]
  rfl
theorem flushed9_eq (c : Dev nD) (t : Fin cfg0.N) (hf : (cfg0.win 9).flush t = true) :
    (dats m 0 c).flushed 9 t = ((cfg0.win 9).blk t).view.read (Elt Ideal) (G1 m c) := by
  have h1 : t.val % 8 = 7 := (flush0_9 t).mp hf
  have h0 : ¬t.val % 8 = 0 := by omega
  show (cfg0.win 9).cut (grid0.coords t) ((dats m 0 c).after 9 t) = _
  rw [after9]
  funext y
  obtain ⟨r, l, e, rfl⟩ : ∃ (r : Fin 8) (l : Fin 1024) (e : Fin 64), y = ix3 r l e := ⟨y 0, y 1, y 2, eq_ix3 y⟩
  show (outsAt m c t.val t.isLt).o9 (ix3 r l e) = G1 m c (((cfg0.win 9).blk t).view.emb (ix3 r l e))
  rw [out9_val m c t h0 h1, emb9]
  rfl

theorem mem_blk8 (t : Fin cfg0.N) (i : S64x1024x64.Idx) :
    i ∈ ((cfg0.win 8).blk t).view.set ↔ ∀ a : Fin 3, win0_8.index t a * S8x1024x64.size a ≤ (i a).val ∧ (i a).val < win0_8.index t a * S8x1024x64.size a + S8x1024x64.size a := by
  show i ∈ ((View.whole main_v5_0).slice (win0_8.rect t)).set ↔ _
  rw [View.set_slice_whole, Rect.mem_set_unit]
  exact Iff.rfl
theorem mem_blk9 (t : Fin cfg0.N) (i : S64x1024x64.Idx) :
    i ∈ ((cfg0.win 9).blk t).view.set ↔ ∀ a : Fin 3, win0_9.index t a * S8x1024x64.size a ≤ (i a).val ∧ (i a).val < win0_9.index t a * S8x1024x64.size a + S8x1024x64.size a := by
  show i ∈ ((View.whole main_v5_1).slice (win0_9.rect t)).set ↔ _
  rw [View.set_slice_whole, Rect.mem_set_unit]
  exact Iff.rfl

/-- Every index of a result array lies in the block of its batch block's last tile. -/
theorem cover8 (i : S64x1024x64.Idx) : ∃ t : Fin cfg0.N, (cfg0.win 8).flush t = true ∧ i ∈ ((cfg0.win 8).blk t).view.set := by
  have hi0 : (i 0).val < 64 := (i 0).isLt
  have hi1 : (i 1).val < 1024 := (i 1).isLt
  have hi2 : (i 2).val < 64 := (i 2).isLt
  have hN : cfg0.N = 64 := N_0
  refine ⟨⟨8 * ((i 0).val / 8) + 7, by omega⟩, (flush0_8 _).mpr (by show (8 * ((i 0).val / 8) + 7) % 8 = 7; omega), ?_⟩
  rw [mem_blk8]
  intro a
  match a with
  | ⟨0, _⟩ => show win0_8.index _ (0 : Fin 3) * 8 ≤ (i 0).val ∧ (i 0).val < win0_8.index _ (0 : Fin 3) * 8 + 8; rw [idx8_0]; show (8 * ((i 0).val / 8) + 7) / 8 * 8 ≤ _ ∧ _ < (8 * ((i 0).val / 8) + 7) / 8 * 8 + 8; omega
  | ⟨1, _⟩ => show win0_8.index _ (1 : Fin 3) * 1024 ≤ (i 1).val ∧ (i 1).val < win0_8.index _ (1 : Fin 3) * 1024 + 1024; rw [idx8_1]; omega
  | ⟨2, _⟩ => show win0_8.index _ (2 : Fin 3) * 64 ≤ (i 2).val ∧ (i 2).val < win0_8.index _ (2 : Fin 3) * 64 + 64; rw [idx8_2]; omega
theorem cover9 (i : S64x1024x64.Idx) : ∃ t : Fin cfg0.N, (cfg0.win 9).flush t = true ∧ i ∈ ((cfg0.win 9).blk t).view.set := by
  have hi0 : (i 0).val < 64 := (i 0).isLt
  have hi1 : (i 1).val < 1024 := (i 1).isLt
  have hi2 : (i 2).val < 64 := (i 2).isLt
  have hN : cfg0.N = 64 := N_0
  refine ⟨⟨8 * ((i 0).val / 8) + 7, by omega⟩, (flush0_9 _).mpr (by show (8 * ((i 0).val / 8) + 7) % 8 = 7; omega), ?_⟩
  rw [mem_blk9]
  intro a
  match a with
  | ⟨0, _⟩ => show win0_9.index _ (0 : Fin 3) * 8 ≤ (i 0).val ∧ (i 0).val < win0_9.index _ (0 : Fin 3) * 8 + 8; rw [idx9_0]; show (8 * ((i 0).val / 8) + 7) / 8 * 8 ≤ _ ∧ _ < (8 * ((i 0).val / 8) + 7) / 8 * 8 + 8; omega
  | ⟨1, _⟩ => show win0_9.index _ (1 : Fin 3) * 1024 ≤ (i 1).val ∧ (i 1).val < win0_9.index _ (1 : Fin 3) * 1024 + 1024; rw [idx9_1]; omega
  | ⟨2, _⟩ => show win0_9.index _ (2 : Fin 3) * 64 ≤ (i 2).val ∧ (i 2).val < win0_9.index _ (2 : Fin 3) * 64 + 64; rw [idx9_2]; omega

/-- The result arrays after the run. -/
theorem final8 (c : Dev nD) : (dats m 0 c).arrAt 8 cfg0.N = G0 m c :=
  (dats m 0 c).arrAt_eq_of_cover 8 (G0 m c) (fun t hf => flushed8_eq m c t hf) (cover8)
theorem final9 (c : Dev nD) : (dats m 0 c).arrAt 9 cfg0.N = G1 m c :=
  (dats m 0 c).arrAt_eq_of_cover 9 (G1 m c) (fun t hf => flushed9_eq m c t hf) (cover9)

/-- The kernel's run, each result array named and the arguments unchanged. -/
theorem kernel_run : θ_run defs (onTc (τ := τ) (main (F := Ideal))) ⟨m, fun _ => 0, ρ⟩ (fun r => ∀ c : Dev nD,
      r.2.mem ((c.tc : Thread nD τ).loc main_v5_0) = G0 m c
      ∧ r.2.mem ((c.tc : Thread nD τ).loc main_v5_1) = G1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 8).trans (final8 m c), ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.KernelIdeal.Tiles

end
-- ==== Proof.RefStages.lean ====
/-
  The reference's 96 operations in five stretches, each read as ONE function of what it finds:
    A  the two source-side count tables (source ids against source ids, against destination ids), stacked as two channels;
    B  the two destination-side count tables, stacked likewise;
    C  the two stacks masked at the padding positions;
    D  the encoder of the masked source-side stack: result 0;
    E  the encoder of the masked destination-side stack: result 1.
  A stretch writes only its own buffers, so what an earlier stretch left and the argument arrays pass through the later ones.
-/
import proofs.«133724_j1889785610787_1_alg».proof.Proof.RefRun

set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev segA : List (HloOp τ sig (Elt F)) :=
  [ unary main_arg0 main_v0 (broadcastInDim S64x1024x1 ![0, 1] bcast_S64x1024_S64x1024x1_0_1 : (⟨S64x1024, .i32⟩ : BufTy).Contents (Elt F) → (⟨S64x1024x1, .i32⟩ : BufTy).Contents (Elt F)),
    unary main_arg0 main_v1 (broadcastInDim S64x1x1024 ![0, 2] bcast_S64x1024_S64x1x1024_0_2 : (⟨S64x1024, .i32⟩ : BufTy).Contents (Elt F) → (⟨S64x1x1024, .i32⟩ : BufTy).Contents (Elt F)),
    unary main_v0 main_v2 (broadcastInDim S64x1024x1024 ![0, 1, 2] bcast_S64x1024x1_S64x1024x1024_0_1_2 : (⟨S64x1024x1, .i32⟩ : BufTy).Contents (Elt F) → (⟨S64x1024x1024, .i32⟩ : BufTy).Contents (Elt F)),
    unary main_v1 main_v3 (broadcastInDim S64x1024x1024 ![0, 1, 2] bcast_S64x1x1024_S64x1024x1024_0_1_2 : (⟨S64x1x1024, .i32⟩ : BufTy).Contents (Elt F) → (⟨S64x1024x1024, .i32⟩ : BufTy).Contents (Elt F)),
    binary main_v2 main_v3 main_v4 (cmpi .eq : (⟨S64x1024x1024, .i32⟩ : BufTy).Contents (Elt F) → (⟨S64x1024x1024, .i32⟩ : BufTy).Contents (Elt F) → (⟨S64x1024x1024, .i1⟩ : BufTy).Contents (Elt F)),
    unary main_v4 main_v5 ((extui 32 · natLt_1_32) : (⟨S64x1024x1024, .i1⟩ : BufTy).Contents (Elt F) → (⟨S64x1024x1024, .i32⟩ : BufTy).Contents (Elt F)),
    nullary main_c (constantI S_ 32 0#32),
    binary main_v5 main_c main_v6 ((fun x v => Host.reduce IntOp.addi x v reducesTo_S64x1024x1024_S64x1024_d2 h_S_) : (⟨S64x1024x1024, .i32⟩ : BufTy).Contents (Elt F) → (⟨S_, .i32⟩ : BufTy).Contents (Elt F) → (⟨S64x1024, .i32⟩ : BufTy).Contents (Elt F)),
    unary main_v6 main_v7 (sitofp .f32 : (⟨S64x1024, .i32⟩ : BufTy).Contents (Elt F) → (⟨S64x1024, .f32⟩ : BufTy).Contents (Elt F)),
    unary main_arg0 main_v8 (broadcastInDim S64x1024x1 ![0, 1] bcast_S64x1024_S64x1024x1_0_1 : (⟨S64x1024, .i32⟩ : BufTy).Contents (Elt F) → (⟨S64x1024x1, .i32⟩ : BufTy).Contents (Elt F)),
    unary main_arg1 main_v9 (broadcastInDim S64x1x1024 ![0, 2] bcast_S64x1024_S64x1x1024_0_2 : (⟨S64x1024, .i32⟩ : BufTy).Contents (Elt F) → (⟨S64x1x1024, .i32⟩ : BufTy).Contents (Elt F)),
    unary main_v8 main_v10 (broadcastInDim S64x1024x1024 ![0, 1, 2] bcast_S64x1024x1_S64x1024x1024_0_1_2 : (⟨S64x1024x1, .i32⟩ : BufTy).Contents (Elt F) → (⟨S64x1024x1024, .i32⟩ : BufTy).Contents (Elt F)),
    unary main_v9 main_v11 (broadcastInDim S64x1024x1024 ![0, 1, 2] bcast_S64x1x1024_S64x1024x1024_0_1_2 : (⟨S64x1x1024, .i32⟩ : BufTy).Contents (Elt F) → (⟨S64x1024x1024, .i32⟩ : BufTy).Contents (Elt F)),
    binary main_v10 main_v11 main_v12 (cmpi .eq : (⟨S64x1024x1024, .i32⟩ : BufTy).Contents (Elt F) → (⟨S64x1024x1024, .i32⟩ : BufTy).Contents (Elt F) → (⟨S64x1024x1024, .i1⟩ : BufTy).Contents (Elt F)),
    unary main_v12 main_v13 ((extui 32 · natLt_1_32) : (⟨S64x1024x1024, .i1⟩ : BufTy).Contents (Elt F) → (⟨S64x1024x1024, .i32⟩ : BufTy).Contents (Elt F)),
    nullary main_c_0 (constantI S_ 32 0#32),
    binary main_v13 main_c_0 main_v14 ((fun x v => Host.reduce IntOp.addi x v reducesTo_S64x1024x1024_S64x1024_d2 h_S_) : (⟨S64x1024x1024, .i32⟩ : BufTy).Contents (Elt F) → (⟨S_, .i32⟩ : BufTy).Contents (Elt F) → (⟨S64x1024, .i32⟩ : BufTy).Contents (Elt F)),
    unary main_v14 main_v15 (sitofp .f32 : (⟨S64x1024, .i32⟩ : BufTy).Contents (Elt F) → (⟨S64x1024, .f32⟩ : BufTy).Contents (Elt F)),
    unary main_v7 main_v16 (broadcastInDim S64x1024x1 ![0, 1] bcast_S64x1024_S64x1024x1_0_1 : (⟨S64x1024, .f32⟩ : BufTy).Contents (Elt F) → (⟨S64x1024x1, .f32⟩ : BufTy).Contents (Elt F)),
    unary main_v15 main_v17 (broadcastInDim S64x1024x1 ![0, 1] bcast_S64x1024_S64x1024x1_0_1 : (⟨S64x1024, .f32⟩ : BufTy).Contents (Elt F) → (⟨S64x1024x1, .f32⟩ : BufTy).Contents (Elt F)),
    binary main_v16 main_v17 main_v18 ((fun a b => concatenate S64x1024x2 2 [⟨S64x1024x1, a⟩, ⟨S64x1024x1, b⟩] concatenates_S64x1024x1_S64x1024x1_S64x1024x2_d2) : (⟨S64x1024x1, .f32⟩ : BufTy).Contents (Elt F) → (⟨S64x1024x1, .f32⟩ : BufTy).Contents (Elt F) → (⟨S64x1024x2, .f32⟩ : BufTy).Contents (Elt F)) ]
abbrev segB : List (HloOp τ sig (Elt F)) :=
  [ unary main_arg1 main_v19 (broadcastInDim S64x1024x1 ![0, 1] bcast_S64x1024_S64x1024x1_0_1 : (⟨S64x1024, .i32⟩ : BufTy).Contents (Elt F) → (⟨S64x1024x1, .i32⟩ : BufTy).Contents (Elt F)),
    unary main_arg0 main_v20 (broadcastInDim S64x1x1024 ![0, 2] bcast_S64x1024_S64x1x1024_0_2 : (⟨S64x1024, .i32⟩ : BufTy).Contents (Elt F) → (⟨S64x1x1024, .i32⟩ : BufTy).Contents (Elt F)),
    unary main_v19 main_v21 (broadcastInDim S64x1024x1024 ![0, 1, 2] bcast_S64x1024x1_S64x1024x1024_0_1_2 : (⟨S64x1024x1, .i32⟩ : BufTy).Contents (Elt F) → (⟨S64x1024x1024, .i32⟩ : BufTy).Contents (Elt F)),
    unary main_v20 main_v22 (broadcastInDim S64x1024x1024 ![0, 1, 2] bcast_S64x1x1024_S64x1024x1024_0_1_2 : (⟨S64x1x1024, .i32⟩ : BufTy).Contents (Elt F) → (⟨S64x1024x1024, .i32⟩ : BufTy).Contents (Elt F)),
    binary main_v21 main_v22 main_v23 (cmpi .eq : (⟨S64x1024x1024, .i32⟩ : BufTy).Contents (Elt F) → (⟨S64x1024x1024, .i32⟩ : BufTy).Contents (Elt F) → (⟨S64x1024x1024, .i1⟩ : BufTy).Contents (Elt F)),
    unary main_v23 main_v24 ((extui 32 · natLt_1_32) : (⟨S64x1024x1024, .i1⟩ : BufTy).Contents (Elt F) → (⟨S64x1024x1024, .i32⟩ : BufTy).Contents (Elt F)),
    nullary main_c_1 (constantI S_ 32 0#32),
    binary main_v24 main_c_1 main_v25 ((fun x v => Host.reduce IntOp.addi x v reducesTo_S64x1024x1024_S64x1024_d2 h_S_) : (⟨S64x1024x1024, .i32⟩ : BufTy).Contents (Elt F) → (⟨S_, .i32⟩ : BufTy).Contents (Elt F) → (⟨S64x1024, .i32⟩ : BufTy).Contents (Elt F)),
    unary main_v25 main_v26 (sitofp .f32 : (⟨S64x1024, .i32⟩ : BufTy).Contents (Elt F) → (⟨S64x1024, .f32⟩ : BufTy).Contents (Elt F)),
    unary main_arg1 main_v27 (broadcastInDim S64x1024x1 ![0, 1] bcast_S64x1024_S64x1024x1_0_1 : (⟨S64x1024, .i32⟩ : BufTy).Contents (Elt F) → (⟨S64x1024x1, .i32⟩ : BufTy).Contents (Elt F)),
    unary main_arg1 main_v28 (broadcastInDim S64x1x1024 ![0, 2] bcast_S64x1024_S64x1x1024_0_2 : (⟨S64x1024, .i32⟩ : BufTy).Contents (Elt F) → (⟨S64x1x1024, .i32⟩ : BufTy).Contents (Elt F)),
    unary main_v27 main_v29 (broadcastInDim S64x1024x1024 ![0, 1, 2] bcast_S64x1024x1_S64x1024x1024_0_1_2 : (⟨S64x1024x1, .i32⟩ : BufTy).Contents (Elt F) → (⟨S64x1024x1024, .i32⟩ : BufTy).Contents (Elt F)),
    unary main_v28 main_v30 (broadcastInDim S64x1024x1024 ![0, 1, 2] bcast_S64x1x1024_S64x1024x1024_0_1_2 : (⟨S64x1x1024, .i32⟩ : BufTy).Contents (Elt F) → (⟨S64x1024x1024, .i32⟩ : BufTy).Contents (Elt F)),
    binary main_v29 main_v30 main_v31 (cmpi .eq : (⟨S64x1024x1024, .i32⟩ : BufTy).Contents (Elt F) → (⟨S64x1024x1024, .i32⟩ : BufTy).Contents (Elt F) → (⟨S64x1024x1024, .i1⟩ : BufTy).Contents (Elt F)),
    unary main_v31 main_v32 ((extui 32 · natLt_1_32) : (⟨S64x1024x1024, .i1⟩ : BufTy).Contents (Elt F) → (⟨S64x1024x1024, .i32⟩ : BufTy).Contents (Elt F)),
    nullary main_c_2 (constantI S_ 32 0#32),
    binary main_v32 main_c_2 main_v33 ((fun x v => Host.reduce IntOp.addi x v reducesTo_S64x1024x1024_S64x1024_d2 h_S_) : (⟨S64x1024x1024, .i32⟩ : BufTy).Contents (Elt F) → (⟨S_, .i32⟩ : BufTy).Contents (Elt F) → (⟨S64x1024, .i32⟩ : BufTy).Contents (Elt F)),
    unary main_v33 main_v34 (sitofp .f32 : (⟨S64x1024, .i32⟩ : BufTy).Contents (Elt F) → (⟨S64x1024, .f32⟩ : BufTy).Contents (Elt F)),
    unary main_v26 main_v35 (broadcastInDim S64x1024x1 ![0, 1] bcast_S64x1024_S64x1024x1_0_1 : (⟨S64x1024, .f32⟩ : BufTy).Contents (Elt F) → (⟨S64x1024x1, .f32⟩ : BufTy).Contents (Elt F)),
    unary main_v34 main_v36 (broadcastInDim S64x1024x1 ![0, 1] bcast_S64x1024_S64x1024x1_0_1 : (⟨S64x1024, .f32⟩ : BufTy).Contents (Elt F) → (⟨S64x1024x1, .f32⟩ : BufTy).Contents (Elt F)),
    binary main_v35 main_v36 main_v37 ((fun a b => concatenate S64x1024x2 2 [⟨S64x1024x1, a⟩, ⟨S64x1024x1, b⟩] concatenates_S64x1024x1_S64x1024x1_S64x1024x2_d2) : (⟨S64x1024x1, .f32⟩ : BufTy).Contents (Elt F) → (⟨S64x1024x1, .f32⟩ : BufTy).Contents (Elt F) → (⟨S64x1024x2, .f32⟩ : BufTy).Contents (Elt F)) ]
abbrev segC : List (HloOp τ sig (Elt F)) :=
  [ nullary main_c_3 (constantI S_ 32 0#32),
    unary main_c_3 main_v38 (broadcastInDim S64x1024 ![] bcast_S_S64x1024 : (⟨S_, .i32⟩ : BufTy).Contents (Elt F) → (⟨S64x1024, .i32⟩ : BufTy).Contents (Elt F)),
    binary main_arg0 main_v38 main_v39 (cmpi .eq : (⟨S64x1024, .i32⟩ : BufTy).Contents (Elt F) → (⟨S64x1024, .i32⟩ : BufTy).Contents (Elt F) → (⟨S64x1024, .i1⟩ : BufTy).Contents (Elt F)),
    unary main_v39 main_v40 (broadcastInDim S64x1024x1 ![0, 1] bcast_S64x1024_S64x1024x1_0_1 : (⟨S64x1024, .i1⟩ : BufTy).Contents (Elt F) → (⟨S64x1024x1, .i1⟩ : BufTy).Contents (Elt F)),
    nullary main_cst (constant S_ .f32 0x00000000#32),
    TRef.unary (TRef.of (T := ⟨S_, .f32⟩) main_cst) (TRef.of (T := ⟨S_, .f32⟩) main_call0_v0) id,
    TRef.unary (TRef.of (T := ⟨S64x1024x1, .i1⟩) main_v40) (TRef.of (T := ⟨S64x1024x2, .i1⟩) main_call0_v1) (broadcastInDim S64x1024x2 ![0, 1, 2] bcast_S64x1024x1_S64x1024x2_0_1_2),
    TRef.unary (TRef.of (T := ⟨S_, .f32⟩) main_call0_v0) (TRef.of (T := ⟨S64x1024x2, .f32⟩) main_call0_v2) (broadcastInDim S64x1024x2 ![] bcast_S_S64x1024x2),
    TRef.ternary (TRef.of (T := ⟨S64x1024x2, .i1⟩) main_call0_v1) (TRef.of (T := ⟨S64x1024x2, .f32⟩) main_call0_v2) (TRef.of (T := ⟨S64x1024x2, .f32⟩) main_v18) (TRef.of (T := ⟨S64x1024x2, .f32⟩) main_v41) select,
    nullary main_c_4 (constantI S_ 32 0#32),
    unary main_c_4 main_v42 (broadcastInDim S64x1024 ![] bcast_S_S64x1024 : (⟨S_, .i32⟩ : BufTy).Contents (Elt F) → (⟨S64x1024, .i32⟩ : BufTy).Contents (Elt F)),
    binary main_arg1 main_v42 main_v43 (cmpi .eq : (⟨S64x1024, .i32⟩ : BufTy).Contents (Elt F) → (⟨S64x1024, .i32⟩ : BufTy).Contents (Elt F) → (⟨S64x1024, .i1⟩ : BufTy).Contents (Elt F)),
    unary main_v43 main_v44 (broadcastInDim S64x1024x1 ![0, 1] bcast_S64x1024_S64x1024x1_0_1 : (⟨S64x1024, .i1⟩ : BufTy).Contents (Elt F) → (⟨S64x1024x1, .i1⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S64x1024x1, .i1⟩) main_v44) (TRef.of (T := ⟨S64x1024x2, .i1⟩) main_call1_v1) (broadcastInDim S64x1024x2 ![0, 1, 2] bcast_S64x1024x1_S64x1024x2_0_1_2),
    TRef.unary (TRef.of (T := ⟨S_, .f32⟩) main_call1_v0) (TRef.of (T := ⟨S64x1024x2, .f32⟩) main_call1_v2) (broadcastInDim S64x1024x2 ![] bcast_S_S64x1024x2),
    TRef.ternary (TRef.of (T := ⟨S64x1024x2, .i1⟩) main_call1_v1) (TRef.of (T := ⟨S64x1024x2, .f32⟩) main_call1_v2) (TRef.of (T := ⟨S64x1024x2, .f32⟩) main_v37) (TRef.of (T := ⟨S64x1024x2, .f32⟩) main_v45) select ]
abbrev segD : List (HloOp τ sig (Elt F)) :=
  [ unary main_v41 main_v46 (broadcastInDim S64x1024x2x1 ![0, 1, 2] bcast_S64x1024x2_S64x1024x2x1_0_1_2 : (⟨S64x1024x2, .f32⟩ : BufTy).Contents (Elt F) → (⟨S64x1024x2x1, .f32⟩ : BufTy).Contents (Elt F)),
    reshape main_arg2 main_v47 rfl shapeCasts_S64x1_S64,
    unary main_v47 main_v48 (broadcastInDim S1x1x1x64 ![3] bcast_S64_S1x1x1x64_3 : (⟨S64, .f32⟩ : BufTy).Contents (Elt F) → (⟨S1x1x1x64, .f32⟩ : BufTy).Contents (Elt F)),
    unary main_v46 main_v49 (broadcastInDim S64x1024x2x64 ![0, 1, 2, 3] bcast_S64x1024x2x1_S64x1024x2x64_0_1_2_3 : (⟨S64x1024x2x1, .f32⟩ : BufTy).Contents (Elt F) → (⟨S64x1024x2x64, .f32⟩ : BufTy).Contents (Elt F)),
    unary main_v48 main_v50 (broadcastInDim S64x1024x2x64 ![0, 1, 2, 3] bcast_S1x1x1x64_S64x1024x2x64_0_1_2_3 : (⟨S1x1x1x64, .f32⟩ : BufTy).Contents (Elt F) → (⟨S64x1024x2x64, .f32⟩ : BufTy).Contents (Elt F)),
    binary main_v49 main_v50 main_v51 (mulf : (⟨S64x1024x2x64, .f32⟩ : BufTy).Contents (Elt F) → (⟨S64x1024x2x64, .f32⟩ : BufTy).Contents (Elt F) → (⟨S64x1024x2x64, .f32⟩ : BufTy).Contents (Elt F)),
    unary main_arg3 main_v52 (broadcastInDim S1x1x1x64 ![3] bcast_S64_S1x1x1x64_3 : (⟨S64, .f32⟩ : BufTy).Contents (Elt F) → (⟨S1x1x1x64, .f32⟩ : BufTy).Contents (Elt F)),
    unary main_v52 main_v53 (broadcastInDim S64x1024x2x64 ![0, 1, 2, 3] bcast_S1x1x1x64_S64x1024x2x64_0_1_2_3 : (⟨S1x1x1x64, .f32⟩ : BufTy).Contents (Elt F) → (⟨S64x1024x2x64, .f32⟩ : BufTy).Contents (Elt F)),
    binary main_v51 main_v53 main_v54 (addf : (⟨S64x1024x2x64, .f32⟩ : BufTy).Contents (Elt F) → (⟨S64x1024x2x64, .f32⟩ : BufTy).Contents (Elt F) → (⟨S64x1024x2x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S64x1024x2x64, .f32⟩) main_call2_v0) (broadcastInDim S64x1024x2x64 ![] bcast_S_S64x1024x2x64),
    TRef.binary (TRef.of (T := ⟨S64x1024x2x64, .f32⟩) main_v54) (TRef.of (T := ⟨S64x1024x2x64, .f32⟩) main_call2_v0) (TRef.of (T := ⟨S64x1024x2x64, .f32⟩) main_v55) maximumf,
    binary main_v55 main_arg4 main_v56 ((fun l r => Host.dotGeneral dot_S64x1024x2x64_S64x64_S64x1024x2x64_3_1_012_0_n_n none l r) : (⟨S64x1024x2x64, .f32⟩ : BufTy).Contents (Elt F) → (⟨S64x64, .f32⟩ : BufTy).Contents (Elt F) → (⟨S64x1024x2x64, .f32⟩ : BufTy).Contents (Elt F)),
    unary main_arg5 main_v57 (broadcastInDim S1x1x1x64 ![3] bcast_S64_S1x1x1x64_3 : (⟨S64, .f32⟩ : BufTy).Contents (Elt F) → (⟨S1x1x1x64, .f32⟩ : BufTy).Contents (Elt F)),
    unary main_v57 main_v58 (broadcastInDim S64x1024x2x64 ![0, 1, 2, 3] bcast_S1x1x1x64_S64x1024x2x64_0_1_2_3 : (⟨S1x1x1x64, .f32⟩ : BufTy).Contents (Elt F) → (⟨S64x1024x2x64, .f32⟩ : BufTy).Contents (Elt F)),
    binary main_v56 main_v58 main_v59 (addf : (⟨S64x1024x2x64, .f32⟩ : BufTy).Contents (Elt F) → (⟨S64x1024x2x64, .f32⟩ : BufTy).Contents (Elt F) → (⟨S64x1024x2x64, .f32⟩ : BufTy).Contents (Elt F)),
    nullary main_cst_6 (constant S_ .f32 0x00000000#32),
    binary main_v59 main_cst_6 main_v60 ((fun x v => Host.reduceAdd x v reducesTo_S64x1024x2x64_S64x1024x64_d2 h_S_) : (⟨S64x1024x2x64, .f32⟩ : BufTy).Contents (Elt F) → (⟨S_, .f32⟩ : BufTy).Contents (Elt F) → (⟨S64x1024x64, .f32⟩ : BufTy).Contents (Elt F)) ]
abbrev segE : List (HloOp τ sig (Elt F)) :=
  [ unary main_v45 main_v61 (broadcastInDim S64x1024x2x1 ![0, 1, 2] bcast_S64x1024x2_S64x1024x2x1_0_1_2 : (⟨S64x1024x2, .f32⟩ : BufTy).Contents (Elt F) → (⟨S64x1024x2x1, .f32⟩ : BufTy).Contents (Elt F)),
    reshape main_arg2 main_v62 rfl shapeCasts_S64x1_S64,
    unary main_v62 main_v63 (broadcastInDim S1x1x1x64 ![3] bcast_S64_S1x1x1x64_3 : (⟨S64, .f32⟩ : BufTy).Contents (Elt F) → (⟨S1x1x1x64, .f32⟩ : BufTy).Contents (Elt F)),
    unary main_v61 main_v64 (broadcastInDim S64x1024x2x64 ![0, 1, 2, 3] bcast_S64x1024x2x1_S64x1024x2x64_0_1_2_3 : (⟨S64x1024x2x1, .f32⟩ : BufTy).Contents (Elt F) → (⟨S64x1024x2x64, .f32⟩ : BufTy).Contents (Elt F)),
    unary main_v63 main_v65 (broadcastInDim S64x1024x2x64 ![0, 1, 2, 3] bcast_S1x1x1x64_S64x1024x2x64_0_1_2_3 : (⟨S1x1x1x64, .f32⟩ : BufTy).Contents (Elt F) → (⟨S64x1024x2x64, .f32⟩ : BufTy).Contents (Elt F)),
    binary main_v64 main_v65 main_v66 (mulf : (⟨S64x1024x2x64, .f32⟩ : BufTy).Contents (Elt F) → (⟨S64x1024x2x64, .f32⟩ : BufTy).Contents (Elt F) → (⟨S64x1024x2x64, .f32⟩ : BufTy).Contents (Elt F)),
    unary main_arg3 main_v67 (broadcastInDim S1x1x1x64 ![3] bcast_S64_S1x1x1x64_3 : (⟨S64, .f32⟩ : BufTy).Contents (Elt F) → (⟨S1x1x1x64, .f32⟩ : BufTy).Contents (Elt F)),
    unary main_v67 main_v68 (broadcastInDim S64x1024x2x64 ![0, 1, 2, 3] bcast_S1x1x1x64_S64x1024x2x64_0_1_2_3 : (⟨S1x1x1x64, .f32⟩ : BufTy).Contents (Elt F) → (⟨S64x1024x2x64, .f32⟩ : BufTy).Contents (Elt F)),
    binary main_v66 main_v68 main_v69 (addf : (⟨S64x1024x2x64, .f32⟩ : BufTy).Contents (Elt F) → (⟨S64x1024x2x64, .f32⟩ : BufTy).Contents (Elt F) → (⟨S64x1024x2x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S64x1024x2x64, .f32⟩) main_call3_v0) (broadcastInDim S64x1024x2x64 ![] bcast_S_S64x1024x2x64),
    TRef.binary (TRef.of (T := ⟨S64x1024x2x64, .f32⟩) main_v69) (TRef.of (T := ⟨S64x1024x2x64, .f32⟩) main_call3_v0) (TRef.of (T := ⟨S64x1024x2x64, .f32⟩) main_v70) maximumf,
    binary main_v70 main_arg4 main_v71 ((fun l r => Host.dotGeneral dot_S64x1024x2x64_S64x64_S64x1024x2x64_3_1_012_0_n_n none l r) : (⟨S64x1024x2x64, .f32⟩ : BufTy).Contents (Elt F) → (⟨S64x64, .f32⟩ : BufTy).Contents (Elt F) → (⟨S64x1024x2x64, .f32⟩ : BufTy).Contents (Elt F)),
    unary main_arg5 main_v72 (broadcastInDim S1x1x1x64 ![3] bcast_S64_S1x1x1x64_3 : (⟨S64, .f32⟩ : BufTy).Contents (Elt F) → (⟨S1x1x1x64, .f32⟩ : BufTy).Contents (Elt F)),
    unary main_v72 main_v73 (broadcastInDim S64x1024x2x64 ![0, 1, 2, 3] bcast_S1x1x1x64_S64x1024x2x64_0_1_2_3 : (⟨S1x1x1x64, .f32⟩ : BufTy).Contents (Elt F) → (⟨S64x1024x2x64, .f32⟩ : BufTy).Contents (Elt F)),
    binary main_v71 main_v73 main_v74 (addf : (⟨S64x1024x2x64, .f32⟩ : BufTy).Contents (Elt F) → (⟨S64x1024x2x64, .f32⟩ : BufTy).Contents (Elt F) → (⟨S64x1024x2x64, .f32⟩ : BufTy).Contents (Elt F)),
    nullary main_cst_7 (constant S_ .f32 0x00000000#32),
    binary main_v74 main_cst_7 main_v75 ((fun x v => Host.reduceAdd x v reducesTo_S64x1024x2x64_S64x1024x64_d2 h_S_) : (⟨S64x1024x2x64, .f32⟩ : BufTy).Contents (Elt F) → (⟨S_, .f32⟩ : BufTy).Contents (Elt F) → (⟨S64x1024x64, .f32⟩ : BufTy).Contents (Elt F)) ]

theorem ops_split : (ops (F := F)) = segA ++ (segB ++ (segC ++ (segD ++ segE))) := rfl

theorem after_app (l₁ l₂ : List (HloOp τ sig (Elt F))) (V : Valuation τ sig (Elt F)) : after (l₁ ++ l₂) V = after l₂ (after l₁ V) := by
  induction l₁ generalizing V with
  | nil => rfl
  | cons op l ih => exact ih _

/-! ## The stretches' functions -/

/-- A count table: at (R, l), the integer number of the keys of row R of `b` equal to the id of `a` at (R, l), converted. -/
def cntStage (a b : (⟨S64x1024, .i32⟩ : BufTy).Contents (Elt F)) : (⟨S64x1024, .f32⟩ : BufTy).Contents (Elt F) :=
  sitofp .f32 (Host.reduce IntOp.addi (extui 32 (cmpi .eq
      (broadcastInDim S64x1024x1024 ![0, 1, 2] bcast_S64x1024x1_S64x1024x1024_0_1_2 (broadcastInDim S64x1024x1 ![0, 1] bcast_S64x1024_S64x1024x1_0_1 a))
      (broadcastInDim S64x1024x1024 ![0, 1, 2] bcast_S64x1x1024_S64x1024x1024_0_1_2 (broadcastInDim S64x1x1024 ![0, 2] bcast_S64x1024_S64x1x1024_0_2 b))) natLt_1_32)
    (constantI S_ 32 0#32) reducesTo_S64x1024x1024_S64x1024_d2 h_S_)

/-- Two count tables stacked as two channels. -/
def stackStage (c0 c1 : (⟨S64x1024, .f32⟩ : BufTy).Contents (Elt F)) : (⟨S64x1024x2, .f32⟩ : BufTy).Contents (Elt F) :=
  concatenate S64x1024x2 2 [⟨S64x1024x1, broadcastInDim S64x1024x1 ![0, 1] bcast_S64x1024_S64x1024x1_0_1 c0⟩,
    ⟨S64x1024x1, broadcastInDim S64x1024x1 ![0, 1] bcast_S64x1024_S64x1024x1_0_1 c1⟩] concatenates_S64x1024x1_S64x1024x1_S64x1024x2_d2

/-- A stack masked where the id is zero. -/
def maskStage (a : (⟨S64x1024, .i32⟩ : BufTy).Contents (Elt F)) (app : (⟨S64x1024x2, .f32⟩ : BufTy).Contents (Elt F)) :
    (⟨S64x1024x2, .f32⟩ : BufTy).Contents (Elt F) :=
  select (broadcastInDim S64x1024x2 ![0, 1, 2] bcast_S64x1024x1_S64x1024x2_0_1_2 (broadcastInDim S64x1024x1 ![0, 1] bcast_S64x1024_S64x1024x1_0_1
      (cmpi .eq a (broadcastInDim S64x1024 ![] bcast_S_S64x1024 (constantI S_ 32 0#32)))))
    (broadcastInDim S64x1024x2 ![] bcast_S_S64x1024x2 (id (constant S_ .f32 0x00000000#32))) app

/-- The encoder of a masked stack: per channel the first layer, the contraction with W2 and the bias; the channels summed. -/
def encStage (msk : (⟨S64x1024x2, .f32⟩ : BufTy).Contents (Elt F)) (w1 : (⟨S64x1, .f32⟩ : BufTy).Contents (Elt F)) (b1 : (⟨S64, .f32⟩ : BufTy).Contents (Elt F))
    (W2 : (⟨S64x64, .f32⟩ : BufTy).Contents (Elt F)) (b2 : (⟨S64, .f32⟩ : BufTy).Contents (Elt F)) : (⟨S64x1024x64, .f32⟩ : BufTy).Contents (Elt F) :=
  Host.reduceAdd (addf (Host.dotGeneral dot_S64x1024x2x64_S64x64_S64x1024x2x64_3_1_012_0_n_n none
      (maximumf (addf (mulf (broadcastInDim S64x1024x2x64 ![0, 1, 2, 3] bcast_S64x1024x2x1_S64x1024x2x64_0_1_2_3 (broadcastInDim S64x1024x2x1 ![0, 1, 2] bcast_S64x1024x2_S64x1024x2x1_0_1_2 msk))
            (broadcastInDim S64x1024x2x64 ![0, 1, 2, 3] bcast_S1x1x1x64_S64x1024x2x64_0_1_2_3 (broadcastInDim S1x1x1x64 ![3] bcast_S64_S1x1x1x64_3 (shapeCast _ w1 shapeCasts_S64x1_S64))))
          (broadcastInDim S64x1024x2x64 ![0, 1, 2, 3] bcast_S1x1x1x64_S64x1024x2x64_0_1_2_3 (broadcastInDim S1x1x1x64 ![3] bcast_S64_S1x1x1x64_3 b1)))
        (broadcastInDim S64x1024x2x64 ![] bcast_S_S64x1024x2x64 (constant S_ .f32 0x00000000#32))) W2)
      (broadcastInDim S64x1024x2x64 ![0, 1, 2, 3] bcast_S1x1x1x64_S64x1024x2x64_0_1_2_3 (broadcastInDim S1x1x1x64 ![3] bcast_S64_S1x1x1x64_3 b2)))
    (constant S_ .f32 0x00000000#32) reducesTo_S64x1024x2x64_S64x1024x64_d2 h_S_

/-! ## What each stretch leaves -/

theorem segA_v18 (W : Valuation τ sig (Elt F)) : after (segA (F := F)) W (Proc.devRef .tc main_v18)
    = stackStage (cntStage (W (Proc.devRef .tc main_arg0)) (W (Proc.devRef .tc main_arg0))) (cntStage (W (Proc.devRef .tc main_arg0)) (W (Proc.devRef .tc main_arg1))) := by
  after_results; rfl
theorem segB_v37 (W : Valuation τ sig (Elt F)) : after (segB (F := F)) W (Proc.devRef .tc main_v37)
    = stackStage (cntStage (W (Proc.devRef .tc main_arg1)) (W (Proc.devRef .tc main_arg0))) (cntStage (W (Proc.devRef .tc main_arg1)) (W (Proc.devRef .tc main_arg1))) := by
  after_results; rfl
theorem segC_v41 (W : Valuation τ sig (Elt F)) : after (segC (F := F)) W (Proc.devRef .tc main_v41)
    = maskStage (W (Proc.devRef .tc main_arg0)) (W (Proc.devRef .tc main_v18)) := by
  after_results; rfl
theorem segC_v45 (W : Valuation τ sig (Elt F)) : after (segC (F := F)) W (Proc.devRef .tc main_v45)
    = maskStage (W (Proc.devRef .tc main_arg1)) (W (Proc.devRef .tc main_v37)) := by
  after_results; rfl
set_option maxHeartbeats 8000000 in
theorem segD_v60 (W : Valuation τ sig (Elt F)) : after (segD (F := F)) W (Proc.devRef .tc main_v60)
    = encStage (W (Proc.devRef .tc main_v41)) (W (Proc.devRef .tc main_arg2)) (W (Proc.devRef .tc main_arg3)) (W (Proc.devRef .tc main_arg4)) (W (Proc.devRef .tc main_arg5)) := by
  first | (after_results_simp; rfl) | after_results_simp | (after_results; rfl)
set_option maxHeartbeats 8000000 in
theorem segE_v75 (W : Valuation τ sig (Elt F)) : after (segE (F := F)) W (Proc.devRef .tc main_v75)
    = encStage (W (Proc.devRef .tc main_v45)) (W (Proc.devRef .tc main_arg2)) (W (Proc.devRef .tc main_arg3)) (W (Proc.devRef .tc main_arg4)) (W (Proc.devRef .tc main_arg5)) := by
  first | (after_results_simp; rfl) | after_results_simp | (after_results; rfl)

/-- A buffer a stretch does not write passes through it. -/
theorem pass (l : List (HloOp τ sig (Elt F))) (W : Valuation τ sig (Elt F)) (b : Ref sig .tc)
    (h : l.Forall fun op => Proc.devRef .tc b ∉ op.writes) : after l W (Proc.devRef .tc b) = W (Proc.devRef .tc b) :=
  after_of_forall_not_mem (b := Proc.devRef .tc b) l W (List.forall_iff_forall_mem.mp h)

macro "not_written" : tactic => `(tactic| (
  simp only [List.Forall, nullary_writes, unary_writes, binary_writes, ternary_writes, quaternary_writes, reshape_writes, binaryIndexed_writes, Finset.mem_singleton]
  repeat' apply And.intro
  all_goals exact devRef_ne_of_ne (by decide)))

/-- Result 0 and result 1 after the whole line, from the launch contents. -/
theorem out0_eq (V : Valuation τ sig (Elt F)) : after (ops (F := F)) V (Proc.devRef .tc main_v60)
    = encStage (maskStage (V (Proc.devRef .tc main_arg0))
          (stackStage (cntStage (V (Proc.devRef .tc main_arg0)) (V (Proc.devRef .tc main_arg0))) (cntStage (V (Proc.devRef .tc main_arg0)) (V (Proc.devRef .tc main_arg1)))))
        (V (Proc.devRef .tc main_arg2)) (V (Proc.devRef .tc main_arg3)) (V (Proc.devRef .tc main_arg4)) (V (Proc.devRef .tc main_arg5)) := by
  rw [ops_split, after_app, after_app, after_app, after_app]
  rw [pass segE _ main_v60 (by not_written), segD_v60, segC_v41]
  rw [pass segC _ main_arg2 (by not_written), pass segC _ main_arg3 (by not_written), pass segC _ main_arg4 (by not_written), pass segC _ main_arg5 (by not_written)]
  rw [pass segB _ main_arg0 (by not_written), pass segB _ main_v18 (by not_written), pass segB _ main_arg2 (by not_written), pass segB _ main_arg3 (by not_written), pass segB _ main_arg4 (by not_written), pass segB _ main_arg5 (by not_written)]
  rw [segA_v18, pass segA _ main_arg0 (by not_written), pass segA _ main_arg2 (by not_written), pass segA _ main_arg3 (by not_written), pass segA _ main_arg4 (by not_written), pass segA _ main_arg5 (by not_written)]

theorem out1_eq (V : Valuation τ sig (Elt F)) : after (ops (F := F)) V (Proc.devRef .tc main_v75)
    = encStage (maskStage (V (Proc.devRef .tc main_arg1))
          (stackStage (cntStage (V (Proc.devRef .tc main_arg1)) (V (Proc.devRef .tc main_arg0))) (cntStage (V (Proc.devRef .tc main_arg1)) (V (Proc.devRef .tc main_arg1)))))
        (V (Proc.devRef .tc main_arg2)) (V (Proc.devRef .tc main_arg3)) (V (Proc.devRef .tc main_arg4)) (V (Proc.devRef .tc main_arg5)) := by
  rw [ops_split, after_app, after_app, after_app, after_app]
  rw [segE_v75]
  rw [pass segD _ main_v45 (by not_written), pass segD _ main_arg2 (by not_written), pass segD _ main_arg3 (by not_written), pass segD _ main_arg4 (by not_written), pass segD _ main_arg5 (by not_written)]
  rw [segC_v45, pass segC _ main_arg2 (by not_written), pass segC _ main_arg3 (by not_written), pass segC _ main_arg4 (by not_written), pass segC _ main_arg5 (by not_written)]
  rw [segB_v37, pass segB _ main_arg1 (by not_written), pass segB _ main_arg2 (by not_written), pass segB _ main_arg3 (by not_written), pass segB _ main_arg4 (by not_written), pass segB _ main_arg5 (by not_written)]
  rw [pass segA _ main_arg0 (by not_written), pass segA _ main_arg1 (by not_written), pass segA _ main_arg2 (by not_written), pass segA _ main_arg3 (by not_written), pass segA _ main_arg4 (by not_written), pass segA _ main_arg5 (by not_written)]

end Cert.ReferenceIdeal.RefRun

end
-- ==== Proof.RefRead.lean ====
/-
  The reference's stretches read at an index, at the ideal instance.
    · A count table at (R, l): the integer sum of the 0/1 equality bits over the 1024 keys is their number, which converts
      exactly — so it is the sum of the indicators.
    · The stack at (R, l, channel) is the channel's table at (R, l); the mask zeroes it where the id is 0.
    · The encoder at (R, l, e): the sum over the two channels (onto the zero it starts from) of the channel's contraction
      Σ_d max (c · W1[d,0] + b1 d) 0 · W2[e,d] plus b2 e.
-/
import proofs.«133724_j1889785610787_1_alg».proof.Proof.RefStages
import proofs.«133724_j1889785610787_1_alg».proof.Proof.CountSpec
import Idealize.ShloMosaic.Lib.Pipeline.Value
import Idealize.ShloMosaic.Lib.ValueIdx
import Idealize.ShloMosaic.Lib.ValueLayout
import Idealize.ShloMosaic.Lib.IdealHost
import Idealize.ShloMosaic.Lib.Affine
import Idealize.ShloMosaic.Lib.IndicatorCount
import Idealize.ShloMosaic.PureOps.Ideal.Laws

set_option maxRecDepth 65536

noncomputable section

namespace Cert.ReferenceIdeal.RefRun

open Cert.ReferenceIdeal Cert.ReferenceIdeal.Gen Cert.Cooccur
open Idealize.ShloMosaic Idealize.ShloMosaic.TcCoe Idealize.ShloMosaic.ValueIdx Idealize.SL.Sem

/-- A small word's signed reading is the number it was made from. -/
theorem toInt_ofNat_small (n : ℕ) (hn : n ≤ 1024) : (BitVec.ofNat 32 n).toInt = (n : ℤ) := by
  rw [BitVec.toInt_eq_toNat_of_lt (by rw [BitVec.toNat_ofNat]; omega), BitVec.toNat_ofNat]
  congr 1; omega

/-- The query id laid along the key axis, and the key ids laid along the query axis, at (R, l, k). -/
theorem queryTable_apply (a : S64x1024.Idx → BitVec 32) (R : Fin 64) (l k : Fin 1024) :
    broadcastInDim S64x1024x1024 ![0, 1, 2] bcast_S64x1024x1_S64x1024x1024_0_1_2 (broadcastInDim S64x1024x1 ![0, 1] bcast_S64x1024_S64x1024x1_0_1 a) (ix3 R l k)
      = a (ix2 R l) := by
  refine (broadcastInDim_apply _ _ _ (ix3 R l k) (ix3 R l (0 : Fin 1)) (fun ax => by
    match ax with
    | ⟨0, _⟩ => show R.val = if (64 : ℕ) = 1 then 0 else R.val; rw [if_neg (by decide)]
    | ⟨1, _⟩ => show l.val = if (1024 : ℕ) = 1 then 0 else l.val; rw [if_neg (by decide)]
    | ⟨2, _⟩ => show (0 : ℕ) = if (1 : ℕ) = 1 then 0 else k.val; rw [if_pos rfl])).trans ?_
  exact broadcastInDim_apply _ _ _ (ix3 R l (0 : Fin 1)) (ix2 R l) (fun ax => by
    match ax with
    | ⟨0, _⟩ => show R.val = if (64 : ℕ) = 1 then 0 else R.val; rw [if_neg (by decide)]
    | ⟨1, _⟩ => show l.val = if (1024 : ℕ) = 1 then 0 else l.val; rw [if_neg (by decide)])

theorem keyTable_apply (b : S64x1024.Idx → BitVec 32) (R : Fin 64) (l k : Fin 1024) :
    broadcastInDim S64x1024x1024 ![0, 1, 2] bcast_S64x1x1024_S64x1024x1024_0_1_2 (broadcastInDim S64x1x1024 ![0, 2] bcast_S64x1024_S64x1x1024_0_2 b) (ix3 R l k)
      = b (ix2 R k) := by
  refine (broadcastInDim_apply _ _ _ (ix3 R l k) (ix3 R (0 : Fin 1) k) (fun ax => by
    match ax with
    | ⟨0, _⟩ => show R.val = if (64 : ℕ) = 1 then 0 else R.val; rw [if_neg (by decide)]
    | ⟨1, _⟩ => show (0 : ℕ) = if (1 : ℕ) = 1 then 0 else l.val; rw [if_pos rfl]
    | ⟨2, _⟩ => show k.val = if (1024 : ℕ) = 1 then 0 else k.val; rw [if_neg (by decide)])).trans ?_
  exact broadcastInDim_apply _ _ _ (ix3 R (0 : Fin 1) k) (ix2 R k) (fun ax => by
    match ax with
    | ⟨0, _⟩ => show R.val = if (64 : ℕ) = 1 then 0 else R.val; rw [if_neg (by decide)]
    | ⟨1, _⟩ => show k.val = if (1024 : ℕ) = 1 then 0 else k.val; rw [if_neg (by decide)])

/-- The equality bits, widened to words, at (R, l, k). -/
theorem eqBits_apply (a b : S64x1024.Idx → BitVec 32) (R : Fin 64) (l k : Fin 1024) :
    (extui 32 (cmpi .eq (broadcastInDim S64x1024x1024 ![0, 1, 2] bcast_S64x1024x1_S64x1024x1024_0_1_2 (broadcastInDim S64x1024x1 ![0, 1] bcast_S64x1024_S64x1024x1_0_1 a)) (broadcastInDim S64x1024x1024 ![0, 1, 2] bcast_S64x1x1024_S64x1024x1024_0_1_2 (broadcastInDim S64x1x1024 ![0, 2] bcast_S64x1024_S64x1x1024_0_2 b))) natLt_1_32 : IVec S64x1024x1024 32) (ix3 R l k)
      = (IntOp.cmpi .eq (a (ix2 R l)) (b (ix2 R k))).setWidth 32 := by
  rw [extui_apply]
  show (IntOp.cmpi .eq ((broadcastInDim S64x1024x1024 ![0, 1, 2] bcast_S64x1024x1_S64x1024x1024_0_1_2 (broadcastInDim S64x1024x1 ![0, 1] bcast_S64x1024_S64x1024x1_0_1 a)) (ix3 R l k)) ((broadcastInDim S64x1024x1024 ![0, 1, 2] bcast_S64x1x1024_S64x1024x1024_0_1_2 (broadcastInDim S64x1x1024 ![0, 2] bcast_S64x1024_S64x1x1024_0_2 b)) (ix3 R l k))).setWidth 32 = _
  rw [queryTable_apply, keyTable_apply]

/-- A count table at (R, l) is the sum of the indicators over the keys. -/
theorem cntStage_apply (a b : S64x1024.Idx → BitVec 32) (R : Fin 64) (l : Fin 1024) :
    cntStage (F := Ideal) a b (ix2 R l) = ∑ j : Fin 1024, ind (a (ix2 R l)) (b (ix2 R j)) := by
  classical
  have hred : S64x1024x1024.Reduces [2] S64x1024 := by decide
  unfold cntStage
  rw [sitofp_apply, Host.reduce_eq_fold_single IntOp.addi _ _ reducesTo_S64x1024x1024_S64x1024_d2 hred h_S_ (ix2 R l)]
  have hlift : ∀ k : Fin 1024, hred.lift (ix2 R l) k = ix3 R l k := fun k => by
    funext d; apply Fin.ext
    match d with
    | ⟨0, _⟩ => rfl
    | ⟨1, _⟩ => rfl
    | ⟨2, _⟩ => rfl
  have hfun : ((extui 32 (cmpi .eq (broadcastInDim S64x1024x1024 ![0, 1, 2] bcast_S64x1024x1_S64x1024x1024_0_1_2 (broadcastInDim S64x1024x1 ![0, 1] bcast_S64x1024_S64x1024x1_0_1 a)) (broadcastInDim S64x1024x1024 ![0, 1, 2] bcast_S64x1x1024_S64x1024x1024_0_1_2 (broadcastInDim S64x1x1024 ![0, 2] bcast_S64x1024_S64x1x1024_0_2 b))) natLt_1_32 : IVec S64x1024x1024 32) ∘ hred.lift (ix2 R l))
      = fun k : Fin 1024 => (IntOp.cmpi .eq (a (ix2 R l)) (b (ix2 R k))).setWidth 32 := funext fun (k : Fin 1024) => by
    show (extui 32 (cmpi .eq (broadcastInDim S64x1024x1024 ![0, 1, 2] bcast_S64x1024x1_S64x1024x1024_0_1_2 (broadcastInDim S64x1024x1 ![0, 1] bcast_S64x1024_S64x1024x1_0_1 a)) (broadcastInDim S64x1024x1024 ![0, 1, 2] bcast_S64x1x1024_S64x1024x1024_0_1_2 (broadcastInDim S64x1x1024 ![0, 2] bcast_S64x1024_S64x1x1024_0_2 b))) natLt_1_32 : IVec S64x1024x1024 32) (hred.lift (ix2 R l) k) = _
    rw [hlift k]; exact eqBits_apply a b R l k
  have hfold : (Finset.univ : Finset (Fin 1024)).fold IntOp.addi (0#32) (fun k : Fin 1024 => (IntOp.cmpi .eq (a (ix2 R l)) (b (ix2 R k))).setWidth 32)
      = BitVec.ofNat 32 ((Finset.univ.filter fun k : Fin 1024 => a (ix2 R l) = b (ix2 R k)).card) := by
    rw [IndicatorCount.fold_addi_setWidth_eq_card]
    congr 2
    exact Finset.filter_congr fun k _ => IntOp.cmpi_eq
  refine (congrArg (FloatOps.sitofp (F := Ideal) .f32) ((congrArg (fun f => (Finset.univ : Finset (Fin 1024)).fold IntOp.addi (0#32) f) hfun).trans hfold)).trans ?_
  show (((BitVec.ofNat 32 _).toInt : ℝ) : EReal) = _
  rw [toInt_ofNat_small _ (le_trans (Finset.card_filter_le _ _) (by simp)), sum_ind_eq_card]
  norm_cast

/-- The stack at a channel. -/
theorem stackStage_apply0 (c0 c1 : S64x1024.Idx → EReal) (R : Fin 64) (l : Fin 1024) :
    stackStage (F := Ideal) c0 c1 (ix3 R l (0 : Fin 2)) = c0 (ix2 R l) := by
  unfold stackStage
  refine (concatenate_pair_apply_left (s₁ := S64x1024x1) (s₂ := S64x1024x1) (2 : Fin 3) _ _ _ (ix3 R l (0 : Fin 2)) rfl (ix3 R l (0 : Fin 1)) (fun b => by
    match b with
    | ⟨0, _⟩ => rfl
    | ⟨1, _⟩ => rfl
    | ⟨2, _⟩ => rfl)).trans ?_
  exact broadcastInDim_apply _ _ _ (ix3 R l (0 : Fin 1)) (ix2 R l) (fun ax => by
    match ax with
    | ⟨0, _⟩ => show R.val = if (64 : ℕ) = 1 then 0 else R.val; rw [if_neg (by decide)]
    | ⟨1, _⟩ => show l.val = if (1024 : ℕ) = 1 then 0 else l.val; rw [if_neg (by decide)])
theorem stackStage_apply1 (c0 c1 : S64x1024.Idx → EReal) (R : Fin 64) (l : Fin 1024) :
    stackStage (F := Ideal) c0 c1 (ix3 R l (1 : Fin 2)) = c1 (ix2 R l) := by
  unfold stackStage
  refine (concatenate_pair_apply_right (s₁ := S64x1024x1) (s₂ := S64x1024x1) (2 : Fin 3) _ _ _ (ix3 R l (1 : Fin 2)) rfl rfl (ix3 R l (0 : Fin 1)) (fun b hb => by
    match b with
    | ⟨0, _⟩ => rfl
    | ⟨1, _⟩ => rfl
    | ⟨2, _⟩ => exact absurd rfl hb) rfl).trans ?_
  exact broadcastInDim_apply _ _ _ (ix3 R l (0 : Fin 1)) (ix2 R l) (fun ax => by
    match ax with
    | ⟨0, _⟩ => show R.val = if (64 : ℕ) = 1 then 0 else R.val; rw [if_neg (by decide)]
    | ⟨1, _⟩ => show l.val = if (1024 : ℕ) = 1 then 0 else l.val; rw [if_neg (by decide)])

/-- The mask at (R, l, channel). -/
theorem maskStage_apply (a : S64x1024.Idx → BitVec 32) (app : S64x1024x2.Idx → EReal) (R : Fin 64) (l : Fin 1024) (ch : Fin 2) :
    maskStage (F := Ideal) a app (ix3 R l ch) = mask (a (ix2 R l)) (app (ix3 R l ch)) := by
  unfold maskStage mask
  rw [select_apply]
  have hc : broadcastInDim S64x1024x2 ![0, 1, 2] bcast_S64x1024x1_S64x1024x2_0_1_2 (broadcastInDim S64x1024x1 ![0, 1] bcast_S64x1024_S64x1024x1_0_1
        (cmpi .eq a (broadcastInDim S64x1024 ![] bcast_S_S64x1024 (constantI S_ 32 0#32)))) (ix3 R l ch)
      = IntOp.cmpi .eq (a (ix2 R l)) 0#32 := by
    refine (broadcastInDim_apply _ _ _ (ix3 R l ch) (ix3 R l (0 : Fin 1)) (fun ax => by
      match ax with
      | ⟨0, _⟩ => show R.val = if (64 : ℕ) = 1 then 0 else R.val; rw [if_neg (by decide)]
      | ⟨1, _⟩ => show l.val = if (1024 : ℕ) = 1 then 0 else l.val; rw [if_neg (by decide)]
      | ⟨2, _⟩ => show (0 : ℕ) = if (1 : ℕ) = 1 then 0 else ch.val; rw [if_pos rfl])).trans ?_
    refine (broadcastInDim_apply _ _ _ (ix3 R l (0 : Fin 1)) (ix2 R l) (fun ax => by
      match ax with
      | ⟨0, _⟩ => show R.val = if (64 : ℕ) = 1 then 0 else R.val; rw [if_neg (by decide)]
      | ⟨1, _⟩ => show l.val = if (1024 : ℕ) = 1 then 0 else l.val; rw [if_neg (by decide)])).trans ?_
    show IntOp.cmpi .eq (a (ix2 R l)) (broadcastInDim S64x1024 ![] bcast_S_S64x1024 (constantI S_ 32 0#32) (ix2 R l)) = _
    rw [broadcastInDim_scalar_apply]; rfl
  have hz : broadcastInDim S64x1024x2 ![] bcast_S_S64x1024x2 (id (constant (F := Ideal) S_ .f32 0x00000000#32)) (ix3 R l ch) = Ideal.ofBits .f32 0x00000000#32 := by
    rw [broadcastInDim_scalar_apply]; rfl
  rw [hc, hz]

/-! ## The encoder -/

theorem lhs0 (i : S64x1024x2x64.Idx) (q : dot_S64x1024x2x64_S64x64_S64x1024x2x64_3_1_012_0_n_n.contr.Idx) : (dot_S64x1024x2x64_S64x64_S64x1024x2x64_3_1_012_0_n_n.lhsIdx i q 0).val = (i 0).val := by
  unfold DotDims.lhsIdx
  rw [dif_neg (show ¬(0 : Fin S64x1024x2x64.rank) ∈ dot_S64x1024x2x64_S64x64_S64x1024x2x64_3_1_012_0_n_n.lhsBatch by decide), dif_pos (show (0 : Fin S64x1024x2x64.rank) ∈ dot_S64x1024x2x64_S64x64_S64x1024x2x64_3_1_012_0_n_n.lhsNonContracting by decide)]
  rfl
theorem lhs1 (i : S64x1024x2x64.Idx) (q : dot_S64x1024x2x64_S64x64_S64x1024x2x64_3_1_012_0_n_n.contr.Idx) : (dot_S64x1024x2x64_S64x64_S64x1024x2x64_3_1_012_0_n_n.lhsIdx i q 1).val = (i 1).val := by
  unfold DotDims.lhsIdx
  rw [dif_neg (show ¬(1 : Fin S64x1024x2x64.rank) ∈ dot_S64x1024x2x64_S64x64_S64x1024x2x64_3_1_012_0_n_n.lhsBatch by decide), dif_pos (show (1 : Fin S64x1024x2x64.rank) ∈ dot_S64x1024x2x64_S64x64_S64x1024x2x64_3_1_012_0_n_n.lhsNonContracting by decide)]
  rfl
theorem lhs2 (i : S64x1024x2x64.Idx) (q : dot_S64x1024x2x64_S64x64_S64x1024x2x64_3_1_012_0_n_n.contr.Idx) : (dot_S64x1024x2x64_S64x64_S64x1024x2x64_3_1_012_0_n_n.lhsIdx i q 2).val = (i 2).val := by
  unfold DotDims.lhsIdx
  rw [dif_neg (show ¬(2 : Fin S64x1024x2x64.rank) ∈ dot_S64x1024x2x64_S64x64_S64x1024x2x64_3_1_012_0_n_n.lhsBatch by decide), dif_pos (show (2 : Fin S64x1024x2x64.rank) ∈ dot_S64x1024x2x64_S64x64_S64x1024x2x64_3_1_012_0_n_n.lhsNonContracting by decide)]
  rfl
theorem lhs3 (i : S64x1024x2x64.Idx) (q : dot_S64x1024x2x64_S64x64_S64x1024x2x64_3_1_012_0_n_n.contr.Idx) : (dot_S64x1024x2x64_S64x64_S64x1024x2x64_3_1_012_0_n_n.lhsIdx i q 3).val = (q ⟨0, by decide⟩).val :=
  dot_S64x1024x2x64_S64x64_S64x1024x2x64_3_1_012_0_n_n.lhsIdx_val_of_single rfl i q
theorem rhs0 (i : S64x1024x2x64.Idx) (q : dot_S64x1024x2x64_S64x64_S64x1024x2x64_3_1_012_0_n_n.contr.Idx) : (dot_S64x1024x2x64_S64x64_S64x1024x2x64_3_1_012_0_n_n.rhsIdx i q 0).val = (i 3).val := by
  unfold DotDims.rhsIdx
  rw [dif_neg (show ¬(0 : Fin S64x64.rank) ∈ dot_S64x1024x2x64_S64x64_S64x1024x2x64_3_1_012_0_n_n.rhsBatch by decide), dif_pos (show (0 : Fin S64x64.rank) ∈ dot_S64x1024x2x64_S64x64_S64x1024x2x64_3_1_012_0_n_n.rhsNonContracting by decide)]
  rfl
theorem rhs1 (i : S64x1024x2x64.Idx) (q : dot_S64x1024x2x64_S64x64_S64x1024x2x64_3_1_012_0_n_n.contr.Idx) : (dot_S64x1024x2x64_S64x64_S64x1024x2x64_3_1_012_0_n_n.rhsIdx i q 1).val = (q ⟨0, by decide⟩).val :=
  dot_S64x1024x2x64_S64x64_S64x1024x2x64_3_1_012_0_n_n.rhsIdx_val_of_single rfl i q

/-- The host's contraction with W2 at (R, l, channel, e): Σ_d h (R, l, channel, d) · W2 (e, d). -/
theorem contractRef_apply (h : FVec Ideal S64x1024x2x64 .f32) (W2 : FVec Ideal S64x64 .f32) (R : Fin 64) (l : Fin 1024) (ch : Fin 2) (e : Fin 64) :
    Host.dotGeneral (F := Ideal) dot_S64x1024x2x64_S64x64_S64x1024x2x64_3_1_012_0_n_n none h W2 (ix4 R l ch e) = ∑ d : Fin 64, h (ix4 R l ch d) * W2 (ix2 e d) := by
  simp only [Host.dotGeneral]
  rw [Ideal.dotGeneral_apply, ← Equiv.sum_comp (ValueIdx.contrEquiv1 dot_S64x1024x2x64_S64x64_S64x1024x2x64_3_1_012_0_n_n 64 rfl rfl).symm]
  refine Finset.sum_congr rfl fun k _ => ?_
  have hk := ValueIdx.contrEquiv1_symm_val dot_S64x1024x2x64_S64x64_S64x1024x2x64_3_1_012_0_n_n 64 rfl rfl k
  have el : dot_S64x1024x2x64_S64x64_S64x1024x2x64_3_1_012_0_n_n.lhsIdx (ix4 R l ch e) ((ValueIdx.contrEquiv1 dot_S64x1024x2x64_S64x64_S64x1024x2x64_3_1_012_0_n_n 64 rfl rfl).symm k) = ix4 R l ch k := funext fun a => Fin.ext (by
    match a with
    | ⟨0, _⟩ => exact lhs0 _ _
    | ⟨1, _⟩ => exact lhs1 _ _
    | ⟨2, _⟩ => exact lhs2 _ _
    | ⟨3, _⟩ => exact (lhs3 _ _).trans hk)
  have er : dot_S64x1024x2x64_S64x64_S64x1024x2x64_3_1_012_0_n_n.rhsIdx (ix4 R l ch e) ((ValueIdx.contrEquiv1 dot_S64x1024x2x64_S64x64_S64x1024x2x64_3_1_012_0_n_n 64 rfl rfl).symm k) = ix2 e k := funext fun a => Fin.ext (by
    match a with
    | ⟨0, _⟩ => exact rhs0 _ _
    | ⟨1, _⟩ => exact (rhs1 _ _).trans hk)
  rw [el, er]

/-- A vector laid along the last axis of the [64, 1024, 2, 64] array, at (R, l, channel, d). -/
theorem lastAxis_apply (v : S64.Idx → EReal) (R : Fin 64) (l : Fin 1024) (ch : Fin 2) (d : Fin 64) :
    broadcastInDim S64x1024x2x64 ![0, 1, 2, 3] bcast_S1x1x1x64_S64x1024x2x64_0_1_2_3 (broadcastInDim S1x1x1x64 ![3] bcast_S64_S1x1x1x64_3 v) (ix4 R l ch d) = v (ix1 d) := by
  refine (broadcastInDim_apply _ _ _ (ix4 R l ch d) (ix4 (0 : Fin 1) (0 : Fin 1) (0 : Fin 1) d) (fun ax => by
    match ax with
    | ⟨0, _⟩ => show (0 : ℕ) = if (1 : ℕ) = 1 then 0 else R.val; rw [if_pos rfl]
    | ⟨1, _⟩ => show (0 : ℕ) = if (1 : ℕ) = 1 then 0 else l.val; rw [if_pos rfl]
    | ⟨2, _⟩ => show (0 : ℕ) = if (1 : ℕ) = 1 then 0 else ch.val; rw [if_pos rfl]
    | ⟨3, _⟩ => show d.val = if (64 : ℕ) = 1 then 0 else d.val; rw [if_neg (by decide)])).trans ?_
  exact broadcastInDim_apply _ _ _ (ix4 (0 : Fin 1) (0 : Fin 1) (0 : Fin 1) d) (ix1 d) (fun ax => by
    match ax with
    | ⟨0, _⟩ => show d.val = if (64 : ℕ) = 1 then 0 else d.val; rw [if_neg (by decide)])

/-- The masked stack spread along the feature axis, at (R, l, channel, d). -/
theorem spread_apply (msk : S64x1024x2.Idx → EReal) (R : Fin 64) (l : Fin 1024) (ch : Fin 2) (d : Fin 64) :
    broadcastInDim S64x1024x2x64 ![0, 1, 2, 3] bcast_S64x1024x2x1_S64x1024x2x64_0_1_2_3 (broadcastInDim S64x1024x2x1 ![0, 1, 2] bcast_S64x1024x2_S64x1024x2x1_0_1_2 msk) (ix4 R l ch d)
      = msk (ix3 R l ch) := by
  refine (broadcastInDim_apply _ _ _ (ix4 R l ch d) (ix4 R l ch (0 : Fin 1)) (fun ax => by
    match ax with
    | ⟨0, _⟩ => show R.val = if (64 : ℕ) = 1 then 0 else R.val; rw [if_neg (by decide)]
    | ⟨1, _⟩ => show l.val = if (1024 : ℕ) = 1 then 0 else l.val; rw [if_neg (by decide)]
    | ⟨2, _⟩ => show ch.val = if (2 : ℕ) = 1 then 0 else ch.val; rw [if_neg (by decide)]
    | ⟨3, _⟩ => show (0 : ℕ) = if (1 : ℕ) = 1 then 0 else d.val; rw [if_pos rfl])).trans ?_
  exact broadcastInDim_apply _ _ _ (ix4 R l ch (0 : Fin 1)) (ix3 R l ch) (fun ax => by
    match ax with
    | ⟨0, _⟩ => show R.val = if (64 : ℕ) = 1 then 0 else R.val; rw [if_neg (by decide)]
    | ⟨1, _⟩ => show l.val = if (1024 : ℕ) = 1 then 0 else l.val; rw [if_neg (by decide)]
    | ⟨2, _⟩ => show ch.val = if (2 : ℕ) = 1 then 0 else ch.val; rw [if_neg (by decide)])

/-- W1's column as the vector the first layer uses: entry d is W1[d, 0]. -/
theorem w1col_apply (w1 : S64x1.Idx → EReal) (d : Fin 64) : shapeCast S64 w1 shapeCasts_S64x1_S64 (ix1 d) = w1 (ix2 d (0 : Fin 1)) := by
  refine shapeCast_apply _ _ _ _ ?_
  show ((⟨2, ![64, 1]⟩ : Shape).rowMajor (ix2 d (0 : Fin 1))).val = ((⟨1, ![64]⟩ : Shape).rowMajor (ix1 d)).val
  rw [Shape.rowMajor_val_two, Shape.rowMajor_val_one]
  show d.val * 1 + 0 = d.val
  omega

/-- The encoder at (R, l, e), in the reference's spelling. -/
theorem encStage_apply (msk : S64x1024x2.Idx → EReal) (w1 : S64x1.Idx → EReal) (b1 : S64.Idx → EReal) (W2 : S64x64.Idx → EReal) (b2 : S64.Idx → EReal)
    (R : Fin 64) (l : Fin 1024) (e : Fin 64) :
    encStage (F := Ideal) msk w1 b1 W2 b2 (ix3 R l e)
      = encR (msk (ix3 R l (0 : Fin 2))) (msk (ix3 R l (1 : Fin 2))) (fun d => w1 (ix2 d (0 : Fin 1))) (fun d => b1 (ix1 d)) (fun d => b2 (ix1 d)) (fun d e => W2 (ix2 e d)) e := by
  have hred : S64x1024x2x64.Reduces [2] S64x1024x64 := by decide
  unfold encStage encR
  rw [hostReduceAdd_apply, Ideal.hostReduceAdd_single reducesTo_S64x1024x2x64_S64x1024x64_d2 hred]
  have hlift : ∀ ch : Fin 2, hred.lift (ix3 R l e) ch = ix4 R l ch e := fun ch => by
    funext d; apply Fin.ext
    match d with
    | ⟨0, _⟩ => rfl
    | ⟨1, _⟩ => rfl
    | ⟨2, _⟩ => rfl
    | ⟨3, _⟩ => rfl
  refine congrArg₂ (· + ·) rfl ?_
  show ∑ ch : Fin 2, _ = _
  rw [Fin.sum_univ_two, hlift 0, hlift 1]
  have hch : ∀ ch : Fin 2, (addf (Host.dotGeneral (F := Ideal) dot_S64x1024x2x64_S64x64_S64x1024x2x64_3_1_012_0_n_n none
        (maximumf (addf (mulf (broadcastInDim S64x1024x2x64 ![0, 1, 2, 3] bcast_S64x1024x2x1_S64x1024x2x64_0_1_2_3 (broadcastInDim S64x1024x2x1 ![0, 1, 2] bcast_S64x1024x2_S64x1024x2x1_0_1_2 msk))
              (broadcastInDim S64x1024x2x64 ![0, 1, 2, 3] bcast_S1x1x1x64_S64x1024x2x64_0_1_2_3 (broadcastInDim S1x1x1x64 ![3] bcast_S64_S1x1x1x64_3 (shapeCast _ w1 shapeCasts_S64x1_S64))))
            (broadcastInDim S64x1024x2x64 ![0, 1, 2, 3] bcast_S1x1x1x64_S64x1024x2x64_0_1_2_3 (broadcastInDim S1x1x1x64 ![3] bcast_S64_S1x1x1x64_3 b1)))
          (broadcastInDim S64x1024x2x64 ![] bcast_S_S64x1024x2x64 (constant (F := Ideal) S_ .f32 0x00000000#32))) W2)
        (broadcastInDim S64x1024x2x64 ![0, 1, 2, 3] bcast_S1x1x1x64_S64x1024x2x64_0_1_2_3 (broadcastInDim S1x1x1x64 ![3] bcast_S64_S1x1x1x64_3 b2))) (ix4 R l ch e)
      = (∑ d : Fin 64, hid (msk (ix3 R l ch)) (w1 (ix2 d (0 : Fin 1))) (b1 (ix1 d)) * W2 (ix2 e d)) + b2 (ix1 e) := fun ch => by
    rw [addf_apply, contractRef_apply, lastAxis_apply]
    refine congrArg (· + b2 (ix1 e)) (Finset.sum_congr rfl fun d _ => ?_)
    refine congrArg (· * W2 (ix2 e d)) ?_
    rw [maximumf_apply, addf_apply, mulf_apply, spread_apply, lastAxis_apply, lastAxis_apply, w1col_apply, broadcastInDim_scalar_apply]
    rfl
  rw [hch 0, hch 1]

end Cert.ReferenceIdeal.RefRun

end
-- ==== Proof.Finite.lean ====
/-
  What the precondition gives: every entry of W1, b1, W2 and b2 is a real number. The printed predicate compares each
  entry's absolute value with +∞ and takes the conjunction of all the comparisons; an extended real whose absolute value is
  below +∞ is neither infinity.
-/
import proofs.«133724_j1889785610787_1_alg».proof.Pre_finite_inputs
import proofs.«133724_j1889785610787_1_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.Affine
import Idealize.ShloMosaic.Lib.IdealHost

noncomputable section

namespace Cert.Pre_finite_inputs.Finite

open Cert.Pre_finite_inputs Idealize.ShloMosaic Idealize.ShloMosaic.ValueIdx

attribute [local instance] Cert.Pre_finite_inputs.Gen.facts

instance : Subsingleton S_.Idx := ⟨fun a b => funext fun d => d.elim0⟩

/-- An extended real whose absolute value is below +∞ is a real. -/
theorem real_of_abs_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp only [hn, decide_false] at h
    exact absurd h (by decide)
  induction x using EReal.rec with
  | bot => exact absurd hlt (by simp)
  | coe r => exact ⟨r, rfl⟩
  | top => exact absurd hlt (by simp)

/-- One float argument's clause of the predicate gives every entry of that argument real. -/
theorem real_of_all {s : Shape} {axes : List (Fin s.rank)} (a : s.Idx → EReal) (hb : S_.BroadcastsInDim s (![] : Fin 0 → Fin s.rank))
    (hr : s.ReducesTo axes S_) (hu : 0 < S_.numel)
    (h : Host.reduce IntOp.andi (cmpf .olt (Host.absf (F := Ideal) a) (broadcastInDim s ![] hb (constant (F := Ideal) S_ .f32 0x7F800000#32))) (constantI S_ 1 1#1) hr hu ix0 = 1#1)
    (i : s.Idx) : ∃ r : ℝ, a i = (r : EReal) := by
  have hi := Host.reduce_andi_all _ _ hr hu ix0 h i
  refine real_of_abs_lt (a i) ?_
  rw [cmpf_apply] at hi
  rw [broadcastInDim_scalar_apply] at hi
  exact hi

/-- The precondition, opened: every entry of the four float arguments is real. -/
theorem finite_of_pre (a0 a1 : IVec S64x1024 32) (a2 : FVec Ideal S64x1 .f32) (a3 : FVec Ideal S64 .f32) (a4 : FVec Ideal S64x64 .f32) (a5 : FVec Ideal S64 .f32)
    (h : Cert.Pre_finite_inputs.fn (F := Ideal) a0 a1 a2 a3 a4 a5 = fun _ => 1#1) :
    (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) := by
  have h0 := congrFun h ix0
  unfold Cert.Pre_finite_inputs.fn Cert.Pre_finite_inputs.fn_part1 at h0
  dsimp only at h0
  obtain ⟨h13, h17⟩ := IntOp.andi_eq_one.mp h0
  obtain ⟨h8, h12⟩ := IntOp.andi_eq_one.mp h13
  obtain ⟨h3, h7⟩ := IntOp.andi_eq_one.mp h8
  exact ⟨real_of_all a2 _ _ _ h3, real_of_all a3 _ _ _ h7, real_of_all a4 _ _ _ h12, real_of_all a5 _ _ _ h17⟩

end Cert.Pre_finite_inputs.Finite

end
-- ==== Proof.Algebraic.lean ====
/-
  The two idealized programs end with equal results. The kernel's run leaves result 0 at the encoder (kernel's spelling)
  of the masked counts; the reference's leaves the encoder (reference's spelling) of the same masked counts of the same
  arguments — the source-side counts literally the same sums, the destination-against-source count the same sum with the
  two ids of each indicator exchanged. The counts are natural numbers and the precondition makes every parameter a real, so
  the two spellings of the encoder agree.
-/
import proofs.«133724_j1889785610787_1_alg».proof.Defs
import proofs.«133724_j1889785610787_1_alg».proof.Proof.IdealOutputs
import proofs.«133724_j1889785610787_1_alg».proof.Proof.RefRead
import proofs.«133724_j1889785610787_1_alg».proof.Proof.Finite

set_option maxRecDepth 65536

noncomputable section

namespace Cert.Proof

open Idealize.ShloMosaic Idealize.ShloMosaic.TcCoe Idealize.ShloMosaic.ValueIdx Idealize.SL.Sem Cert.Cooccur
open Cert.KernelIdeal.Tiles

/-- A masked count is a real. -/
theorem maskCount_real {ι : Type} [Fintype ι] [DecidableEq ι] (x z : BitVec 32) (y : ι → BitVec 32) :
    ∃ r : ℝ, mask z (∑ j : ι, ind x (y j)) = (r : EReal) := by
  rw [sum_ind_eq_card]; exact mask_real _ _

/-- The encoder's two spellings agree on masked counts and real parameters. -/
theorem enc_agree (c0 c1 : EReal) (w1 b1 b2 : Fin 64 → EReal) (Wt : Fin 64 → Fin 64 → EReal) (e : Fin 64)
    (h0 : ∃ r : ℝ, c0 = (r : EReal)) (h1 : ∃ r : ℝ, c1 = (r : EReal)) (hw : ∀ d, ∃ r : ℝ, w1 d = (r : EReal)) (hb1 : ∀ d, ∃ r : ℝ, b1 d = (r : EReal))
    (hb2 : ∀ d, ∃ r : ℝ, b2 d = (r : EReal)) (hW : ∀ d e, ∃ r : ℝ, Wt d e = (r : EReal)) :
    encK c0 c1 w1 b1 b2 Wt e = encR c0 c1 w1 b1 b2 Wt e := by
  obtain ⟨r0, rfl⟩ := h0
  obtain ⟨r1, rfl⟩ := h1
  choose w hw using hw
  choose b hb1 using hb1
  choose b' hb2 using hb2
  choose W hW using hW
  have e1 : w1 = fun d => (w d : EReal) := funext hw
  have e2 : b1 = fun d => (b d : EReal) := funext hb1
  have e3 : b2 = fun d => (b' d : EReal) := funext hb2
  have e4 : Wt = fun d e => (W d e : EReal) := funext fun d => funext fun e => hW d e
  rw [e1, e2, e3, e4]
  exact encK_eq_encR r0 r1 w b b' W e

set_option maxHeartbeats 2000000

/-- Result 0: the reference's staged term, at the kernel's arguments, is the kernel's whole-array function. -/
theorem result0_match (m : (ℓ : Loc Cert.KernelIdeal.nD Cert.KernelIdeal.τ Cert.KernelIdeal.sig) → Buf (Elt Ideal) ℓ) (c : Dev Cert.KernelIdeal.nD)
    (f2 : ∀ i, ∃ r : ℝ, m ((c.tc : Thread _ _).loc Cert.KernelIdeal.main_arg2) i = (r : EReal))
    (f3 : ∀ i, ∃ r : ℝ, m ((c.tc : Thread _ _).loc Cert.KernelIdeal.main_arg3) i = (r : EReal))
    (f4 : ∀ i, ∃ r : ℝ, m ((c.tc : Thread _ _).loc Cert.KernelIdeal.main_arg4) i = (r : EReal))
    (f5 : ∀ i, ∃ r : ℝ, m ((c.tc : Thread _ _).loc Cert.KernelIdeal.main_arg5) i = (r : EReal)) :
    Cert.ReferenceIdeal.RefRun.encStage (F := Ideal) (Cert.ReferenceIdeal.RefRun.maskStage (m ((c.tc : Thread _ _).loc Cert.KernelIdeal.main_arg0))
        (Cert.ReferenceIdeal.RefRun.stackStage (Cert.ReferenceIdeal.RefRun.cntStage (m ((c.tc : Thread _ _).loc Cert.KernelIdeal.main_arg0)) (m ((c.tc : Thread _ _).loc Cert.KernelIdeal.main_arg0))) (Cert.ReferenceIdeal.RefRun.cntStage (m ((c.tc : Thread _ _).loc Cert.KernelIdeal.main_arg0)) (m ((c.tc : Thread _ _).loc Cert.KernelIdeal.main_arg1)))))
      (m ((c.tc : Thread _ _).loc Cert.KernelIdeal.main_arg2)) (m ((c.tc : Thread _ _).loc Cert.KernelIdeal.main_arg3)) (m ((c.tc : Thread _ _).loc Cert.KernelIdeal.main_arg4)) (m ((c.tc : Thread _ _).loc Cert.KernelIdeal.main_arg5))
      = G0 m c := by
  funext i
  obtain ⟨R, l, e, rfl⟩ : ∃ (R : Fin 64) (l : Fin 1024) (e : Fin 64), i = ix3 R l e := ⟨i 0, i 1, i 2, eq_ix3 i⟩
  rw [Cert.ReferenceIdeal.RefRun.encStage_apply, Cert.ReferenceIdeal.RefRun.maskStage_apply, Cert.ReferenceIdeal.RefRun.maskStage_apply, Cert.ReferenceIdeal.RefRun.stackStage_apply0, Cert.ReferenceIdeal.RefRun.stackStage_apply1,
    Cert.ReferenceIdeal.RefRun.cntStage_apply, Cert.ReferenceIdeal.RefRun.cntStage_apply]
  refine Eq.trans ?_ (show out0 m c R l e = G0 m c (ix3 R l e) from rfl)
  unfold out0 pw1 pb1 pb2 pWt
  rw [pcount_full, pcount_full]
  simp only [A0, A1, V_main_arg0, V_main_arg1]
  exact (enc_agree _ _ _ _ _ _ e (maskCount_real _ _ _) (maskCount_real _ _ _) (fun d => f2 _) (fun d => f3 _) (fun d => f5 _) (fun d e => f4 _)).symm

/-- Result 1 likewise; its first count is the kernel's column count with the two ids of each indicator exchanged. -/
theorem result1_match (m : (ℓ : Loc Cert.KernelIdeal.nD Cert.KernelIdeal.τ Cert.KernelIdeal.sig) → Buf (Elt Ideal) ℓ) (c : Dev Cert.KernelIdeal.nD)
    (f2 : ∀ i, ∃ r : ℝ, m ((c.tc : Thread _ _).loc Cert.KernelIdeal.main_arg2) i = (r : EReal))
    (f3 : ∀ i, ∃ r : ℝ, m ((c.tc : Thread _ _).loc Cert.KernelIdeal.main_arg3) i = (r : EReal))
    (f4 : ∀ i, ∃ r : ℝ, m ((c.tc : Thread _ _).loc Cert.KernelIdeal.main_arg4) i = (r : EReal))
    (f5 : ∀ i, ∃ r : ℝ, m ((c.tc : Thread _ _).loc Cert.KernelIdeal.main_arg5) i = (r : EReal)) :
    Cert.ReferenceIdeal.RefRun.encStage (F := Ideal) (Cert.ReferenceIdeal.RefRun.maskStage (m ((c.tc : Thread _ _).loc Cert.KernelIdeal.main_arg1))
        (Cert.ReferenceIdeal.RefRun.stackStage (Cert.ReferenceIdeal.RefRun.cntStage (m ((c.tc : Thread _ _).loc Cert.KernelIdeal.main_arg1)) (m ((c.tc : Thread _ _).loc Cert.KernelIdeal.main_arg0))) (Cert.ReferenceIdeal.RefRun.cntStage (m ((c.tc : Thread _ _).loc Cert.KernelIdeal.main_arg1)) (m ((c.tc : Thread _ _).loc Cert.KernelIdeal.main_arg1)))))
      (m ((c.tc : Thread _ _).loc Cert.KernelIdeal.main_arg2)) (m ((c.tc : Thread _ _).loc Cert.KernelIdeal.main_arg3)) (m ((c.tc : Thread _ _).loc Cert.KernelIdeal.main_arg4)) (m ((c.tc : Thread _ _).loc Cert.KernelIdeal.main_arg5))
      = G1 m c := by
  funext i
  obtain ⟨R, l, e, rfl⟩ : ∃ (R : Fin 64) (l : Fin 1024) (e : Fin 64), i = ix3 R l e := ⟨i 0, i 1, i 2, eq_ix3 i⟩
  rw [Cert.ReferenceIdeal.RefRun.encStage_apply, Cert.ReferenceIdeal.RefRun.maskStage_apply, Cert.ReferenceIdeal.RefRun.maskStage_apply, Cert.ReferenceIdeal.RefRun.stackStage_apply0, Cert.ReferenceIdeal.RefRun.stackStage_apply1,
    Cert.ReferenceIdeal.RefRun.cntStage_apply, Cert.ReferenceIdeal.RefRun.cntStage_apply]
  refine Eq.trans ?_ (show out1 m c R l e = G1 m c (ix3 R l e) from rfl)
  unfold out1 pw1 pb1 pb2 pWt ccount
  rw [pcount_full]
  simp only [A0, A1, V_main_arg0, V_main_arg1]
  have hsw : (∑ j : Fin 1024, ind (m ((c.tc : Thread _ _).loc Cert.KernelIdeal.main_arg1) (ix2 R l)) (m ((c.tc : Thread _ _).loc Cert.KernelIdeal.main_arg0) (ix2 R j)))
      = ∑ j : Fin 1024, ind (V m c Cert.KernelIdeal.main_arg0 (ix2 R j)) (V m c Cert.KernelIdeal.main_arg1 (ix2 R l)) :=
    Finset.sum_congr rfl fun j _ => by rw [V_main_arg0, V_main_arg1]; exact ind_comm _ _
  rw [hsw]
  refine (enc_agree _ _ _ _ _ _ e ?_ (maskCount_real _ _ _) (fun d => f2 _) (fun d => f3 _) (fun d => f5 _) (fun d e => f4 _)).symm
  rw [← hsw]; exact maskCount_real _ _ _

theorem algebraic : Cert.algebraic_KernelIdeal_ReferenceIdeal := by
  intro m ρ m' ρ' hpre hagree
  refine ⟨fun c => G0 m c, fun c => G1 m c, kernel_run m ρ, ?_⟩
  refine (θ_run Cert.ReferenceIdeal.defs _ _).mono (fun r h c => ?_) (Cert.ReferenceIdeal.RefRun.run (F := Ideal) m' ρ')
  obtain ⟨ag0, ag1, ag2, ag3, ag4, ag5⟩ := hagree c
  obtain ⟨f2, f3, f4, f5⟩ := Cert.Pre_finite_inputs.Finite.finite_of_pre _ _ _ _ _ _ (hpre c)
  have e0 : StableHlo.launchContents m' c (Proc.devRef .tc Cert.ReferenceIdeal.main_arg0) = m ((c.tc : Thread _ _).loc Cert.KernelIdeal.main_arg0) := ag0
  have e1 : StableHlo.launchContents m' c (Proc.devRef .tc Cert.ReferenceIdeal.main_arg1) = m ((c.tc : Thread _ _).loc Cert.KernelIdeal.main_arg1) := ag1
  have e2 : StableHlo.launchContents m' c (Proc.devRef .tc Cert.ReferenceIdeal.main_arg2) = m ((c.tc : Thread _ _).loc Cert.KernelIdeal.main_arg2) := ag2
  have e3 : StableHlo.launchContents m' c (Proc.devRef .tc Cert.ReferenceIdeal.main_arg3) = m ((c.tc : Thread _ _).loc Cert.KernelIdeal.main_arg3) := ag3
  have e4 : StableHlo.launchContents m' c (Proc.devRef .tc Cert.ReferenceIdeal.main_arg4) = m ((c.tc : Thread _ _).loc Cert.KernelIdeal.main_arg4) := ag4
  have e5 : StableHlo.launchContents m' c (Proc.devRef .tc Cert.ReferenceIdeal.main_arg5) = m ((c.tc : Thread _ _).loc Cert.KernelIdeal.main_arg5) := ag5
  refine ⟨?_, ?_, (h c _).trans (Cert.ReferenceIdeal.RefRun.kept m' c _ (.inl rfl)), (h c _).trans (Cert.ReferenceIdeal.RefRun.kept m' c _ (.inr (.inl rfl))),
    (h c _).trans (Cert.ReferenceIdeal.RefRun.kept m' c _ (.inr (.inr (.inl rfl)))), (h c _).trans (Cert.ReferenceIdeal.RefRun.kept m' c _ (.inr (.inr (.inr (.inl rfl))))),
    (h c _).trans (Cert.ReferenceIdeal.RefRun.kept m' c _ (.inr (.inr (.inr (.inr (.inl rfl)))))), (h c _).trans (Cert.ReferenceIdeal.RefRun.kept m' c _ (.inr (.inr (.inr (.inr (.inr rfl))))))⟩
  · refine (h c Cert.ReferenceIdeal.main_v60).trans ?_
    rw [Cert.ReferenceIdeal.RefRun.out0_eq, e0, e1, e2, e3, e4, e5]
    exact result0_match m c f2 f3 f4 f5
  · refine (h c Cert.ReferenceIdeal.main_v75).trans ?_
    rw [Cert.ReferenceIdeal.RefRun.out1_eq, e0, e1, e2, e3, e4, e5]
    exact result1_match m c f2 f3 f4 f5

end Cert.Proof

end
-- ==== Proof.lean ====
/-
  The certificate of the neighbour co-occurrence encoder: a kernel that, per batch row, counts for every source and
  destination position how often its id occurs among the row's source ids and among its destination ids (tile by tile over
  the key axis, in four accumulators), zeroes the counts of padding positions, and passes each pair of counts through a
  1 → 64 → 64 encoder — against a reference that forms the four [64, 1024, 1024] equality tables whole.

  The three frames: the kernel's (word-level and idealized) through the launch with the two id arrays each dealt in halves
  to its two windows; the reference's as a straight line of host operations. The idealization rewrote nothing, so
  `preserves` is trivial. The two idealized programs' results agree as extended reals: `algebraic`.
-/
import proofs.«133724_j1889785610787_1_alg».proof.Defs
import proofs.«133724_j1889785610787_1_alg».proof.Proof.Gen.Kernel
import proofs.«133724_j1889785610787_1_alg».proof.Proof.Gen.KernelIdeal
import proofs.«133724_j1889785610787_1_alg».proof.Proof.Gen.ReferenceIdeal
import proofs.«133724_j1889785610787_1_alg».proof.Proof.Gen.Pre_finite_inputs
import proofs.«133724_j1889785610787_1_alg».proof.Proof.BitsFrameRun
import proofs.«133724_j1889785610787_1_alg».proof.Proof.IdealFrameRun
import proofs.«133724_j1889785610787_1_alg».proof.Proof.RefRun
import proofs.«133724_j1889785610787_1_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Tiles.frame (F := Bits) m ρ
theorem frame_ki : Cert.frame_KernelIdeal := fun m ρ _ => Cert.KernelIdeal.Tiles.frame (F := Ideal) m ρ
theorem frame_ri : Cert.frame_ReferenceIdeal := fun m ρ _ => Cert.ReferenceIdeal.RefRun.frame (F := Ideal) m ρ

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
